-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩
abbrev S5000x128 : Shape := ⟨2, ![5000, 128]⟩
abbrev S5000x1 : Shape := ⟨2, ![5000, 1]⟩
abbrev S5000x64 : Shape := ⟨2, ![5000, 64]⟩
abbrev S5000x40 : Shape := ⟨2, ![5000, 40]⟩
abbrev S5000 : Shape := ⟨1, ![5000]⟩

abbrev nBuf : Space → Nat
  | .hbm => 59
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S1x64, .f32⟩
  | .hbm, ⟨43, _⟩ => ⟨S100000x40, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x40, .f32⟩
  | .hbm, ⟨53, _⟩ => ⟨S_, .f32⟩
  | .hbm, ⟨54, _⟩ => ⟨S100000x40, .f32⟩
  | .hbm, ⟨55, _⟩ => ⟨S1600000x1, .i32⟩
  | .hbm, ⟨56, _⟩ => ⟨S100000x40, .f32⟩
  | .hbm, ⟨57, _⟩ => ⟨S1x40, .f32⟩
  | .hbm, ⟨58, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x1, .f32⟩
  | .local _ .vmem, ⟨22, _⟩ => ⟨S5000x1, .f32⟩
  | .local _ .vmem, ⟨23, _⟩ => ⟨S1x40, .f32⟩
  | .local _ .vmem, ⟨24, _⟩ => ⟨S5000x40, .f32⟩
  | .local _ .vmem, ⟨25, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_cst : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_cst_2 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_cst_3 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_c : Ref sig .tc := ⟨.hbm, 29, rfl⟩
abbrev main_call0_v16 : Ref sig .tc := ⟨.hbm, 30, rfl⟩
abbrev main_call0_v17 : Ref sig .tc := ⟨.hbm, 31, rfl⟩
abbrev main_call0_c_4 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_cst_5 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_c_6 : Ref sig .tc := ⟨.hbm, 44, rfl⟩
abbrev main_call0_v28 : Ref sig .tc := ⟨.hbm, 45, rfl⟩
abbrev main_call0_v29 : Ref sig .tc := ⟨.hbm, 46, rfl⟩
abbrev main_call0_c_7 : Ref sig .tc := ⟨.hbm, 47, rfl⟩
abbrev main_call0_v30 : Ref sig .tc := ⟨.hbm, 48, rfl⟩
abbrev main_call0_v31 : Ref sig .tc := ⟨.hbm, 49, rfl⟩
abbrev main_call0_v32 : Ref sig .tc := ⟨.hbm, 50, rfl⟩
abbrev main_call0_v33 : Ref sig .tc := ⟨.hbm, 51, rfl⟩
abbrev main_call0_v34 : Ref sig .tc := ⟨.hbm, 52, rfl⟩
abbrev main_call0_cst_8 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_v0 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  bcast_S_S100000x40 : S_.BroadcastsInDim S100000x40 (![] : Fin 0 → Fin S100000x40.rank)
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  dot_S5000x128_S128x64_S5000x64_1_0_0_1_n_n_wf : DotDims.WF S5000x128 S128x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .f32 = 32 ∨ (Rect.block (s := S64x40) S64x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S100000x40.size a
  hwx2_4 : ∀ i : grid2.Coords, EltTy.bits .f32 = 32 ∨ (Rect.block (s := S100000x40) S5000x40.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v27) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v37) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v27) S5000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v14) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v38) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x40, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x40, .f32⟩
  | 115 => ⟨S1700000x1, .f32⟩
  | 116 => ⟨S1700000x40, .f32⟩
  | 117 => ⟨S1700000x40, .f32⟩
  | 118 => ⟨S_, .f32⟩
  | 119 => ⟨S100000x40, .f32⟩
  | 120 => ⟨S1700000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.GcnSpec.lean ====
/-
  The mathematics of a two-layer graph convolution with symmetric degree normalisation, self loops and a final
  log-softmax, as plain functions of coordinates over the extended reals. Nothing here mentions a program.

  A graph on `n` nodes is given by two lists of `E` index WORDS, sources and targets. An edge `j` LANDS on node `i`
  when its target word, read as a signed integer, is `i` (a word naming no node lands nowhere: the edge is dropped).
  The row an edge READS is its source word wrapped once by `n` when negative and then clamped into `[0, n-1]`.

  With `δ i = (1 + #{edges landing on i})^(-1/2)` one layer maps a node-feature product `P` to
      out i k = δ i · ( Σ_{j lands on i} P (row j) k · δ (row j)  +  P i k · δ i ) + b k        (`layer`)
  — the self loop is the second summand. Summing instead over the edges AND one extra edge `i → i` per node the products
  `P (row j) k · (δ (row j) · δ i)` gives the same number when `P` and `δ` are finite (`layerLoops`): distributivity,
  which holds on the reals and fails at the infinities.
-/
import Idealize.ShloMosaic.PureOps.Ideal

noncomputable section

namespace Cert.Gcn

open Idealize.ShloMosaic

/-- The positions of an index list whose word, read signed, is node `i`. -/
def lands {n E : ℕ} (idx : Fin E → BitVec 32) (i : Fin n) : Finset (Fin E) :=
  Finset.univ.filter fun j => (idx j).toInt = (i.val : ℤ)

/-- An index word read signed and clamped into `[0, n-1]`: the row a lookup reads. -/
def clampRow (n : ℕ) (hn : 0 < n) (w : BitVec 32) : Fin n :=
  ⟨min w.toInt.toNat (n - 1), by omega⟩

/-- A negative index word wrapped once by the word `nw` (the number of rows), a non-negative one kept. -/
def wrapW (nw w : BitVec 32) : BitVec 32 :=
  Scalar.select (IntOp.cmpi .slt w 0#32) (IntOp.addi w nw) w

/-- The row an edge reads from its source word: wrapped, then clamped. -/
def srcRow (n : ℕ) (hn : 0 < n) (nw : BitVec 32) (w : BitVec 32) : Fin n :=
  clampRow n hn (wrapW nw w)

/-- A node's degree: the edges landing on it, and its self loop. -/
def deg {n E : ℕ} (dst : Fin E → BitVec 32) (i : Fin n) : EReal :=
  (∑ _j ∈ lands dst i, (1 : EReal)) + 1

/-- The normalisation `deg^(-1/2)`. -/
def dinv {n E : ℕ} (dst : Fin E → BitVec 32) (i : Fin n) : EReal :=
  Ideal.rsqrt (deg dst i)

/-- The product of node features with a weight matrix. -/
def prod {n p q : ℕ} (x : Fin n → Fin p → EReal) (w : Fin p → Fin q → EReal) (r : Fin n) (k : Fin q) : EReal :=
  ∑ t : Fin p, x r t * w t k

/-- A product scaled row by row. -/
def scaled {n q : ℕ} (P : Fin n → Fin q → EReal) (δ : Fin n → EReal) (r : Fin n) (k : Fin q) : EReal :=
  P r k * δ r

/-- What the edges landing on `i` bring: the rows they read, summed. -/
def agg {n E q : ℕ} (row : Fin E → Fin n) (dst : Fin E → BitVec 32) (S : Fin n → Fin q → EReal)
    (i : Fin n) (k : Fin q) : EReal :=
  ∑ j ∈ lands dst i, S (row j) k

/-- A node's own scaled row joined to what its edges brought, normalised, plus the bias. -/
def combine {n q : ℕ} (δ : Fin n → EReal) (T S : Fin n → Fin q → EReal) (b : Fin q → EReal)
    (i : Fin n) (k : Fin q) : EReal :=
  δ i * (T i k + S i k) + b k

/-- One layer, the self loop added in node space. -/
def layer {n E q : ℕ} (row : Fin E → Fin n) (dst : Fin E → BitVec 32) (P : Fin n → Fin q → EReal)
    (δ : Fin n → EReal) (b : Fin q → EReal) : Fin n → Fin q → EReal :=
  combine δ (agg row dst (scaled P δ)) (scaled P δ) b

/-- One layer, the self loops as `n` extra edges `i → i` after the `E` given ones, each edge weighted by the two
    normalisations: `rowS` / `rowD` are the rows the source and target words of the `M = E + n` edges read, `d` the
    target words themselves. -/
def layerLoops {n M q : ℕ} (rowS rowD : Fin M → Fin n) (d : Fin M → BitVec 32) (P : Fin n → Fin q → EReal)
    (δ : Fin n → EReal) (b : Fin q → EReal) (i : Fin n) (k : Fin q) : EReal :=
  (∑ j ∈ lands d i, P (rowS j) k * (δ (rowS j) * δ (rowD j))) + b k

/-- The degree counted over the `M = E + n` edges, self loops included. -/
def degLoops {n M : ℕ} (d : Fin M → BitVec 32) (i : Fin n) : EReal :=
  ∑ _j ∈ lands d i, (1 : EReal)

/-- The rectifier. -/
def relu {n q : ℕ} (z : Fin n → Fin q → EReal) (r : Fin n) (k : Fin q) : EReal := max (z r k) 0

/-- A row's maximum, from `⊥`. -/
def rowMax {q : ℕ} (z : Fin q → EReal) : EReal := (Finset.univ : Finset (Fin q)).fold max ⊥ z

/-- The log-softmax of one row. -/
def logSoftmax {q : ℕ} (z : Fin q → EReal) (k : Fin q) : EReal :=
  (z k - rowMax z) - Ideal.log (∑ t : Fin q, Ideal.exp (z t - rowMax z))

/-- The whole network in node space: two layers, a rectifier between them, a log-softmax at the end. -/
def net {n E p q₁ q₂ : ℕ} (row : Fin E → Fin n) (dst : Fin E → BitVec 32)
    (x : Fin n → Fin p → EReal) (w₁ : Fin p → Fin q₁ → EReal) (b₁ : Fin q₁ → EReal)
    (w₂ : Fin q₁ → Fin q₂ → EReal) (b₂ : Fin q₂ → EReal) (r : Fin n) (k : Fin q₂) : EReal :=
  logSoftmax (layer row dst (prod (relu (layer row dst (prod x w₁) (dinv dst) b₁)) w₂) (dinv dst) b₂ r) k

/-- An extended real that is a real number. -/
def IsReal (x : EReal) : Prop := ∃ r : ℝ, x = (r : EReal)

end Cert.Gcn

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.KPay0.lean ====
/-
  The arithmetic of the first node-feature product, read one entry at a time.

  The body multiplies a block of 5000 rows of 128 features by the whole 128×64 weight matrix, accumulating from
  zero, and then scales each row by that row's entry of a one-column block.  Over the extended reals the change
  of float format before the product is the identity, so entry (p, q) of the result is
      (Σ_t x p t · w t q) · δ p.
-/
import proofs.«157511_j56384330662074_2_alg».proof.Proof.Gen.KernelIdeal.Skeleton
import proofs.«157511_j56384330662074_2_alg».proof.Proof.LibColumnLayout
import Idealize.ShloMosaic.Lib.ValueIdx
import Idealize.ShloMosaic.Lib.Pipeline.Value
import Idealize.ShloMosaic.PureOps.Ideal.Laws

noncomputable section

namespace Cert.KernelIdeal.RegionValue

open Idealize.ShloMosaic Idealize.ShloMosaic.ValueIdx Cert.KernelIdeal Cert.KernelIdeal.Gen

/-- The dimension numbers of the [5000,128] × [128,64] product: contract the lanes of the left operand with the
    rows of the right one. -/
abbrev D0 : DotDims S5000x128 S128x64 S5000x64 := dot_S5000x128_S128x64_S5000x64_1_0_0_1_n_n

/-- The product into the zero accumulator at entry (p, q): the sum over the 128 contracted positions of the
    left operand's row p against the right operand's column q. -/
theorem matmul0_apply (a : FVec Ideal S5000x128 .bf16) (b : FVec Ideal S128x64 .bf16) (p : Fin 5000) (q : Fin 64) :
    matmul D0 none a b (constant (F := Ideal) S5000x64 .f32 0x00000000#32) (ix2 p q)
      = ∑ t : Fin 128, a (ix2 p t) * b (ix2 t q) := by
  simp only [matmul]
  rw [Ideal.matmul_constant_zero_apply, ← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun ax => Fin.ext (by
    match ax with
    | ⟨0, _⟩ =>
      show (D0.lhsIdx (ix2 p q) _ 0).val = p.val
      unfold DotDims.lhsIdx
      rw [dif_neg (show ¬(0 : Fin S5000x128.rank) ∈ D0.lhsBatch by decide),
        dif_pos (show (0 : Fin S5000x128.rank) ∈ D0.lhsNonContracting by decide)]
      rfl
    | ⟨1, _⟩ => exact (D0.lhsIdx_val_of_single rfl (ix2 p q) _).trans hk)
  have er : D0.rhsIdx (ix2 p q) ((contrEquiv1 D0 128 rfl rfl).symm k) = ix2 k q := funext fun ax => Fin.ext (by
    match ax with
    | ⟨0, _⟩ => exact (D0.rhsIdx_val_of_single rfl (ix2 p q) _).trans hk
    | ⟨1, _⟩ =>
      show (D0.rhsIdx (ix2 p q) _ 1).val = q.val
      unfold DotDims.rhsIdx
      rw [dif_neg (show ¬(1 : Fin S128x64.rank) ∈ D0.rhsBatch by decide),
        dif_pos (show (1 : Fin S128x64.rank) ∈ D0.rhsNonContracting by decide)]
      rfl)
  rw [el, er]

/-- THE BODY'S RESULT AT ENTRY (p, q): row p of the block against column q of the weights, times the
    column block's entry of row p. -/
theorem k0_pay1_apply (v0 : Vec Ideal S5000x128 .f32) (v2 : Vec Ideal S128x64 .f32) (v5 : Vec Ideal S5000x1 .f32)
    (p : Fin 5000) (q : Fin 64) :
    (k0_pay1 (F := Ideal) v0 v2 v5 : S5000x64.Idx → EReal) (ix2 p q)
      = (∑ t : Fin 128, (v0 : S5000x128.Idx → EReal) (ix2 p t) * (v2 : S128x64.Idx → EReal) (ix2 t q))
          * (v5 : S5000x1.Idx → EReal) (ix2 p (0 : Fin 1)) := by
  unfold k0_pay1
  refine (mulf_apply _ _ _).trans ?_
  refine congrArg₂ (· * ·) ?_ ?_
  · exact matmul0_apply _ _ p q
  · refine (PhysLoss.broadcastTo_a1_ab_apply _ broadcasts_S5000x1_S5000x64 p q).trans ?_
    rw [shapeCast_self]

end Cert.KernelIdeal.RegionValue

end
-- ==== Proof.KRegion0.lean ====
/-
  The first region's output array, as one function of the arrays the region finds.

  The grid has 20 points; point t stages rows 5000·t … 5000·t + 4999 of the node features (128 lanes) and of
  the one-column normalisation array, the whole 128×64 weight matrix, and writes back rows 5000·t … 5000·t + 4999
  of the 64-lane output.  Entry (p, q) of the block a point writes is the body's arithmetic on the staged blocks,
  (Σ_t x p t · w t q) · δ p, and a block's row p is the array's row 5000·t + p: so every block is a block of ONE
  whole-array function, the scaled product of the specification, and the 20 blocks tile the 100000 rows.
-/
import proofs.«157511_j56384330662074_2_alg».proof.Proof.Gen.KernelIdeal.Frame
import proofs.«157511_j56384330662074_2_alg».proof.Proof.GcnSpec
import proofs.«157511_j56384330662074_2_alg».proof.Proof.KPay0
import Idealize.ShloMosaic.Lib.Pipeline.Value

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The two zero offsets of a whole-buffer access, as the constant function. -/
theorem zero_offsets : (![0, 0] : Fin 2 → Nat) = fun _ => 0 := funext fun a => by fin_cases a <;> rfl

/-- The scaled product of the specification on the arrays the region finds, as a function of the output index. -/
def product0 (c : Dev nD) : S100000x64.Idx → EReal := fun i =>
  scaled (prod (fun r t => (V c (Pipeline.arrRef spec0 0) : S100000x128.Idx → EReal) (ix2 r t))
               (fun t k => (V c (Pipeline.arrRef spec0 1) : S128x64.Idx → EReal) (ix2 t k)))
         (fun r => (V c (Pipeline.arrRef spec0 2) : S100000x1.Idx → EReal) (ix2 r (0 : Fin 1))) (i 0) (i 1)

/-- The block indices at point t: the row-blocked windows are at block (t, 0), the weights at block (0, 0). -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the feature block at point t is row 5000·t + p of the feature array. -/
theorem features_block0 (c : Dev nD) (t : Fin cfg0.N) (p : Fin 5000) (k : Fin 128) (hr : 5000 * t.val + p.val < 100000) :
    (iblk0 V c 0 t : S5000x128.Idx → EReal) (ix2 p k)
      = (V c (Pipeline.arrRef spec0 0) : S100000x128.Idx → EReal) (ix2 ⟨5000 * t.val + p.val, hr⟩ k) := by
  obtain ⟨e0, e1, -⟩ := block_index0 t
  unfold iblk0
  show (V c (Pipeline.arrRef spec0 0) : S100000x128.Idx → EReal) (((cfg0.win 0).blk t).view.emb (ix2 p k)) = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weight block at any point is the weight array. -/
theorem weights_block0 (c : Dev nD) (t : Fin cfg0.N) (k : Fin 128) (q : Fin 64) :
    (iblk0 V c 1 t : S128x64.Idx → EReal) (ix2 k q)
      = (V c (Pipeline.arrRef spec0 1) : S128x64.Idx → EReal) (ix2 k q) := by
  obtain ⟨-, -, e0, e1, -⟩ := block_index0 t
  unfold iblk0
  show (V c (Pipeline.arrRef spec0 1) : S128x64.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- Row p of the normalisation block at point t is row 5000·t + p of the normalisation column. -/
theorem column_block0 (c : Dev nD) (t : Fin cfg0.N) (p : Fin 5000) (hr : 5000 * t.val + p.val < 100000) :
    (iblk0 V c 2 t : S5000x1.Idx → EReal) (ix2 p (0 : Fin 1))
      = (V c (Pipeline.arrRef spec0 2) : S100000x1.Idx → EReal) (ix2 ⟨5000 * t.val + p.val, hr⟩ (0 : Fin 1)) := by
  obtain ⟨-, -, -, -, e0, e1, -⟩ := block_index0 t
  unfold iblk0
  show (V c (Pipeline.arrRef spec0 2) : S100000x1.Idx → EReal) (((cfg0.win 2).blk t).view.emb (ix2 p (0 : Fin 1))) = _
  refine congrArg _ (funext fun a => Fin.ext ?_)
  match a with
  | ⟨0, _⟩ => show win0_2.index t (0 : Fin 2) * 5000 + 1 * p.val = 5000 * t.val + p.val; omega
  | ⟨1, _⟩ => show win0_2.index t (1 : Fin 2) * 1 + 1 * 0 = 0; omega

/-- WHAT POINT t WRITES BACK is block t of the scaled product of the arrays the region finds. -/
theorem flushed0_eq (c : Dev nD) (t : Fin cfg0.N) :
    (dat0 (F := Ideal) V c).flushed 3 t = ((cfg0.win 3).blk t).view.read (Elt Ideal) (product0 V c) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x64) zero_offsets,
    View.ld_unit_zero (S := S5000x1) zero_offsets]
  have ht : t.val < 20 := Nat.lt_of_lt_of_eq t.isLt N_0
  obtain ⟨-, -, -, -, -, -, e0, e1⟩ := block_index0 t
  funext j
  obtain ⟨p, q, rfl⟩ : ∃ (p : Fin 5000) (q : Fin 64), j = ix2 p q := ⟨j 0, j 1, eq_ix2 j⟩
  have hr : 5000 * t.val + p.val < 100000 := by have := p.isLt; omega
  have hemb : ((cfg0.win 3).blk t).view.emb (ix2 p q) = (ix2 ⟨5000 * t.val + p.val, hr⟩ q : S100000x64.Idx) := by
    refine funext fun a => Fin.ext ?_
    match a with
    | ⟨0, _⟩ => show win0_3.index t (0 : Fin 2) * 5000 + 1 * p.val = 5000 * t.val + p.val; omega
    | ⟨1, _⟩ => show win0_3.index t (1 : Fin 2) * 64 + 1 * q.val = q.val; omega
  show (k0_pay1 (F := Ideal) (iblk0 V c 0 t) (iblk0 V c 1 t) (iblk0 V c 2 t) : S5000x64.Idx → EReal) (ix2 p q)
      = product0 V c (((cfg0.win 3).blk t).view.emb (ix2 p q))
  rw [hemb]
  refine (k0_pay1_apply _ _ _ p q).trans ?_
  show _ = scaled (prod (fun r t => (V c (Pipeline.arrRef spec0 0) : S100000x128.Idx → EReal) (ix2 r t))
                        (fun t k => (V c (Pipeline.arrRef spec0 1) : S128x64.Idx → EReal) (ix2 t k)))
                  (fun r => (V c (Pipeline.arrRef spec0 2) : S100000x1.Idx → EReal) (ix2 r (0 : Fin 1)))
                  ⟨5000 * t.val + p.val, hr⟩ q
  unfold Cert.Gcn.scaled Cert.Gcn.prod
  rw [column_block0 V c t p hr]
  refine congrArg₂ (· * ·) (Finset.sum_congr rfl fun k _ => ?_) rfl
  rw [features_block0 V c t p k hr, weights_block0 V c t k q]

/-- An index of the output array is in point t's block iff each coordinate is in the block's range on its axis. -/
theorem mem_block0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_call0_v15).slice (win0_3.rect t)).set ↔ _
  rw [View.set_slice_whole, Rect.mem_set_unit]
  exact Iff.rfl

/-- Row r lies in the block of point r / 5000: the 20 blocks tile the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_block0]
  obtain ⟨-, -, -, -, -, -, e0, e1⟩ := block_index0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e1]; omega

/-- THE OUTPUT ARRAY after the region: the scaled product, everywhere. -/
theorem region0_array (c : Dev nD) : (dat0 (F := Ideal) V c).arrAt 3 cfg0.N = product0 V c :=
  (dat0 (F := Ideal) V c).arrAt_eq_of_cover 3 (product0 V c) (fun t _ => flushed0_eq V c t) cover0

/-- The same, entry by entry, in the specification's words. -/
theorem region0_value (c : Dev nD) (r : Fin 100000) (k : Fin 64) :
    ((dat0 (F := Ideal) V c).arrAt 3 cfg0.N : S100000x64.Idx → EReal) (ix2 r k)
      = scaled (prod (fun r t => (V c (Pipeline.arrRef spec0 0) : S100000x128.Idx → EReal) (ix2 r t))
                     (fun t k => (V c (Pipeline.arrRef spec0 1) : S128x64.Idx → EReal) (ix2 t k)))
               (fun r => (V c (Pipeline.arrRef spec0 2) : S100000x1.Idx → EReal) (ix2 r (0 : Fin 1))) r k :=
  congrFun (region0_array V c) (ix2 r k)

end Cert.KernelIdeal.RegionValue

end
-- ==== Proof.KPay1.lean ====
/-
  The arithmetic of the hidden layer and the second node-feature product, read one entry at a time.

  The body joins a block of aggregated rows T and a block of the node's own scaled rows S (64 lanes each),
  normalises the sum row by row with the one-column block δ, adds the bias row b, rectifies, multiplies the
  rectified block by the whole 64×40 weight matrix accumulating from zero, and scales each row by δ again.
  Over the extended reals the change of float format before the product is the identity and the scalar zero
  the rectifier compares with is the number 0, so entry (p, f) of the result is
      (Σ_t max (δ p · (T p t + S p t) + b t) 0 · w t f) · δ p.
-/
import proofs.«157511_j56384330662074_2_alg».proof.Proof.Gen.KernelIdeal.Skeleton
import proofs.«157511_j56384330662074_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Idealize.ShloMosaic Idealize.ShloMosaic.ValueIdx Cert.KernelIdeal Cert.KernelIdeal.Gen

/-- The dimension numbers of the [5000,64] × [64,40] product: contract the lanes of the left operand with the
    rows of the right one. -/
abbrev D1 : DotDims S5000x64 S64x40 S5000x40 := dot_S5000x64_S64x40_S5000x40_1_0_0_1_n_n

/-- The product into the zero accumulator at entry (p, f): the sum over the 64 contracted positions of the
    left operand's row p against the right operand's column f. -/
theorem matmul1_apply (a : FVec Ideal S5000x64 .bf16) (b : FVec Ideal S64x40 .bf16) (p : Fin 5000) (f : Fin 40) :
    matmul D1 none a b (constant (F := Ideal) S5000x40 .f32 0x00000000#32) (ix2 p f)
      = ∑ t : Fin 64, a (ix2 p t) * b (ix2 t f) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 p f) ((contrEquiv1 D1 64 rfl rfl).symm k) = ix2 p k := funext fun ax => Fin.ext (by
    match ax with
    | ⟨0, _⟩ =>
      show (D1.lhsIdx (ix2 p f) _ 0).val = p.val
      unfold DotDims.lhsIdx
      rw [dif_neg (show ¬(0 : Fin S5000x64.rank) ∈ D1.lhsBatch by decide),
        dif_pos (show (0 : Fin S5000x64.rank) ∈ D1.lhsNonContracting by decide)]
      rfl
    | ⟨1, _⟩ => exact (D1.lhsIdx_val_of_single rfl (ix2 p f) _).trans hk)
  have er : D1.rhsIdx (ix2 p f) ((contrEquiv1 D1 64 rfl rfl).symm k) = ix2 k f := funext fun ax => Fin.ext (by
    match ax with
    | ⟨0, _⟩ => exact (D1.rhsIdx_val_of_single rfl (ix2 p f) _).trans hk
    | ⟨1, _⟩ =>
      show (D1.rhsIdx (ix2 p f) _ 1).val = f.val
      unfold DotDims.rhsIdx
      rw [dif_neg (show ¬(1 : Fin S64x40.rank) ∈ D1.rhsBatch by decide),
        dif_pos (show (1 : Fin S64x40.rank) ∈ D1.rhsNonContracting by decide)]
      rfl)
  rw [el, er]

/-- THE BODY'S RESULT AT ENTRY (p, f): the rectified, normalised, biased row p against column f of the weights,
    times the column block's entry of row p. -/
theorem k1_pay1_apply (v0 : Vec Ideal S5000x1 .f32) (v2 v4 : Vec Ideal S5000x64 .f32) (v9 : Vec Ideal S1x64 .f32)
    (v16 : Vec Ideal S64x40 .f32) (v19 : Vec Ideal S5000x1 .f32) (p : Fin 5000) (f : Fin 40) :
    (k1_pay1 (F := Ideal) v0 v2 v4 v9 v16 v19 : S5000x40.Idx → EReal) (ix2 p f)
      = (∑ t : Fin 64,
            max ((v0 : S5000x1.Idx → EReal) (ix2 p (0 : Fin 1))
                  * ((v2 : S5000x64.Idx → EReal) (ix2 p t) + (v4 : S5000x64.Idx → EReal) (ix2 p t))
                + (v9 : S1x64.Idx → EReal) (ix2 (0 : Fin 1) t)) 0
              * (v16 : S64x40.Idx → EReal) (ix2 t f))
          * (v19 : S5000x1.Idx → EReal) (ix2 p (0 : Fin 1)) := by
  unfold k1_pay1
  refine (mulf_apply _ _ _).trans ?_
  refine congrArg₂ (· * ·) ?_ ?_
  · refine (matmul1_apply _ _ p f).trans (Finset.sum_congr rfl fun t _ => ?_)
    refine congrArg₂ (· * ·) ?_ rfl
    refine (truncf_apply (ψ := .bf16) _ bitsLt_bf16_f32 (ix2 p t)).trans ?_
    refine (maximumf_apply _ _ _).trans ?_
    refine congrArg₂ max ?_ ?_
    · refine (addf_apply _ _ _).trans ?_
      refine congrArg₂ (· + ·) ?_ ?_
      · refine (mulf_apply _ _ _).trans ?_
        refine congrArg₂ (· * ·) ?_ ?_
        · refine (PhysLoss.broadcastTo_a1_ab_apply _ broadcasts_S5000x1_S5000x64 p t).trans ?_
          rw [shapeCast_self]
        · refine (addf_apply _ _ _).trans ?_
          rw [shapeCast_self, shapeCast_self]
      · refine (broadcastTo_1b_ab_apply _ broadcasts_S1x64_S5000x64 p t).trans ?_
        rw [shapeCast_self]
    · exact Ideal.ofBits_zero_f32
  · refine (PhysLoss.broadcastTo_a1_ab_apply _ broadcasts_S5000x1_S5000x40 p f).trans ?_
    rw [shapeCast_self]

end Cert.KernelIdeal.RegionValue

end
-- ==== Proof.KRegion1.lean ====
/-
  The second region's output array, as one function of the arrays the region finds.

  The grid has 20 points; point t stages rows 5000·t … 5000·t + 4999 of the aggregated rows T and of the nodes'
  own scaled rows S (64 lanes each) and of the one-column normalisation array δ, the whole bias row b and the
  whole 64×40 weight matrix w, and writes back rows 5000·t … 5000·t + 4999 of the 40-lane output.  Entry (p, f) of
  the block a point writes is the body's arithmetic on the staged blocks,
      (Σ_t max (δ p · (T p t + S p t) + b t) 0 · w t f) · δ p,
  and a block's row p is the array's row 5000·t + p: so every block is a block of ONE whole-array function — the
  hidden layer (joined, normalised, biased, rectified) multiplied by the weights and scaled, in the
  specification's words — and the 20 blocks tile the 100000 rows.
-/
import proofs.«157511_j56384330662074_2_alg».proof.Proof.Gen.KernelIdeal.Frame
import proofs.«157511_j56384330662074_2_alg».proof.Proof.GcnSpec
import proofs.«157511_j56384330662074_2_alg».proof.Proof.KPay1
import Idealize.ShloMosaic.Lib.Pipeline.Value

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The two zero offsets of a whole-buffer access, as the constant function. -/
theorem zero_offsets1 : (![0, 0] : Fin 2 → Nat) = fun _ => 0 := funext fun a => by fin_cases a <;> rfl

/-- The hidden layer times the second weights, scaled, on the arrays the region finds, as a function of the
    output index. -/
def product1 (c : Dev nD) : S100000x40.Idx → EReal := fun i =>
  scaled (prod (relu (combine (fun r => (V c (Pipeline.arrRef spec1 2) : S100000x1.Idx → EReal) (ix2 r (0 : Fin 1)))
                              (fun r k => (V c (Pipeline.arrRef spec1 0) : S100000x64.Idx → EReal) (ix2 r k))
                              (fun r k => (V c (Pipeline.arrRef spec1 1) : S100000x64.Idx → EReal) (ix2 r k))
                              (fun k => (V c (Pipeline.arrRef spec1 3) : S1x64.Idx → EReal) (ix2 (0 : Fin 1) k))))
               (fun t f => (V c (Pipeline.arrRef spec1 4) : S64x40.Idx → EReal) (ix2 t f)))
         (fun r => (V c (Pipeline.arrRef spec1 2) : S100000x1.Idx → EReal) (ix2 r (0 : Fin 1))) (i 0) (i 1)

/-- The block indices at point t: the row-blocked windows are at block (t, 0), the bias and the weights at
    block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated block at point t is row 5000·t + p of the aggregated array. -/
theorem aggregated_block1 (c : Dev nD) (t : Fin cfg1.N) (p : Fin 5000) (k : Fin 64) (hr : 5000 * t.val + p.val < 100000) :
    (iblk1 V c 0 t : S5000x64.Idx → EReal) (ix2 p k)
      = (V c (Pipeline.arrRef spec1 0) : S100000x64.Idx → EReal) (ix2 ⟨5000 * t.val + p.val, hr⟩ k) := by
  obtain ⟨e0, e1, -⟩ := block_index1 t
  unfold iblk1
  show (V c (Pipeline.arrRef spec1 0) : S100000x64.Idx → EReal) (((cfg1.win 0).blk t).view.emb (ix2 p k)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 64 + 1 * k.val = k.val; omega

/-- Row p of the own-rows block at point t is row 5000·t + p of the own-rows array. -/
theorem own_block1 (c : Dev nD) (t : Fin cfg1.N) (p : Fin 5000) (k : Fin 64) (hr : 5000 * t.val + p.val < 100000) :
    (iblk1 V c 1 t : S5000x64.Idx → EReal) (ix2 p k)
      = (V c (Pipeline.arrRef spec1 1) : S100000x64.Idx → EReal) (ix2 ⟨5000 * t.val + p.val, hr⟩ k) := by
  obtain ⟨-, -, e0, e1, -⟩ := block_index1 t
  unfold iblk1
  show (V c (Pipeline.arrRef spec1 1) : S100000x64.Idx → EReal) (((cfg1.win 1).blk t).view.emb (ix2 p k)) = _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 64 + 1 * k.val = k.val; omega

/-- Row p of the normalisation block at point t is row 5000·t + p of the normalisation column. -/
theorem column_block1 (c : Dev nD) (t : Fin cfg1.N) (p : Fin 5000) (hr : 5000 * t.val + p.val < 100000) :
    (iblk1 V c 2 t : S5000x1.Idx → EReal) (ix2 p (0 : Fin 1))
      = (V c (Pipeline.arrRef spec1 2) : S100000x1.Idx → EReal) (ix2 ⟨5000 * t.val + p.val, hr⟩ (0 : Fin 1)) := by
  obtain ⟨-, -, -, -, e0, e1, -⟩ := block_index1 t
  unfold iblk1
  show (V c (Pipeline.arrRef spec1 2) : S100000x1.Idx → EReal) (((cfg1.win 2).blk t).view.emb (ix2 p (0 : Fin 1))) = _
  refine congrArg _ (funext fun a => Fin.ext ?_)
  match a with
  | ⟨0, _⟩ => show win1_2.index t (0 : Fin 2) * 5000 + 1 * p.val = 5000 * t.val + p.val; omega
  | ⟨1, _⟩ => show win1_2.index t (1 : Fin 2) * 1 + 1 * 0 = 0; omega

/-- The bias block at any point is the bias row. -/
theorem bias_block1 (c : Dev nD) (t : Fin cfg1.N) (k : Fin 64) :
    (iblk1 V c 3 t : S1x64.Idx → EReal) (ix2 (0 : Fin 1) k)
      = (V c (Pipeline.arrRef spec1 3) : S1x64.Idx → EReal) (ix2 (0 : Fin 1) k) := by
  obtain ⟨-, -, -, -, -, -, e0, e1, -⟩ := block_index1 t
  unfold iblk1
  show (V c (Pipeline.arrRef spec1 3) : S1x64.Idx → EReal) (((cfg1.win 3).blk t).view.emb (ix2 (0 : Fin 1) k)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

/-- The weight block at any point is the weight array. -/
theorem weights_block1 (c : Dev nD) (t : Fin cfg1.N) (k : Fin 64) (f : Fin 40) :
    (iblk1 V c 4 t : S64x40.Idx → EReal) (ix2 k f)
      = (V c (Pipeline.arrRef spec1 4) : S64x40.Idx → EReal) (ix2 k f) := by
  obtain ⟨-, -, -, -, -, -, -, -, e0, e1, -⟩ := block_index1 t
  unfold iblk1
  show (V c (Pipeline.arrRef spec1 4) : S64x40.Idx → EReal) (((cfg1.win 4).blk t).view.emb (ix2 k f)) = _
  refine congrArg _ (funext fun a => Fin.ext ?_)
  match a with
  | ⟨0, _⟩ => show win1_4.index t (0 : Fin 2) * 64 + 1 * k.val = k.val; omega
  | ⟨1, _⟩ => show win1_4.index t (1 : Fin 2) * 40 + 1 * f.val = f.val; omega

/-- WHAT POINT t WRITES BACK is block t of the whole-array function. -/
theorem flushed1_eq (c : Dev nD) (t : Fin cfg1.N) :
    (dat1 (F := Ideal) V c).flushed 5 t = ((cfg1.win 5).blk t).view.read (Elt Ideal) (product1 V c) := by
  show (cfg1.win 5).cut (grid1.coords t) ((dat1 (F := Ideal) V c).after 5 t) = _
  rw [after1_5]
  unfold out1_5
  rw [View.canon_unit_zero zero_offsets1]
  simp only [View.ld_unit_zero (S := S5000x64) zero_offsets1, View.ld_unit_zero (S := S5000x1) zero_offsets1,
    View.ld_unit_zero (S := S1x64) zero_offsets1, View.ld_unit_zero (S := S64x40) zero_offsets1]
  have ht : t.val < 20 := Nat.lt_of_lt_of_eq t.isLt N_1
  obtain ⟨-, -, -, -, -, -, -, -, -, -, e0, e1⟩ := block_index1 t
  funext j
  obtain ⟨p, f, rfl⟩ : ∃ (p : Fin 5000) (f : Fin 40), j = ix2 p f := ⟨j 0, j 1, eq_ix2 j⟩
  have hr : 5000 * t.val + p.val < 100000 := by have := p.isLt; omega
  have hemb : ((cfg1.win 5).blk t).view.emb (ix2 p f) = (ix2 ⟨5000 * t.val + p.val, hr⟩ f : S100000x40.Idx) := by
    refine funext fun a => Fin.ext ?_
    match a with
    | ⟨0, _⟩ => show win1_5.index t (0 : Fin 2) * 5000 + 1 * p.val = 5000 * t.val + p.val; omega
    | ⟨1, _⟩ => show win1_5.index t (1 : Fin 2) * 40 + 1 * f.val = f.val; omega
  show (k1_pay1 (F := Ideal) (iblk1 V c 2 t) (iblk1 V c 0 t) (iblk1 V c 1 t) (iblk1 V c 3 t) (iblk1 V c 4 t)
          (iblk1 V c 2 t) : S5000x40.Idx → EReal) (ix2 p f)
      = product1 V c (((cfg1.win 5).blk t).view.emb (ix2 p f))
  rw [hemb]
  refine (k1_pay1_apply _ _ _ _ _ _ p f).trans ?_
  show _ = scaled (prod (relu (combine (fun r => (V c (Pipeline.arrRef spec1 2) : S100000x1.Idx → EReal) (ix2 r (0 : Fin 1)))
                                        (fun r k => (V c (Pipeline.arrRef spec1 0) : S100000x64.Idx → EReal) (ix2 r k))
                                        (fun r k => (V c (Pipeline.arrRef spec1 1) : S100000x64.Idx → EReal) (ix2 r k))
                                        (fun k => (V c (Pipeline.arrRef spec1 3) : S1x64.Idx → EReal) (ix2 (0 : Fin 1) k))))
                        (fun t f => (V c (Pipeline.arrRef spec1 4) : S64x40.Idx → EReal) (ix2 t f)))
                  (fun r => (V c (Pipeline.arrRef spec1 2) : S100000x1.Idx → EReal) (ix2 r (0 : Fin 1)))
                  ⟨5000 * t.val + p.val, hr⟩ f
  unfold Cert.Gcn.scaled Cert.Gcn.prod Cert.Gcn.relu Cert.Gcn.combine
  rw [column_block1 V c t p hr]
  refine congrArg₂ (· * ·) (Finset.sum_congr rfl fun k _ => ?_) rfl
  rw [aggregated_block1 V c t p k hr, own_block1 V c t p k hr, bias_block1 V c t k, weights_block1 V c t k f]

/-- An index of the output array is in point t's block iff each coordinate is in the block's range on its axis. -/
theorem mem_block1 (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_call0_v27).slice (win1_5.rect t)).set ↔ _
  rw [View.set_slice_whole, Rect.mem_set_unit]
  exact Iff.rfl

/-- Row r lies in the block of point r / 5000: the 20 blocks tile the array. -/
theorem cover1 (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : cfg1.N = 20 := N_1
  refine ⟨⟨(i 0).val / 5000, by rw [hN]; omega⟩, flush1_5 _, ?_⟩
  rw [mem_block1]
  obtain ⟨-, -, -, -, -, -, -, -, -, -, e0, e1⟩ := block_index1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 40 ≤ (i 1).val ∧ (i 1).val < win1_5.index _ (1 : Fin 2) * 40 + 40
    rw [e1]; omega

/-- THE OUTPUT ARRAY after the region: the whole-array function, everywhere. -/
theorem region1_array (c : Dev nD) : (dat1 (F := Ideal) V c).arrAt 5 cfg1.N = product1 V c :=
  (dat1 (F := Ideal) V c).arrAt_eq_of_cover 5 (product1 V c) (fun t _ => flushed1_eq V c t) cover1

/-- The same, entry by entry, in the specification's words. -/
theorem region1_value (c : Dev nD) (r : Fin 100000) (f : Fin 40) :
    ((dat1 (F := Ideal) V c).arrAt 5 cfg1.N : S100000x40.Idx → EReal) (ix2 r f)
      = scaled (prod (relu (combine (fun r => (V c (Pipeline.arrRef spec1 2) : S100000x1.Idx → EReal) (ix2 r (0 : Fin 1)))
                                    (fun r k => (V c (Pipeline.arrRef spec1 0) : S100000x64.Idx → EReal) (ix2 r k))
                                    (fun r k => (V c (Pipeline.arrRef spec1 1) : S100000x64.Idx → EReal) (ix2 r k))
                                    (fun k => (V c (Pipeline.arrRef spec1 3) : S1x64.Idx → EReal) (ix2 (0 : Fin 1) k))))
                     (fun t f => (V c (Pipeline.arrRef spec1 4) : S64x40.Idx → EReal) (ix2 t f)))
               (fun r => (V c (Pipeline.arrRef spec1 2) : S100000x1.Idx → EReal) (ix2 r (0 : Fin 1))) r f :=
  congrFun (region1_array V c) (ix2 r f)

end Cert.KernelIdeal.RegionValue

end
-- ==== Proof.KRegion2.lean ====
/-
  Region 2 of the kernel, read as mathematics: the third region adds each node's own scaled row to what its edges brought,
  scales the sum by the node's normalisation, adds the bias, and takes the log-softmax of the row. Here the region's
  output ARRAY, at (row, lane), is shown to be `logSoftmax (combine δ T S b row) lane` of the four arrays the region finds
  when it is entered.

  Two steps. First the body's arithmetic on one block of 5000 rows, at one (row, lane): the lane maximum is the row's
  maximum from `⊥`, the lane sum a plain sum over the 40 lanes, the column casts and broadcasts read the same row. Then
  the twenty blocks: point `t` reads rows `5000 t … 5000 t + 4999` of each row-blocked input and the whole bias row, and
  writes the same rows of the output; the blocks tile the array, so the array is one function of the inputs.
-/
import proofs.«157511_j56384330662074_2_alg».proof.Proof.Gen.KernelIdeal.Frame
import proofs.«157511_j56384330662074_2_alg».proof.Proof.GcnSpec
import proofs.«157511_j56384330662074_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-! ## The body's arithmetic at one (row, lane) -/

/-- The word the lane maximum starts from is the bottom of the extended reals. -/
theorem ofBits_neg_inf_f32 : Ideal.ofBits .f32 0xFF800000#32 = ⊥ := by simp [Ideal.ofBits, Ideal.ieee]

/-- A row index with a lane coordinate inserted on axis 1 is the index (row, lane). -/
theorem lift_lane (h : Shape.Reduces S5000x40 [1] S5000) (p : Fin 5000) (k : Fin 40) :
    h.lift (ix1 p) k = ix2 p k := by
  funext a; apply Fin.ext
  match a with
  | ⟨0, _⟩ => rfl
  | ⟨1, _⟩ => rfl

/-- The lane maximum of a row, from the bottom word: the row's maximum. -/
theorem lane_max (z : FVec Ideal S5000x40 .f32) (h : Shape.Reduces S5000x40 [1] S5000) (hφ : FKind.Formats .f32)
    (hacc : (0xFF800000#32 : BitVec 32) = 0xFF800000#32) (p : Fin 5000) :
    multiReduction (F := Ideal) .maximumf [1] S5000 z 0xFF800000#32 h hφ hacc (ix1 p)
      = rowMax (fun k : Fin 40 => z (ix2 p k)) := by
  refine (Ideal.multiReduction_maximumf_single z 0xFF800000#32 h hφ hacc (ix1 p)).trans ?_
  show (Finset.univ : Finset (Fin 40)).fold max (Ideal.ofBits .f32 0xFF800000#32) (z ∘ h.lift (ix1 p)) = _
  rw [ofBits_neg_inf_f32]
  unfold rowMax
  congr 1
  funext k
  exact congrArg z (lift_lane h p k)

/-- The lane sum of a row, from the zero word: the plain sum over the lanes. -/
theorem lane_sum (z : FVec Ideal S5000x40 .f32) (h : Shape.Reduces S5000x40 [1] S5000) (hφ : FKind.Formats .f32)
    (hacc : (0x00000000#32 : BitVec 32) = 0x00000000#32) (p : Fin 5000) :
    multiReduction (F := Ideal) .add [1] S5000 z 0x00000000#32 h hφ hacc (ix1 p)
      = ∑ k : Fin 40, z (ix2 p k) := by
  refine (Ideal.multiReduction_add_single z 0x00000000#32 h hφ hacc (ix1 p)).trans ?_
  show ∑ k : Fin 40, z (h.lift (ix1 p) k) = _
  exact Finset.sum_congr rfl fun k _ => congrArg z (lift_lane h p k)

/-- The softmax tail of the body over any block `z`: subtract the row's maximum, then the logarithm of the row's sum of
    exponentials. At (row, lane) it is the log-softmax of the row. -/
theorem tail_apply (z : FVec Ideal S5000x40 .f32) (hφ : FKind.Formats .f32)
    (hm : (0xFF800000#32 : BitVec 32) = 0xFF800000#32) (hs : (0x00000000#32 : BitVec 32) = 0x00000000#32)
    (p : Fin 5000) (q : Fin 40) :
    subf
      (subf z (broadcastTo S5000x40 (shapeCast S5000x1
        (multiReduction (F := Ideal) .maximumf [1] S5000 z 0xFF800000#32 reduces_S5000x40_S5000 hφ hm)
        shapeCasts_S5000_S5000x1) broadcasts_S5000x1_S5000x40))
      (broadcastTo S5000x40 (log (shapeCast S5000x1
        (multiReduction (F := Ideal) .add [1] S5000
          (exp (subf z (broadcastTo S5000x40 (shapeCast S5000x1
            (multiReduction (F := Ideal) .maximumf [1] S5000 z 0xFF800000#32 reduces_S5000x40_S5000 hφ hm)
            shapeCasts_S5000_S5000x1) broadcasts_S5000x1_S5000x40)))
          0x00000000#32 reduces_S5000x40_S5000 hφ hs)
        shapeCasts_S5000_S5000x1)) broadcasts_S5000x1_S5000x40)
      (ix2 p q)
      = logSoftmax (fun k : Fin 40 => z (ix2 p k)) q := by
  have hmax : ∀ k : Fin 40, (broadcastTo S5000x40 (shapeCast S5000x1
        (multiReduction (F := Ideal) .maximumf [1] S5000 z 0xFF800000#32 reduces_S5000x40_S5000 hφ hm)
        shapeCasts_S5000_S5000x1) broadcasts_S5000x1_S5000x40) (ix2 p k) = rowMax (fun k : Fin 40 => z (ix2 p k)) := fun k => by
    rw [PhysLoss.broadcastTo_a1_ab_apply, PhysLoss.shapeCast_a_a1_apply, lane_max]
  rw [subf_apply, subf_apply, hmax q, PhysLoss.broadcastTo_a1_ab_apply]
  show _ - Ideal.log (shapeCast S5000x1 _ shapeCasts_S5000_S5000x1 (ix2 p (0 : Fin 1))) = _
  rw [PhysLoss.shapeCast_a_a1_apply, lane_sum]
  unfold logSoftmax
  refine congrArg (fun s => z (ix2 p q) - rowMax (fun k : Fin 40 => z (ix2 p k)) - Ideal.log s)
    (Finset.sum_congr rfl fun k _ => ?_)
  show Ideal.exp (subf z _ (ix2 p k)) = _
  rw [subf_apply, hmax k]

/-- The body's result at (row, lane): the log-softmax, over the row's lanes, of the row's normalisation times the sum of
    its two inputs plus the lane's bias. -/
theorem pay2_apply (x2 : FVec Ideal S5000x1 .f32) (x0 x1 : FVec Ideal S5000x40 .f32) (x3 : FVec Ideal S1x40 .f32)
    (p : Fin 5000) (q : Fin 40) :
    k2_pay1 (F := Ideal) x2 x0 x1 x3 (ix2 p q)
      = logSoftmax (fun k : Fin 40 => x2 (ix2 p (0 : Fin 1)) * (x0 (ix2 p k) + x1 (ix2 p k)) + x3 (ix2 (0 : Fin 1) k)) q := by
  unfold k2_pay1
  dsimp only
  generalize hz : addf (mulf (broadcastTo S5000x40 (shapeCast S5000x1 x2 shapeCasts_S5000x1_S5000x1) broadcasts_S5000x1_S5000x40)
      (addf (shapeCast S5000x40 x0 shapeCasts_S5000x40_S5000x40) (shapeCast S5000x40 x1 shapeCasts_S5000x40_S5000x40)))
      (broadcastTo S5000x40 (shapeCast S1x40 x3 shapeCasts_S1x40_S1x40) broadcasts_S1x40_S5000x40) = z
  have hzk : ∀ k : Fin 40, z (ix2 p k) = x2 (ix2 p (0 : Fin 1)) * (x0 (ix2 p k) + x1 (ix2 p k)) + x3 (ix2 (0 : Fin 1) k) := fun k => by
    rw [← hz, addf_apply, mulf_apply, addf_apply, PhysLoss.broadcastTo_a1_ab_apply, broadcastTo_1b_ab_apply,
      shapeCast_self, shapeCast_self, shapeCast_self, shapeCast_self]
  refine (tail_apply z _ _ _ p q).trans ?_
  exact congrArg (fun f => logSoftmax f q) (funext hzk)

/-- The same with each input named by what it holds at the rows' place in its array. -/
theorem point2 (x0 x1 : FVec Ideal S5000x40 .f32) (x2 : FVec Ideal S5000x1 .f32) (x3 : FVec Ideal S1x40 .f32)
    (δ : Fin 100000 → EReal) (T S : Fin 100000 → Fin 40 → EReal) (b : Fin 40 → EReal)
    (p : Fin 5000) (q : Fin 40) (r : Fin 100000)
    (h2 : x2 (ix2 p (0 : Fin 1)) = δ r) (h0 : ∀ k, x0 (ix2 p k) = T r k) (h1 : ∀ k, x1 (ix2 p k) = S r k)
    (h3 : ∀ k, x3 (ix2 (0 : Fin 1) k) = b k) :
    k2_pay1 (F := Ideal) x2 x0 x1 x3 (ix2 p q) = logSoftmax (combine δ T S b r) q := by
  rw [pay2_apply]
  refine congrArg (fun f => logSoftmax f q) (funext fun k => ?_)
  rw [h2, h0, h1, h3]
  rfl

/-! ## From the blocks to the array -/

section Blocks

variable (V : (c : Dev nD) → (b : Ref sig .tc) → Buf (Elt Ideal) ((c : Thread nD τ).loc b))

/-- The four arrays the region reads, by coordinates: the normalisation column, the two inputs, the bias row. -/
abbrev arrD (c : Dev nD) : Fin 100000 → EReal := fun r => (V c (Pipeline.arrRef spec2 2) : S100000x1.Idx → EReal) (ix2 r (0 : Fin 1))
abbrev arrT (c : Dev nD) : Fin 100000 → Fin 40 → EReal := fun r k => (V c (Pipeline.arrRef spec2 0) : S100000x40.Idx → EReal) (ix2 r k)
abbrev arrS (c : Dev nD) : Fin 100000 → Fin 40 → EReal := fun r k => (V c (Pipeline.arrRef spec2 1) : S100000x40.Idx → EReal) (ix2 r k)
abbrev arrB (c : Dev nD) : Fin 40 → EReal := fun k => (V c (Pipeline.arrRef spec2 3) : S1x40.Idx → EReal) (ix2 (0 : Fin 1) k)

/-- The output array as ONE function of the four arrays the region reads: at (row, lane) the log-softmax over the
    row's lanes of the row's normalisation times the sum of its two inputs plus the bias. -/
def out2 (c : Dev nD) : S100000x40.Idx → EReal := fun i =>
  logSoftmax (combine (arrD V c) (arrT V c) (arrS V c) (arrB V c) (i 0)) (i 1)

theorem hz2 : (![0, 0] : Fin 2 → Nat) = fun _ => 0 := funext fun a => by fin_cases a <;> rfl

/-- The printed index maps, decided over the twenty grid points: the three row-blocked inputs move with the output, whose
    block index is the point's number; the bias stays at its one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Input window 0's block at point `t` is rows `5000 t … 5000 t + 4999` of its array. -/
theorem iblk2_0_apply (c : Dev nD) (t : Fin cfg2.N) (p : Fin 5000) (k : Fin 40) (r : Fin 100000)
    (hr : r.val = t.val * 5000 + p.val) :
    (iblk2 V c 0 t : Vec Ideal S5000x40 .f32) (ix2 p k) = arrT V c r k := by
  obtain ⟨e00, e01, -⟩ := idx_facts2 t
  unfold iblk2
  rw [View.read_apply]
  refine congrArg (V c (Pipeline.arrRef spec2 0) : S100000x40.Idx → EReal) (funext fun a => Fin.ext ?_)
  match a with
  | ⟨0, _⟩ => show win2_0.index t (0 : Fin 2) * 5000 + 1 * p.val = r.val; rw [e00, hr]; omega
  | ⟨1, _⟩ => show win2_0.index t (1 : Fin 2) * 40 + 1 * k.val = k.val; rw [e01]; omega

/-- Input window 1's block at point `t` is rows `5000 t … 5000 t + 4999` of its array. -/
theorem iblk2_1_apply (c : Dev nD) (t : Fin cfg2.N) (p : Fin 5000) (k : Fin 40) (r : Fin 100000)
    (hr : r.val = t.val * 5000 + p.val) :
    (iblk2 V c 1 t : Vec Ideal S5000x40 .f32) (ix2 p k) = arrS V c r k := by
  obtain ⟨-, -, e10, e11, -⟩ := idx_facts2 t
  unfold iblk2
  rw [View.read_apply]
  refine congrArg (V c (Pipeline.arrRef spec2 1) : S100000x40.Idx → EReal) (funext fun a => Fin.ext ?_)
  match a with
  | ⟨0, _⟩ => show win2_1.index t (0 : Fin 2) * 5000 + 1 * p.val = r.val; rw [e10, hr]; omega
  | ⟨1, _⟩ => show win2_1.index t (1 : Fin 2) * 40 + 1 * k.val = k.val; rw [e11]; omega

/-- Input window 2's block at point `t` is rows `5000 t … 5000 t + 4999` of the normalisation column. -/
theorem iblk2_2_apply (c : Dev nD) (t : Fin cfg2.N) (p : Fin 5000) (r : Fin 100000)
    (hr : r.val = t.val * 5000 + p.val) :
    (iblk2 V c 2 t : Vec Ideal S5000x1 .f32) (ix2 p (0 : Fin 1)) = arrD V c r := by
  obtain ⟨-, -, -, -, e20, e21, -⟩ := idx_facts2 t
  unfold iblk2
  rw [View.read_apply]
  refine congrArg (V c (Pipeline.arrRef spec2 2) : S100000x1.Idx → EReal) (funext fun a => Fin.ext ?_)
  match a with
  | ⟨0, _⟩ => show win2_2.index t (0 : Fin 2) * 5000 + 1 * p.val = r.val; rw [e20, hr]; omega
  | ⟨1, _⟩ => show win2_2.index t (1 : Fin 2) * 1 + 1 * 0 = 0; rw [e21]

/-- Input window 3's block at every point is the whole bias row. -/
theorem iblk2_3_apply (c : Dev nD) (t : Fin cfg2.N) (k : Fin 40) :
    (iblk2 V c 3 t : Vec Ideal S1x40 .f32) (ix2 (0 : Fin 1) k) = arrB V c k := by
  obtain ⟨-, -, -, -, -, -, e30, e31, -⟩ := idx_facts2 t
  unfold iblk2
  rw [View.read_apply]
  refine congrArg (V c (Pipeline.arrRef spec2 3) : S1x40.Idx → EReal) (funext fun a => Fin.ext ?_)
  match a with
  | ⟨0, _⟩ => show win2_3.index t (0 : Fin 2) * 1 + 1 * 0 = 0; rw [e30]
  | ⟨1, _⟩ => show win2_3.index t (1 : Fin 2) * 40 + 1 * k.val = k.val; rw [e31]; omega

/-- WHAT POINT `t` WRITES BACK is block `t` of `out2`. -/
theorem flushed2_4_eq (c : Dev nD) (t : Fin cfg2.N) :
    (dat2 (F := Ideal) V c).flushed 4 t = ((cfg2.win 4).blk t).view.read (Elt Ideal) (out2 V c) := by
  show (cfg2.win 4).cut (grid2.coords t) ((dat2 (F := Ideal) V c).after 4 t) = _
  rw [after2_4]
  unfold out2_4
  rw [View.canon_unit_zero hz2]
  simp only [View.ld_unit_zero (S := S5000x40) hz2, View.ld_unit_zero (S := S5000x1) hz2, View.ld_unit_zero (S := S1x40) hz2]
  obtain ⟨-, -, -, -, -, -, -, -, e40, e41⟩ := idx_facts2 t
  have hN : t.val < 20 := by have h := t.isLt; have e : cfg2.N = 20 := N_2; omega
  funext j
  have hj0 : (j 0).val < 5000 := (j 0).isLt
  have hj1 : (j 1).val < 40 := (j 1).isLt
  have hjx : (win2_4.xinj (grid2.coords t) j : S5000x40.Idx) = ix2 (⟨(j 0).val, hj0⟩ : Fin 5000) (⟨(j 1).val, hj1⟩ : Fin 40) :=
    funext fun a => by match a with | ⟨0, _⟩ => rfl | ⟨1, _⟩ => rfl
  have hje : (((View.whole main_v0).slice (win2_4.rect t)).emb j : S100000x40.Idx)
      = ix2 (⟨t.val * 5000 + (j 0).val, by omega⟩ : Fin 100000) (⟨(j 1).val, hj1⟩ : Fin 40) :=
    funext fun a => Fin.ext (by
      match a with
      | ⟨0, _⟩ => show win2_4.index t (0 : Fin 2) * 5000 + 1 * (j 0).val = t.val * 5000 + (j 0).val; rw [e40]; omega
      | ⟨1, _⟩ => show win2_4.index t (1 : Fin 2) * 40 + 1 * (j 1).val = (j 1).val; rw [e41]; omega)
  show k2_pay1 (F := Ideal) (iblk2 V c 2 t) (iblk2 V c 0 t) (iblk2 V c 1 t) (iblk2 V c 3 t) (win2_4.xinj (grid2.coords t) j)
    = out2 V c (((View.whole main_v0).slice (win2_4.rect t)).emb j)
  rw [hjx, hje]
  exact point2 (iblk2 V c 0 t) (iblk2 V c 1 t) (iblk2 V c 2 t) (iblk2 V c 3 t) (arrD V c) (arrT V c) (arrS V c) (arrB V c)
    (⟨(j 0).val, hj0⟩ : Fin 5000) (⟨(j 1).val, hj1⟩ : Fin 40) (⟨t.val * 5000 + (j 0).val, by omega⟩ : Fin 100000)
    (iblk2_2_apply V c t ⟨(j 0).val, hj0⟩ ⟨t.val * 5000 + (j 0).val, by omega⟩ rfl)
    (fun k => iblk2_0_apply V c t ⟨(j 0).val, hj0⟩ k ⟨t.val * 5000 + (j 0).val, by omega⟩ rfl)
    (fun k => iblk2_1_apply V c t ⟨(j 0).val, hj0⟩ k ⟨t.val * 5000 + (j 0).val, by omega⟩ rfl)
    (fun k => iblk2_3_apply V c t k)

/-- An index of the array is in point `t`'s block iff each coordinate is in the block's range on its axis. -/
theorem mem_blk2_4 (t : Fin cfg2.N) (i : S100000x40.Idx) :
    i ∈ ((cfg2.win 4).blk t).view.set ↔ ∀ a : Fin 2, win2_4.index t a * S5000x40.size a ≤ (i a).val
      ∧ (i a).val < win2_4.index t a * S5000x40.size a + S5000x40.size a := by
  show i ∈ ((View.whole main_v0).slice (win2_4.rect t)).set ↔ _
  rw [View.set_slice_whole, Rect.mem_set_unit]
  exact Iff.rfl

/-- Every index of the array is in the block of the point its row falls in: row `r` in point `r / 5000`'s. -/
theorem covered2_4 (i : S100000x40.Idx) :
    ∃ t : Fin cfg2.N, (cfg2.win 4).flush t = true ∧ i ∈ ((cfg2.win 4).blk t).view.set := by
  have hi0 : (i 0).val < 100000 := (i 0).isLt
  have hi1 : (i 1).val < 40 := (i 1).isLt
  have hN : cfg2.N = 20 := N_2
  have ht : (i 0).val / 5000 < cfg2.N := by rw [hN]; omega
  obtain ⟨-, -, -, -, -, -, -, -, e40, e41⟩ := idx_facts2 ⟨(i 0).val / 5000, ht⟩
  refine ⟨⟨(i 0).val / 5000, ht⟩, flush2_4 _, ?_⟩
  rw [mem_blk2_4]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, ht⟩ (1 : Fin 2) * 40 ≤ (i 1).val
      ∧ (i 1).val < win2_4.index ⟨(i 0).val / 5000, ht⟩ (1 : Fin 2) * 40 + 40
    rw [e41]; omega

/-- THE ARRAY after the region: `out2` of the arrays as the region finds them. -/
theorem arrAt2_4 (c : Dev nD) : (dat2 (F := Ideal) V c).arrAt 4 cfg2.N = out2 V c :=
  (dat2 (F := Ideal) V c).arrAt_eq_of_cover 4 (out2 V c) (fun t _ => flushed2_4_eq V c t) covered2_4

/-- REGION 2, READ: the output array after the region, at (row, lane), is the log-softmax over the row's lanes of the
    combination of the four arrays the region finds at its entry. -/
theorem region2_value (c : Dev nD) (r : Fin 100000) (f : Fin 40) :
    ((dat2 (F := Ideal) V c).arrAt 4 cfg2.N : S100000x40.Idx → EReal) (ix2 r f)
      = logSoftmax (combine (fun r => (V c (Pipeline.arrRef spec2 2) : S100000x1.Idx → EReal) (ix2 r (0 : Fin 1)))
                            (fun r k => (V c (Pipeline.arrRef spec2 0) : S100000x40.Idx → EReal) (ix2 r k))
                            (fun r k => (V c (Pipeline.arrRef spec2 1) : S100000x40.Idx → EReal) (ix2 r k))
                            (fun k => (V c (Pipeline.arrRef spec2 3) : S1x40.Idx → EReal) (ix2 (0 : Fin 1) k)) r) f :=
  congrFun (arrAt2_4 V c) (ix2 r f)

end Blocks

end Cert.KernelIdeal.RegionValue
end
-- ==== Proof.LibScatterGather.lean ====
/-
  A host gather of whole rows and an accumulating host scatter of whole rows, read at an index.

  `x[idx]` of a table `x : [N, C]` (or a flat `x : [N]`) at a column `idx : [M, 1]` of index words reads, for update `j`,
  the row named by `idx[j, 0]` read as a signed integer and clamped into `[0, N - 1]`. The accumulating scatter
  `x.at[idx].add(upd)` adds to row `i` every update row `j` whose word, read signed and NOT clamped, is `i`; an update whose
  word names no row is dropped. Both are stated over abstract extents, for the dimension numbers jax prints for them.
-/
import Idealize.ShloMosaic.PureOps.Ideal
import Idealize.ShloMosaic.Lib.ValueIdx

noncomputable section

namespace Cert.LibSG

open Idealize.ShloMosaic Idealize.ShloMosaic.ValueIdx

variable {α : Type}

/-- The dimension numbers of a lookup of single elements of a flat table: operand `[N]`, index words `[M, 1]`, result `[M]`. -/
abbrev flatGatherDims (N M : ℕ) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The dimension numbers of a lookup of whole rows: operand `[N, C]`, index words `[M, 1]`, result `[M, C]`. -/
abbrev rowGatherDims (N M C : ℕ) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of an accumulating scatter of single elements into a flat table. -/
abbrev flatScatterDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of an accumulating scatter of whole rows. -/
abbrev rowScatterDims (N M C : ℕ) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A flat lookup at `j`: the table at the word `idx[j, 0]`, read signed and clamped into `[0, N - 1]`. -/
theorem gather_flat_apply {N M w : ℕ} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (flatGatherDims N M wf) x idx (ix1 j)
      = x (ix1 ⟨min (idx (ix2 j (0 : Fin 1))).toInt.toNat (N - 1), by omega⟩) := by
  unfold Host.gather
  congr 1
  funext a
  obtain rfl : a = 0 := Subsingleton.elim _ _
  refine Fin.ext ?_
  show (flatGatherDims N M wf).start (ix1 j) idx 0 + (flatGatherDims N M wf).batchCoord (ix1 j) 0
    + (flatGatherDims N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 j) ⟨List.idxOf (0 : Fin 1) (flatGatherDims N M wf).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- A row lookup at `(j, k)`: column `k` of the row named by the word `idx[j, 0]`, read signed and clamped. -/
theorem gather_row_apply {N M C w : ℕ} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (k : Fin C) :
    Host.gather (rowGatherDims N M C wf) x idx (ix2 j k)
      = x (ix2 (⟨min (idx (ix2 j (0 : Fin 1))).toInt.toNat (N - 1), by omega⟩ : Fin N) k) := by
  unfold Host.gather
  congr 1
  funext a
  refine Fin.ext ?_
  show (rowGatherDims N M C wf).start (ix2 j k) idx a + (rowGatherDims N M C wf).batchCoord (ix2 j k) a
    + (rowGatherDims N M C wf).offCoord (ix2 j k) a = _
  rw [GatherDims.batchCoord_eq_zero _ _ _ List.not_mem_nil, Nat.add_zero]
  match a with
  | ⟨0, _⟩ =>
    show (rowGatherDims N M C wf).start (ix2 j k) idx (0 : Fin 2) + (rowGatherDims N M C wf).offCoord (ix2 j k) (0 : Fin 2)
      = min (idx (ix2 j (0 : Fin 1))).toInt.toNat (N - 1)
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M C wf).startIndexMap from List.mem_singleton.mpr rfl)]
    have hsi : (rowGatherDims N M C wf).siIdx (ix2 j k) ⟨List.idxOf (0 : Fin 2) (rowGatherDims N M C wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    have hs : (rowGatherDims N M C wf).start (ix2 j k) idx (1 : Fin 2) = 0 := by
      unfold GatherDims.start
      rw [dif_neg (show (1 : Fin 2) ∉ (rowGatherDims N M C wf).startIndexMap from
        (show (1 : Fin 2) ∉ [(0 : Fin 2)] by decide))]
    have ho : (rowGatherDims N M C wf).offCoord (ix2 j k) (1 : Fin 2) = k.val := by
      unfold GatherDims.offCoord
      rw [dif_pos (show (1 : Fin 2) ∈ (rowGatherDims N M C wf).sKept from
        (GatherDims.mem_sKept _ _).mpr ⟨(show (1 : Fin 2) ∉ [(0 : Fin 2)] by decide), List.not_mem_nil⟩)]
      rfl
    show (rowGatherDims N M C wf).start (ix2 j k) idx (1 : Fin 2) + (rowGatherDims N M C wf).offCoord (ix2 j k) (1 : Fin 2) = k.val
    rw [hs, ho, Nat.zero_add]

/-! ### Where an update row lands -/

section RowLanding
variable {N M C w : ℕ} (wf : ScatterDims.WF ⟨2, ![N, C]⟩ ⟨2, ![M, 1]⟩ ⟨2, ![M, C]⟩ [1] [0] [0] 1)
  (idx : IVec ⟨2, ![M, 1]⟩ w) (j : Fin M) (c : Fin C)

/-- On the row axis the window of update `(j, c)` starts at the word `idx[j, 0]`, read signed. -/
theorem row_start0 : (rowScatterDims N M C wf).start (ix2 j c) idx (0 : Fin 2) = (idx (ix2 j (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 j c)
      ⟨List.idxOf (0 : Fin 2) (rowScatterDims N M C wf).scatterDimsToOperandDims,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the column axis it starts at `0`. -/
theorem row_start1 : (rowScatterDims N M C wf).start (ix2 j c) idx (1 : Fin 2) = 0 := by
  unfold ScatterDims.start
  rw [dif_neg (show (1 : Fin 2) ∉ (rowScatterDims N M C wf).scatterDimsToOperandDims from
    (show (1 : Fin 2) ∉ [(0 : Fin 2)] by decide))]

/-- The row axis is inserted: the window coordinate there is `0`. -/
theorem row_window0 : (rowScatterDims N M C wf).window (ix2 j c) (0 : Fin 2) = 0 := by
  unfold ScatterDims.window
  rw [dif_neg (show (0 : Fin 2) ∉ (rowScatterDims N M C wf).sKept from
    (show (0 : Fin 2) ∉ (List.finRange 2).filter (fun a => decide (a ∉ [(0 : Fin 2)])) by decide))]

/-- On the column axis the window coordinate is the update's column. -/
theorem row_window1 : (rowScatterDims N M C wf).window (ix2 j c) (1 : Fin 2) = c.val := by
  unfold ScatterDims.window
  rw [dif_pos (show (1 : Fin 2) ∈ (rowScatterDims N M C wf).sKept from
    (show (1 : Fin 2) ∈ (List.finRange 2).filter (fun a => decide (a ∉ [(0 : Fin 2)])) by decide))]
  rfl

/-- Update `(j, c)` lands at `(i, k)` exactly when its word, read signed, is `i` and its column is `k`. -/
theorem row_resultIdx?_eq_some_iff (i : Fin N) (k : Fin C) :
    (rowScatterDims N M C wf).resultIdx? (ix2 j c) idx = some (ix2 i k)
      ↔ (idx (ix2 j (0 : Fin 1))).toInt = (i.val : ℤ) ∧ c = k := by
  have s0 := row_start0 wf idx j c
  have s1 := row_start1 wf idx j c
  have w0 := row_window0 wf j c
  have w1 := row_window1 wf j c
  unfold ScatterDims.resultIdx?
  constructor
  · intro h
    split at h
    · rename_i hb
      have h' := Option.some.inj h
      have e0 : ((rowScatterDims N M C wf).start (ix2 j c) idx (0 : Fin 2)
          + ((rowScatterDims N M C wf).window (ix2 j c) (0 : Fin 2) : ℤ)).toNat = i.val :=
        congrArg (fun f => (f (0 : Fin 2)).val) h'
      have e1 : ((rowScatterDims N M C wf).start (ix2 j c) idx (1 : Fin 2)
          + ((rowScatterDims N M C wf).window (ix2 j c) (1 : Fin 2) : ℤ)).toNat = k.val :=
        congrArg (fun f => (f (1 : Fin 2)).val) h'
      have b0 := (hb (0 : Fin 2)).1
      rw [s0, w0] at e0 b0
      rw [s1, w1] at e1
      refine ⟨by omega, Fin.ext (by omega)⟩
    · exact absurd h (by simp)
  · rintro ⟨hw, rfl⟩
    have hi := i.isLt
    have hc := c.isLt
    have hb : ∀ a, 0 ≤ (rowScatterDims N M C wf).start (ix2 j c) idx a + ((rowScatterDims N M C wf).window (ix2 j c) a : ℤ)
        ∧ (rowScatterDims N M C wf).start (ix2 j c) idx a + ((rowScatterDims N M C wf).window (ix2 j c) a : ℤ)
          < ((⟨2, ![N, C]⟩ : Shape).size a : ℤ) := by
      intro a
      match a with
      | ⟨0, _⟩ =>
        show 0 ≤ (rowScatterDims N M C wf).start (ix2 j c) idx (0 : Fin 2) + ((rowScatterDims N M C wf).window (ix2 j c) (0 : Fin 2) : ℤ)
          ∧ (rowScatterDims N M C wf).start (ix2 j c) idx (0 : Fin 2) + ((rowScatterDims N M C wf).window (ix2 j c) (0 : Fin 2) : ℤ) < (N : ℤ)
        rw [s0, w0]; omega
      | ⟨1, _⟩ =>
        show 0 ≤ (rowScatterDims N M C wf).start (ix2 j c) idx (1 : Fin 2) + ((rowScatterDims N M C wf).window (ix2 j c) (1 : Fin 2) : ℤ)
          ∧ (rowScatterDims N M C wf).start (ix2 j c) idx (1 : Fin 2) + ((rowScatterDims N M C wf).window (ix2 j c) (1 : Fin 2) : ℤ) < (C : ℤ)
        rw [s1, w1]; omega
    rw [dif_pos hb]
    congr 1
    funext a
    refine Fin.ext ?_
    match a with
    | ⟨0, _⟩ =>
      show ((rowScatterDims N M C wf).start (ix2 j c) idx (0 : Fin 2)
        + ((rowScatterDims N M C wf).window (ix2 j c) (0 : Fin 2) : ℤ)).toNat = i.val
      rw [s0, w0]; omega
    | ⟨1, _⟩ =>
      show ((rowScatterDims N M C wf).start (ix2 j c) idx (1 : Fin 2)
        + ((rowScatterDims N M C wf).window (ix2 j c) (1 : Fin 2) : ℤ)).toNat = c.val
      rw [s1, w1]; omega

end RowLanding

/-! ### Where a single update lands -/

section FlatLanding
variable {N M w : ℕ} (wf : ScatterDims.WF ⟨1, ![N]⟩ ⟨2, ![M, 1]⟩ ⟨1, ![M]⟩ [] [0] [0] 1)
  (idx : IVec ⟨2, ![M, 1]⟩ w) (j : Fin M)

/-- The window of update `j` starts at the word `idx[j, 0]`, read signed. -/
theorem flat_start0 : (flatScatterDims N M wf).start (ix1 j) idx (0 : Fin 1) = (idx (ix2 j (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 j)
      ⟨List.idxOf (0 : Fin 1) (flatScatterDims N M wf).scatterDimsToOperandDims,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The one operand axis is inserted: the window coordinate there is `0`. -/
theorem flat_window0 : (flatScatterDims N M wf).window (ix1 j) (0 : Fin 1) = 0 := by
  unfold ScatterDims.window
  rw [dif_neg (show (0 : Fin 1) ∉ (flatScatterDims N M wf).sKept from
    (show (0 : Fin 1) ∉ (List.finRange 1).filter (fun a => decide (a ∉ [(0 : Fin 1)])) by decide))]

/-- Update `j` lands at `i` exactly when its word, read signed, is `i`. -/
theorem flat_resultIdx?_eq_some_iff (i : Fin N) :
    (flatScatterDims N M wf).resultIdx? (ix1 j) idx = some (ix1 i) ↔ (idx (ix2 j (0 : Fin 1))).toInt = (i.val : ℤ) := by
  have s0 := flat_start0 wf idx j
  have w0 := flat_window0 wf j
  unfold ScatterDims.resultIdx?
  constructor
  · intro h
    split at h
    · rename_i hb
      have h' := Option.some.inj h
      have e0 : ((flatScatterDims N M wf).start (ix1 j) idx (0 : Fin 1)
          + ((flatScatterDims N M wf).window (ix1 j) (0 : Fin 1) : ℤ)).toNat = i.val :=
        congrArg (fun f => (f (0 : Fin 1)).val) h'
      have b0 := (hb (0 : Fin 1)).1
      rw [s0, w0] at e0 b0
      omega
    · exact absurd h (by simp)
  · intro hw
    have hi := i.isLt
    have hb : ∀ a, 0 ≤ (flatScatterDims N M wf).start (ix1 j) idx a + ((flatScatterDims N M wf).window (ix1 j) a : ℤ)
        ∧ (flatScatterDims N M wf).start (ix1 j) idx a + ((flatScatterDims N M wf).window (ix1 j) a : ℤ)
          < ((⟨1, ![N]⟩ : Shape).size a : ℤ) := by
      intro a
      match a with
      | ⟨0, _⟩ =>
        show 0 ≤ (flatScatterDims N M wf).start (ix1 j) idx (0 : Fin 1) + ((flatScatterDims N M wf).window (ix1 j) (0 : Fin 1) : ℤ)
          ∧ (flatScatterDims N M wf).start (ix1 j) idx (0 : Fin 1) + ((flatScatterDims N M wf).window (ix1 j) (0 : Fin 1) : ℤ) < (N : ℤ)
        rw [s0, w0]; omega
    rw [dif_pos hb]
    congr 1
    funext a
    refine Fin.ext ?_
    match a with
    | ⟨0, _⟩ =>
      show ((flatScatterDims N M wf).start (ix1 j) idx (0 : Fin 1)
        + ((flatScatterDims N M wf).window (ix1 j) (0 : Fin 1) : ℤ)).toNat = i.val
      rw [s0, w0]; omega

end FlatLanding

/-- The accumulating flat scatter at `i`: the element there plus the updates whose word, read signed, is `i`. -/
theorem scatterAdd_flat_apply {N M w : ℕ}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (flatScatterDims N M wf) x idx upd (ix1 i)
      = x (ix1 i) + ∑ j ∈ Finset.univ.filter (fun j : Fin M => (idx (ix2 j (0 : Fin 1))).toInt = (i.val : ℤ)), upd (ix1 j) := by
  unfold Ideal.hostScatterAdd
  congr 1
  refine Finset.sum_nbij' (fun y => (y 0 : Fin M)) (fun a => ix1 a) ?_ ?_ ?_ ?_ ?_
  · intro y hy
    obtain ⟨a, rfl⟩ : ∃ a, y = ix1 a := ⟨y 0, eq_ix1 y⟩
    show a ∈ Finset.univ.filter (fun j : Fin M => (idx (ix2 j (0 : Fin 1))).toInt = (i.val : ℤ))
    rw [Finset.mem_filter] at hy ⊢
    exact ⟨Finset.mem_univ _, (flat_resultIdx?_eq_some_iff wf idx a i).mp hy.2⟩
  · intro a ha
    rw [Finset.mem_filter] at ha ⊢
    exact ⟨Finset.mem_univ _, (flat_resultIdx?_eq_some_iff wf idx a i).mpr ha.2⟩
  · intro y _
    exact (eq_ix1 y).symm
  · intro a _
    rfl
  · intro y _
    exact congrArg upd (eq_ix1 y)

/-- The accumulating row scatter at `(i, k)`: the element there plus column `k` of the update rows whose word, read
    signed, is `i`. -/
theorem scatterAdd_row_apply {N M C w : ℕ}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (k : Fin C) :
    Ideal.hostScatterAdd (rowScatterDims N M C wf) x idx upd (ix2 i k)
      = x (ix2 i k) + ∑ j ∈ Finset.univ.filter (fun j : Fin M => (idx (ix2 j (0 : Fin 1))).toInt = (i.val : ℤ)), upd (ix2 j k) := by
  unfold Ideal.hostScatterAdd
  congr 1
  refine Finset.sum_nbij' (fun y => (y 0 : Fin M)) (fun a => ix2 a k) ?_ ?_ ?_ ?_ ?_
  · intro y hy
    obtain ⟨a, b, rfl⟩ : ∃ a b, y = ix2 a b := ⟨y 0, y 1, eq_ix2 y⟩
    show a ∈ Finset.univ.filter (fun j : Fin M => (idx (ix2 j (0 : Fin 1))).toInt = (i.val : ℤ))
    rw [Finset.mem_filter] at hy ⊢
    exact ⟨Finset.mem_univ _, ((row_resultIdx?_eq_some_iff wf idx a b i k).mp hy.2).1⟩
  · intro a ha
    rw [Finset.mem_filter] at ha ⊢
    exact ⟨Finset.mem_univ _, (row_resultIdx?_eq_some_iff wf idx a k i k).mpr ⟨ha.2, rfl⟩⟩
  · intro y hy
    obtain ⟨a, b, rfl⟩ : ∃ a b, y = ix2 a b := ⟨y 0, y 1, eq_ix2 y⟩
    rw [Finset.mem_filter] at hy
    obtain ⟨_, rfl⟩ := (row_resultIdx?_eq_some_iff wf idx a b i k).mp hy.2
    rfl
  · intro a _
    rfl
  · intro y hy
    obtain ⟨a, b, rfl⟩ : ∃ a b, y = ix2 a b := ⟨y 0, y 1, eq_ix2 y⟩
    rw [Finset.mem_filter] at hy
    obtain ⟨_, rfl⟩ := (row_resultIdx?_eq_some_iff wf idx a b i k).mp hy.2
    rfl

/-! ### The same two readings for the program's spelling of the scatter at the ideal instance -/

/-- The program's accumulating flat scatter, at the ideal instance, read at `i`. -/
theorem host_scatterAdd_flat_apply {N M w : ℕ} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (i : Fin N) :
    Host.scatterAdd (F := Ideal) (flatScatterDims N M wf) x idx upd (ix1 i)
      = x (ix1 i) + ∑ j ∈ Finset.univ.filter (fun j : Fin M => (idx (ix2 j (0 : Fin 1))).toInt = (i.val : ℤ)), upd (ix1 j) :=
  scatterAdd_flat_apply wf x idx upd i

/-- The program's accumulating row scatter, at the ideal instance, read at `(i, k)`. -/
theorem host_scatterAdd_row_apply {N M C w : ℕ} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ)
    (i : Fin N) (k : Fin C) :
    Host.scatterAdd (F := Ideal) (rowScatterDims N M C wf) x idx upd (ix2 i k)
      = x (ix2 i k) + ∑ j ∈ Finset.univ.filter (fun j : Fin M => (idx (ix2 j (0 : Fin 1))).toInt = (i.val : ℤ)), upd (ix2 j k) :=
  scatterAdd_row_apply wf x idx upd i k

end Cert.LibSG

end
-- ==== Proof.GcnLaw.lean ====
/-
  The laws that join the two arrangements of a graph-convolution layer, and the finiteness facts they need.

  `layerLoops_eq`: summing the doubly normalised products over the edges and one self loop per node is the layer that adds
  the self loop in node space — distributivity of a real factor over a finite sum of reals. `degLoops_eq`: counting the edges
  and the self loops together is the degree. The rest says that every quantity on the way is a real number when the
  inputs are, and how an index word that names a node is read.
-/
import proofs.«157511_j56384330662074_2_alg».proof.Proof.GcnSpec

noncomputable section

namespace Cert.Gcn

open Idealize.ShloMosaic

/-! ## Index words -/

/-- A word below `2^31` written from a natural number reads back, signed, as that number. -/
theorem toInt_ofNat32 (r : ℕ) (h : r < 2 ^ 31) : (BitVec.ofNat 32 r).toInt = (r : ℤ) := by
  have h1 : (BitVec.ofNat 32 r).toNat = r := by
    rw [BitVec.toNat_ofNat]; exact Nat.mod_eq_of_lt (by omega)
  rw [BitVec.toInt_eq_toNat_cond, h1]
  split <;> omega

/-- A word that reads as a non-negative integer is not wrapped. -/
theorem wrapW_of_nonneg (nw w : BitVec 32) (h : 0 ≤ w.toInt) : wrapW nw w = w := by
  have hs : w.slt 0#32 = false := by
    rw [BitVec.slt, decide_eq_false_iff_not]
    simpa using h
  simp [wrapW, Scalar.select, IntOp.cmpi, hs]

/-- A word that names node `i` reads row `i`: neither wrapped nor clamped. -/
theorem srcRow_of_toInt {n : ℕ} (hn : 0 < n) (nw w : BitVec 32) (i : Fin n) (h : w.toInt = (i.val : ℤ)) :
    srcRow n hn nw w = i := by
  have h0 : 0 ≤ w.toInt := by rw [h]; exact Int.natCast_nonneg _
  unfold srcRow
  rw [wrapW_of_nonneg nw w h0]
  apply Fin.ext
  show min w.toInt.toNat (n - 1) = i.val
  rw [h, Int.toNat_natCast]
  have := i.isLt
  omega

/-! ## Finiteness -/

theorem isReal_coe (r : ℝ) : IsReal (r : EReal) := ⟨r, rfl⟩
theorem isReal_zero : IsReal 0 := ⟨0, rfl⟩

/-- The coercion of the reals into the extended reals commutes with finite sums. -/
theorem coe_sum {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem isReal_add {x y : EReal} (hx : IsReal x) (hy : IsReal y) : IsReal (x + y) := by
  obtain ⟨a, rfl⟩ := hx; obtain ⟨c, rfl⟩ := hy
  exact ⟨a + c, (EReal.coe_add a c).symm⟩

theorem isReal_mul {x y : EReal} (hx : IsReal x) (hy : IsReal y) : IsReal (x * y) := by
  obtain ⟨a, rfl⟩ := hx; obtain ⟨c, rfl⟩ := hy
  exact ⟨a * c, (EReal.coe_mul a c).symm⟩

/-- A finite sum of real numbers is a real number. -/
theorem isReal_sum {ι : Type} (s : Finset ι) (f : ι → EReal) (hf : ∀ j ∈ s, IsReal (f j)) :
    IsReal (∑ j ∈ s, f j) := by
  classical
  induction s using Finset.induction_on with
  | empty => simpa using isReal_zero
  | insert a s ha ih =>
    rw [Finset.sum_insert ha]
    exact isReal_add (hf a (Finset.mem_insert_self a s))
      (ih fun j hj => hf j (Finset.mem_insert_of_mem hj))

/-- The degree is a real number, at least one. -/
theorem deg_real {n E : ℕ} (dst : Fin E → BitVec 32) (i : Fin n) : ∃ r : ℝ, 1 ≤ r ∧ deg dst i = (r : EReal) := by
  refine ⟨(∑ _j ∈ lands dst i, (1 : ℝ)) + 1, ?_, ?_⟩
  · have h0 : 0 ≤ ∑ _j ∈ lands dst i, (1 : ℝ) := Finset.sum_nonneg fun _ _ => zero_le_one
    linarith
  · unfold deg
    rw [EReal.coe_add, coe_sum, EReal.coe_one]

theorem deg_pos {n E : ℕ} (dst : Fin E → BitVec 32) (i : Fin n) : 0 < deg dst i := by
  obtain ⟨r, hr, he⟩ := deg_real dst i
  rw [he]
  exact EReal.coe_pos.mpr (by linarith)

theorem isReal_dinv {n E : ℕ} (dst : Fin E → BitVec 32) (i : Fin n) : IsReal (dinv dst i) := by
  obtain ⟨r, hr, he⟩ := deg_real dst i
  unfold dinv
  rw [he, Ideal.rsqrt_coe, if_neg (by linarith), if_neg (by linarith)]
  exact ⟨_, rfl⟩

theorem isReal_prod {n p q : ℕ} (x : Fin n → Fin p → EReal) (w : Fin p → Fin q → EReal)
    (hx : ∀ r t, IsReal (x r t)) (hw : ∀ t k, IsReal (w t k)) (r : Fin n) (k : Fin q) : IsReal (prod x w r k) := by
  unfold prod
  exact isReal_sum _ _ fun t _ => isReal_mul (hx r t) (hw t k)

theorem isReal_layer {n E q : ℕ} (row : Fin E → Fin n) (dst : Fin E → BitVec 32) (P : Fin n → Fin q → EReal)
    (δ : Fin n → EReal) (b : Fin q → EReal) (hP : ∀ r k, IsReal (P r k)) (hδ : ∀ r, IsReal (δ r)) (hb : ∀ k, IsReal (b k))
    (i : Fin n) (k : Fin q) : IsReal (layer row dst P δ b i k) := by
  unfold layer combine agg scaled
  refine isReal_add (isReal_mul (hδ i) (isReal_add ?_ (isReal_mul (hP i k) (hδ i)))) (hb k)
  exact isReal_sum _ _ fun j _ => isReal_mul (hP (row j) k) (hδ (row j))

theorem isReal_relu {n q : ℕ} (z : Fin n → Fin q → EReal) (hz : ∀ r k, IsReal (z r k)) (r : Fin n) (k : Fin q) :
    IsReal (relu z r k) := by
  obtain ⟨a, ha⟩ := hz r k
  unfold relu
  rw [ha]
  rcases le_total a 0 with h | h
  · rw [max_eq_right (by exact_mod_cast h)]; exact isReal_zero
  · rw [max_eq_left (by exact_mod_cast h)]; exact isReal_coe a

/-! ## The two arrangements -/

/-- A sum over the edges landing on `i`, among the `E` given edges followed by the `n` self loops, is the sum over the
    given edges landing on `i` plus the one term of the self loop of `i`. -/
theorem sum_lands_loops {n E : ℕ} {M : Type} [AddCommMonoid M] (d : Fin (E + n) → BitVec 32) (dst : Fin E → BitVec 32)
    (hdE : ∀ j : Fin E, d (Fin.castAdd n j) = dst j)
    (hdL : ∀ r : Fin n, (d (Fin.natAdd E r)).toInt = (r.val : ℤ)) (i : Fin n) (f : Fin (E + n) → M) :
    ∑ j ∈ lands d i, f j = (∑ j ∈ lands dst i, f (Fin.castAdd n j)) + f (Fin.natAdd E i) := by
  unfold lands
  rw [Finset.sum_filter, Finset.sum_filter, Fin.sum_univ_add]
  congr 1
  · refine Finset.sum_congr rfl fun j _ => ?_
    rw [hdE]
  · have hiff : ∀ r : Fin n, ((d (Fin.natAdd E r)).toInt = (i.val : ℤ)) ↔ r = i := by
      intro r
      rw [hdL]
      constructor
      · intro h; exact Fin.ext (by exact_mod_cast h)
      · rintro rfl; rfl
    simp only [hiff]
    rw [Finset.sum_ite_eq' Finset.univ i, if_pos (Finset.mem_univ i)]

/-- Counting the `E` edges and the `n` self loops together gives the degree. -/
theorem degLoops_eq {n E : ℕ} (d : Fin (E + n) → BitVec 32) (dst : Fin E → BitVec 32)
    (hdE : ∀ j : Fin E, d (Fin.castAdd n j) = dst j)
    (hdL : ∀ r : Fin n, (d (Fin.natAdd E r)).toInt = (r.val : ℤ)) (i : Fin n) :
    degLoops d i = deg dst i := by
  unfold degLoops deg
  rw [sum_lands_loops d dst hdE hdL i fun _ => (1 : EReal)]

/-- The layer over the `E` edges and `n` self loops, every edge carrying both normalisations, is the layer that adds
    the self loop in node space, when the products and the normalisations are real numbers. `rowD` is only asked to
    name the node an edge lands on. -/
theorem layerLoops_eq {n E q : ℕ} (rowS rowD : Fin (E + n) → Fin n) (d : Fin (E + n) → BitVec 32)
    (row : Fin E → Fin n) (dst : Fin E → BitVec 32) (P : Fin n → Fin q → EReal) (δ : Fin n → EReal) (b : Fin q → EReal)
    (hP : ∀ r k, IsReal (P r k)) (hδ : ∀ r, IsReal (δ r))
    (hdE : ∀ j : Fin E, d (Fin.castAdd n j) = dst j)
    (hsE : ∀ j : Fin E, rowS (Fin.castAdd n j) = row j)
    (hrE : ∀ (j : Fin E) (i : Fin n), (dst j).toInt = (i.val : ℤ) → rowD (Fin.castAdd n j) = i)
    (hdL : ∀ r : Fin n, (d (Fin.natAdd E r)).toInt = (r.val : ℤ))
    (hsL : ∀ r : Fin n, rowS (Fin.natAdd E r) = r)
    (hrL : ∀ r : Fin n, rowD (Fin.natAdd E r) = r)
    (i : Fin n) (k : Fin q) :
    layerLoops rowS rowD d P δ b i k = layer row dst P δ b i k := by
  choose p hp using hP
  choose e he using hδ
  unfold layerLoops layer combine agg scaled
  refine congrArg (· + b k) ?_
  -- the edges and the self loop apart, every row named by its node
  rw [sum_lands_loops d dst hdE hdL i fun j => P (rowS j) k * (δ (rowS j) * δ (rowD j)), hsL, hrL]
  have hE : ∑ j ∈ lands dst i, P (rowS (Fin.castAdd n j)) k * (δ (rowS (Fin.castAdd n j)) * δ (rowD (Fin.castAdd n j)))
      = ∑ j ∈ lands dst i, P (row j) k * (δ (row j) * δ i) := by
    refine Finset.sum_congr rfl fun j hj => ?_
    rw [hsE, hrE j i (by simpa [lands] using hj)]
  rw [hE]
  -- both sides are the coercion of a real number; in the reals it is distributivity
  have hl : ∑ j ∈ lands dst i, P (row j) k * (δ (row j) * δ i)
      = ((∑ j ∈ lands dst i, p (row j) k * (e (row j) * e i) : ℝ) : EReal) := by
    rw [coe_sum]
    refine Finset.sum_congr rfl fun j _ => ?_
    rw [hp, he, he, EReal.coe_mul, EReal.coe_mul]
  have hr : ∑ j ∈ lands dst i, P (row j) k * δ (row j)
      = ((∑ j ∈ lands dst i, p (row j) k * e (row j) : ℝ) : EReal) := by
    rw [coe_sum]
    refine Finset.sum_congr rfl fun j _ => ?_
    rw [hp, he, EReal.coe_mul]
  rw [hl, hr, hp i k, he i, ← EReal.coe_mul, ← EReal.coe_mul, ← EReal.coe_add, ← EReal.coe_mul, ← EReal.coe_add,
    ← EReal.coe_mul]
  congr 1
  rw [mul_add, Finset.mul_sum]
  congr 1
  · refine Finset.sum_congr rfl fun j _ => ?_
    ring
  · ring

end Cert.Gcn

end
-- ==== Proof.GcnNet.lean ====
/-
  The whole network in the arrangement the programs compute — the self loops as extra edges, every edge carrying both
  normalisations, the normalisation guarded by a comparison that never fails — is the network of the specification.
-/
import proofs.«157511_j56384330662074_2_alg».proof.Proof.GcnLaw

noncomputable section

namespace Cert.Gcn

open Idealize.ShloMosaic

/-- A selection guarded by `x > 0` takes its first branch when `x` is positive. -/
theorem select_ogt_of_pos {x a b : EReal} (h : 0 < x) : Scalar.select (Ideal.cmp .ogt x 0) a b = a := by
  simp [Scalar.select, Ideal.cmp, h]

/-- The normalisation as the programs compute it: the reciprocal square root where the degree is positive, else `0` —
    and the degree is positive. -/
theorem dinv_select {n E : ℕ} (dst : Fin E → BitVec 32) (i : Fin n) :
    Scalar.select (Ideal.cmp .ogt (deg dst i) 0) (Ideal.rsqrt (deg dst i)) 0 = dinv dst i := by
  rw [select_ogt_of_pos (deg_pos dst i)]
  rfl

theorem dinvLoops_select {n E : ℕ} (d : Fin (E + n) → BitVec 32) (dst : Fin E → BitVec 32)
    (hdE : ∀ j : Fin E, d (Fin.castAdd n j) = dst j) (hdL : ∀ r : Fin n, (d (Fin.natAdd E r)).toInt = (r.val : ℤ))
    (i : Fin n) :
    Scalar.select (Ideal.cmp .ogt (degLoops d i) 0) (Ideal.rsqrt (degLoops d i)) 0 = dinv dst i := by
  rw [degLoops_eq d dst hdE hdL i]
  exact dinv_select dst i

/-- The whole network: the arrangement with self loops as edges and doubly normalised products, layer by layer, is
    `net`. The first layer's output is a real number at every coordinate, so its rectified product with the second
    weights is too, and the law of one layer applies twice. -/
theorem netLoops_eq {n E p q₁ q₂ : ℕ} (rowS rowD : Fin (E + n) → Fin n) (d : Fin (E + n) → BitVec 32)
    (row : Fin E → Fin n) (dst : Fin E → BitVec 32)
    (x : Fin n → Fin p → EReal) (w₁ : Fin p → Fin q₁ → EReal) (b₁ : Fin q₁ → EReal)
    (w₂ : Fin q₁ → Fin q₂ → EReal) (b₂ : Fin q₂ → EReal)
    (δ₁ δ₂ : Fin n → EReal) (hδ₁ : ∀ r, δ₁ r = dinv dst r) (hδ₂ : ∀ r, δ₂ r = dinv dst r)
    (hx : ∀ r t, IsReal (x r t)) (hw₁ : ∀ t k, IsReal (w₁ t k)) (hb₁ : ∀ k, IsReal (b₁ k))
    (hw₂ : ∀ t k, IsReal (w₂ t k))
    (hdE : ∀ j : Fin E, d (Fin.castAdd n j) = dst j)
    (hsE : ∀ j : Fin E, rowS (Fin.castAdd n j) = row j)
    (hrE : ∀ (j : Fin E) (i : Fin n), (dst j).toInt = (i.val : ℤ) → rowD (Fin.castAdd n j) = i)
    (hdL : ∀ r : Fin n, (d (Fin.natAdd E r)).toInt = (r.val : ℤ))
    (hsL : ∀ r : Fin n, rowS (Fin.natAdd E r) = r)
    (hrL : ∀ r : Fin n, rowD (Fin.natAdd E r) = r)
    (r : Fin n) (k : Fin q₂) :
    logSoftmax (layerLoops rowS rowD d (prod (relu (layerLoops rowS rowD d (prod x w₁) δ₁ b₁)) w₂) δ₂ b₂ r) k
      = net row dst x w₁ b₁ w₂ b₂ r k := by
  have h₁ : δ₁ = dinv (n := n) dst := funext hδ₁
  have h₂ : δ₂ = dinv (n := n) dst := funext hδ₂
  subst h₁ h₂
  have hd : ∀ r : Fin n, IsReal (dinv dst r) := isReal_dinv dst
  have hP₁ : ∀ r k, IsReal (prod x w₁ r k) := isReal_prod x w₁ hx hw₁
  have hL₁ : layerLoops rowS rowD d (prod x w₁) (dinv (n := n) dst) b₁ = layer row dst (prod x w₁) (dinv (n := n) dst) b₁ := by
    funext i c
    exact layerLoops_eq rowS rowD d row dst (prod x w₁) (dinv (n := n) dst) b₁ hP₁ hd hdE hsE hrE hdL hsL hrL i c
  rw [hL₁]
  have hZ : ∀ r k, IsReal (layer row dst (prod x w₁) (dinv (n := n) dst) b₁ r k) :=
    isReal_layer row dst (prod x w₁) (dinv (n := n) dst) b₁ hP₁ hd hb₁
  have hP₂ : ∀ r k, IsReal (prod (relu (layer row dst (prod x w₁) (dinv (n := n) dst) b₁)) w₂ r k) :=
    isReal_prod _ w₂ (isReal_relu _ hZ) hw₂
  have hL₂ : layerLoops rowS rowD d (prod (relu (layer row dst (prod x w₁) (dinv (n := n) dst) b₁)) w₂) (dinv (n := n) dst) b₂ r
      = layer row dst (prod (relu (layer row dst (prod x w₁) (dinv (n := n) dst) b₁)) w₂) (dinv (n := n) dst) b₂ r := by
    funext c
    exact layerLoops_eq rowS rowD d row dst _ (dinv (n := n) dst) b₂ hP₂ hd hdE hsE hrE hdL hsL hrL r c
  rw [hL₂]
  rfl

end Cert.Gcn

end
-- ==== Proof.LibAfter.lean ====
/-
  A straight line of host operations in single-assignment form, read locally. When operation `k` of the line writes
  exactly the buffer `Ws[k]`, a buffer that no later operation writes holds, after the whole line, what it held
  after the operations up to the last one that could write it: the result of operation `k` is read from the contents
  after the first `k` operations, and an operand no later operation writes is stable.
-/
import Idealize.ShloMosaic.Lib.StableHlo.Run

noncomputable section

namespace Cert.LibAfter

open Idealize.ShloMosaic Idealize.ShloMosaic.StableHlo

variable {τ : Topo} {sig : RefSig} {Val : EltTy → Type}

/-- Operation `k` writes exactly buffer `Ws[k]`. -/
def WritesList (ops : List (HloOp τ sig Val)) (Ws : List (Ref sig .tc)) : Prop :=
  List.Forall₂ (fun op r => op.writes = {Proc.devRef (τ := τ) .tc r}) ops Ws

theorem writesList_nil : WritesList ([] : List (HloOp τ sig Val)) [] := List.Forall₂.nil

theorem writesList_cons {op : HloOp τ sig Val} {r : Ref sig .tc} {ops : List (HloOp τ sig Val)} {Ws : List (Ref sig .tc)}
    (hw : op.writes = {Proc.devRef (τ := τ) .tc r}) (h : WritesList ops Ws) : WritesList (op :: ops) (r :: Ws) :=
  List.Forall₂.cons hw h

/-- Two lines one after the other are their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A reference outside the list of written references is written by no operation of the line. -/
theorem not_mem_writes {ops : List (HloOp τ sig Val)} {Ws : List (Ref sig .tc)} (h : WritesList ops Ws)
    {a : Ref sig .tc} (ha : a ∉ Ws) : ∀ op ∈ ops, Proc.devRef (τ := τ) .tc a ∉ op.writes := by
  unfold WritesList at h
  induction h with
  | nil => intro op hop; exact absurd hop List.not_mem_nil
  | cons hw _ ih =>
    intro op hop
    rcases List.mem_cons.1 hop with rfl | hop
    · rw [hw, Finset.mem_singleton]
      intro e
      exact ha (Proc.devRef_injective _ e ▸ List.mem_cons_self)
    · exact ih (fun hm => ha (List.mem_cons_of_mem _ hm)) op hop

/-- A buffer the line does not write keeps its contents. -/
theorem after_keep (ops : List (HloOp τ sig Val)) (Ws : List (Ref sig .tc)) (h : WritesList ops Ws)
    (V : Valuation τ sig Val) (a : Ref sig .tc) (ha : a ∉ Ws) :
    after ops V (Proc.devRef .tc a) = V (Proc.devRef .tc a) :=
  after_of_forall_not_mem ops V (not_mem_writes h ha)

/-- A buffer no operation from the `k`-th on writes holds after the first `k` operations what it holds after all. -/
theorem after_take (ops : List (HloOp τ sig Val)) (Ws : List (Ref sig .tc)) (h : WritesList ops Ws) (k : ℕ)
    (V : Valuation τ sig Val) (a : Ref sig .tc) (ha : a ∉ Ws.drop k) :
    after (ops.take k) V (Proc.devRef .tc a) = after ops V (Proc.devRef .tc a) := by
  have hd : WritesList (ops.drop k) (Ws.drop k) := List.forall₂_drop k h
  have e : ops.take k ++ ops.drop k = ops := List.take_append_drop k ops
  refine Eq.trans ?_ (congrArg (fun l => after l V (Proc.devRef .tc a)) e)
  show _ = after (ops.take k ++ ops.drop k) V (Proc.devRef .tc a)
  rw [after_append]
  exact (after_keep _ _ hd _ a ha).symm

/-- A buffer no operation after the `k`-th writes holds after the line what operation `k` leaves in it, run from the
    contents after the first `k` operations. -/
theorem after_local (ops : List (HloOp τ sig Val)) (Ws : List (Ref sig .tc)) (h : WritesList ops Ws) (k : ℕ)
    (hk : k < ops.length) (V : Valuation τ sig Val) (y : Ref sig .tc) (hy : y ∉ Ws.drop (k + 1)) :
    after ops V (Proc.devRef .tc y) = (ops[k]).result (after (ops.take k) V) (Proc.devRef .tc y) := by
  have hd : WritesList (ops.drop (k + 1)) (Ws.drop (k + 1)) := List.forall₂_drop (k + 1) h
  have e : ops = ops.take k ++ (ops[k] :: ops.drop (k + 1)) := by
    rw [← List.drop_eq_getElem_cons hk, List.take_append_drop]
  refine (congrArg (fun l => after l V (Proc.devRef .tc y)) e).trans ?_
  show after (ops.take k ++ (ops[k] :: ops.drop (k + 1))) V (Proc.devRef .tc y) = _
  rw [after_append, after_cons]
  exact after_keep _ _ hd _ y hy

end Cert.LibAfter

end
-- ==== Proof.KHost0b.lean ====
/-
  The idealized kernel's first stretch of host operations, read at an index from any contents of the buffers before
  it. The 22 operations write 22 distinct buffers, none of them an argument, so each buffer holds after the stretch
  what its own operation left in it; each operation is compared, alone, with the stage of the same text. Read at an
  index the last stage is the normalisation: at node r the inverse square root of one more than the number of edges
  whose target word, read signed, is r — ones scattered into zeros, plus one; the guard that the degree is positive
  always holds.
-/
import proofs.«157511_j56384330662074_2_alg».proof.Proof.Gen.KernelIdeal.Frame
import proofs.«157511_j56384330662074_2_alg».proof.Proof.LibScatterGather
import proofs.«157511_j56384330662074_2_alg».proof.Proof.LibAfter
import proofs.«157511_j56384330662074_2_alg».proof.Proof.GcnNet
import Idealize.ShloMosaic.Lib.StableHlo.Run
import Idealize.ShloMosaic.Lib.Pipeline.Value
import Idealize.ShloMosaic.Lib.ValueIdx
import Idealize.ShloMosaic.PureOps.Ideal.Laws

set_option maxRecDepth 8192

noncomputable section

namespace Cert.KernelIdeal.HostValueB

open Cert.KernelIdeal Cert.KernelIdeal.Gen Cert.Gcn Cert.LibAfter Idealize.ShloMosaic Idealize.ShloMosaic.ValueIdx
open Idealize.ShloMosaic.StableHlo Idealize.ShloMosaic.TcCoe Idealize.SL.Sem

variable {F : FTy → Type} [FloatOps F]

/-! ## The stages: each operation's function applied to the stages of its operands -/

def k_v0 (x : (⟨S2x1600000, .i32⟩ : BufTy).Contents (Elt F)) : (⟨S1x1600000, .i32⟩ : BufTy).Contents (Elt F) :=
  ((extractStridedSlice S1x1600000 ![0, 0] · slices_S2x1600000_S1x1600000_0_0) : (⟨S2x1600000, .i32⟩ : BufTy).Contents (Elt F) → (⟨S1x1600000, .i32⟩ : BufTy).Contents (Elt F)) x

def k_v1 (x : (⟨S2x1600000, .i32⟩ : BufTy).Contents (Elt F)) : (⟨S1600000, .i32⟩ : BufTy).Contents (Elt F) :=
  shapeCast _ (k_v0 (F := F) x) shapeCasts_S1x1600000_S1600000

def k_v2 (x : (⟨S2x1600000, .i32⟩ : BufTy).Contents (Elt F)) : (⟨S1x1600000, .i32⟩ : BufTy).Contents (Elt F) :=
  ((extractStridedSlice S1x1600000 ![1, 0] · slices_S2x1600000_S1x1600000_1_0) : (⟨S2x1600000, .i32⟩ : BufTy).Contents (Elt F) → (⟨S1x1600000, .i32⟩ : BufTy).Contents (Elt F)) x

def k_v3 (x : (⟨S2x1600000, .i32⟩ : BufTy).Contents (Elt F)) : (⟨S1600000, .i32⟩ : BufTy).Contents (Elt F) :=
  shapeCast _ (k_v2 (F := F) x) shapeCasts_S1x1600000_S1600000

def k_cst : (⟨S_, .f32⟩ : BufTy).Contents (Elt F) :=
  (constant S_ .f32 0x3F800000#32)

def k_v4 : (⟨S1600000, .f32⟩ : BufTy).Contents (Elt F) :=
  ((broadcastInDim S1600000 ![] bcast_S_S1600000) : (⟨S_, .f32⟩ : BufTy).Contents (Elt F) → (⟨S1600000, .f32⟩ : BufTy).Contents (Elt F)) (k_cst (F := F))

def k_cst_0 : (⟨S_, .f32⟩ : BufTy).Contents (Elt F) :=
  (constant S_ .f32 0x00000000#32)

def k_v5 : (⟨S100000, .f32⟩ : BufTy).Contents (Elt F) :=
  ((broadcastInDim S100000 ![] bcast_S_S100000) : (⟨S_, .f32⟩ : BufTy).Contents (Elt F) → (⟨S100000, .f32⟩ : BufTy).Contents (Elt F)) (k_cst_0 (F := F))

def k_v6 (x : (⟨S2x1600000, .i32⟩ : BufTy).Contents (Elt F)) : (⟨S1600000x1, .i32⟩ : BufTy).Contents (Elt F) :=
  ((broadcastInDim S1600000x1 ![0] bcast_S1600000_S1600000x1_0) : (⟨S1600000, .i32⟩ : BufTy).Contents (Elt F) → (⟨S1600000x1, .i32⟩ : BufTy).Contents (Elt F)) (k_v3 (F := F) x)

def k_v7 (x : (⟨S2x1600000, .i32⟩ : BufTy).Contents (Elt F)) : (⟨S100000, .f32⟩ : BufTy).Contents (Elt F) :=
  ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) (k_v5 (F := F)) (k_v6 (F := F) x) (k_v4 (F := F))

def k_cst_1 : (⟨S_, .f32⟩ : BufTy).Contents (Elt F) :=
  (constant S_ .f32 0x3F800000#32)

def k_v8 : (⟨S100000, .f32⟩ : BufTy).Contents (Elt F) :=
  ((broadcastInDim S100000 ![] bcast_S_S100000) : (⟨S_, .f32⟩ : BufTy).Contents (Elt F) → (⟨S100000, .f32⟩ : BufTy).Contents (Elt F)) (k_cst_1 (F := F))

def k_v9 (x : (⟨S2x1600000, .i32⟩ : BufTy).Contents (Elt F)) : (⟨S100000, .f32⟩ : BufTy).Contents (Elt F) :=
  (addf : (⟨S100000, .f32⟩ : BufTy).Contents (Elt F) → (⟨S100000, .f32⟩ : BufTy).Contents (Elt F) → (⟨S100000, .f32⟩ : BufTy).Contents (Elt F)) (k_v7 (F := F) x) (k_v8 (F := F))

def k_cst_2 : (⟨S_, .f32⟩ : BufTy).Contents (Elt F) :=
  (constant S_ .f32 0x00000000#32)

def k_v10 : (⟨S100000, .f32⟩ : BufTy).Contents (Elt F) :=
  ((broadcastInDim S100000 ![] bcast_S_S100000) : (⟨S_, .f32⟩ : BufTy).Contents (Elt F) → (⟨S100000, .f32⟩ : BufTy).Contents (Elt F)) (k_cst_2 (F := F))

def k_v11 (x : (⟨S2x1600000, .i32⟩ : BufTy).Contents (Elt F)) : (⟨S100000, .i1⟩ : BufTy).Contents (Elt F) :=
  ((cmpf .ogt) : (⟨S100000, .f32⟩ : BufTy).Contents (Elt F) → (⟨S100000, .f32⟩ : BufTy).Contents (Elt F) → (⟨S100000, .i1⟩ : BufTy).Contents (Elt F)) (k_v9 (F := F) x) (k_v10 (F := F))

def k_v12 (x : (⟨S2x1600000, .i32⟩ : BufTy).Contents (Elt F)) : (⟨S100000, .f32⟩ : BufTy).Contents (Elt F) :=
  (Host.rsqrt : (⟨S100000, .f32⟩ : BufTy).Contents (Elt F) → (⟨S100000, .f32⟩ : BufTy).Contents (Elt F)) (k_v9 (F := F) x)

def k_cst_3 : (⟨S_, .f32⟩ : BufTy).Contents (Elt F) :=
  (constant S_ .f32 0x00000000#32)

def k_call0_v0 : (⟨S_, .f32⟩ : BufTy).Contents (Elt F) :=
  (id : (⟨S_, .f32⟩ : BufTy).Contents (Elt F) → (⟨S_, .f32⟩ : BufTy).Contents (Elt F)) (k_cst_3 (F := F))

def k_call0_v1 : (⟨S100000, .f32⟩ : BufTy).Contents (Elt F) :=
  ((broadcastInDim S100000 ![] bcast_S_S100000) : (⟨S_, .f32⟩ : BufTy).Contents (Elt F) → (⟨S100000, .f32⟩ : BufTy).Contents (Elt F)) (k_call0_v0 (F := F))

def k_v13 (x : (⟨S2x1600000, .i32⟩ : BufTy).Contents (Elt F)) : (⟨S100000, .f32⟩ : BufTy).Contents (Elt F) :=
  (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (k_v11 (F := F) x) (k_v12 (F := F) x) (k_call0_v1 (F := F))

def k_v14 (x : (⟨S2x1600000, .i32⟩ : BufTy).Contents (Elt F)) : (⟨S100000x1, .f32⟩ : BufTy).Contents (Elt F) :=
  shapeCast _ (k_v13 (F := F) x) shapeCasts_S100000_S100000x1

/-! ## The stretch in single-assignment form -/

/-- The stretch's operations, in order. -/
def hOps : List (HloOp τ sig (Elt F)) := hostOps0 (F := F)

/-- The buffer each operation writes, in the same order. -/
def Ws0 : List (Ref sig .tc) :=
  [main_call0_v0, main_call0_v1, main_call0_v2, main_call0_v3, main_call0_cst, main_call0_v4, main_call0_cst_0, main_call0_v5, main_call0_v6, main_call0_v7, main_call0_cst_1, main_call0_v8, main_call0_v9, main_call0_cst_2, main_call0_v10, main_call0_v11, main_call0_v12, main_call0_cst_3, main_call0_call0_v0, main_call0_call0_v1, main_call0_v13, main_call0_v14]

theorem hWs0 : WritesList (τ := τ) (hOps (F := F)) Ws0 := by
  unfold hOps Ws0
  repeat' first | exact writesList_nil | refine writesList_cons rfl ?_

theorem hOps_length : (hOps (F := F)).length = 22 := rfl

theorem hlt0 (k : ℕ) (h : k < 22) : k < (hOps (F := F)).length := (hOps_length (F := F)) ▸ h

/-- The edge list is not written. -/
theorem keepB_arg1 (W : Valuation τ sig (Elt F)) :
    after hOps W (Proc.devRef .tc main_arg1) = W (Proc.devRef .tc main_arg1) :=
  after_keep hOps Ws0 hWs0 W main_arg1 (by decide)

/-! ## One lemma per operation: the buffer it writes holds its stage -/

theorem B_main_call0_v0 (W : Valuation τ sig (Elt F)) :
    after hOps W (Proc.devRef .tc main_call0_v0) = k_v0 (F := F) (W (Proc.devRef .tc main_arg1)) := by
  rw [after_local hOps Ws0 hWs0 0 (hlt0 0 (by decide)) W main_call0_v0 (by decide)]
  have hop : (hOps (F := F))[0]'(hlt0 0 (by decide)) = StableHlo.TRef.unary (.of main_arg1 : StableHlo.TRef sig ⟨S2x1600000, .i32⟩) (.of main_call0_v0 : StableHlo.TRef sig ⟨S1x1600000, .i32⟩) (extractStridedSlice S1x1600000 ![0, 0] · slices_S2x1600000_S1x1600000_0_0) := rfl
  rw [hop, StableHlo.unary_result, after_take hOps Ws0 hWs0 0 W main_arg1 (by decide), keepB_arg1 W]
  have eY : ∀ v, (.of main_call0_v0 : StableHlo.TRef sig ⟨S1x1600000, .i32⟩).toBuf (Val := Elt F) v = v := fun _ => rfl
  have e0 : ∀ v, (.of main_arg1 : StableHlo.TRef sig ⟨S2x1600000, .i32⟩).ofBuf (Val := Elt F) v = v := fun _ => rfl
  rw [eY, e0]
  rfl

theorem B_main_call0_v1 (W : Valuation τ sig (Elt F)) :
    after hOps W (Proc.devRef .tc main_call0_v1) = k_v1 (F := F) (W (Proc.devRef .tc main_arg1)) := by
  rw [after_local hOps Ws0 hWs0 1 (hlt0 1 (by decide)) W main_call0_v1 (by decide)]
  have hop : (hOps (F := F))[1]'(hlt0 1 (by decide)) = StableHlo.TRef.reshape (.of main_call0_v0 : StableHlo.TRef sig ⟨S1x1600000, .i32⟩) (.of main_call0_v1 : StableHlo.TRef sig ⟨S1600000, .i32⟩) rfl shapeCasts_S1x1600000_S1600000 := rfl
  rw [hop, StableHlo.reshape_result, after_take hOps Ws0 hWs0 1 W main_call0_v0 (by decide), B_main_call0_v0 W]
  rfl

theorem B_main_call0_v2 (W : Valuation τ sig (Elt F)) :
    after hOps W (Proc.devRef .tc main_call0_v2) = k_v2 (F := F) (W (Proc.devRef .tc main_arg1)) := by
  rw [after_local hOps Ws0 hWs0 2 (hlt0 2 (by decide)) W main_call0_v2 (by decide)]
  have hop : (hOps (F := F))[2]'(hlt0 2 (by decide)) = StableHlo.TRef.unary (.of main_arg1 : StableHlo.TRef sig ⟨S2x1600000, .i32⟩) (.of main_call0_v2 : StableHlo.TRef sig ⟨S1x1600000, .i32⟩) (extractStridedSlice S1x1600000 ![1, 0] · slices_S2x1600000_S1x1600000_1_0) := rfl
  rw [hop, StableHlo.unary_result, after_take hOps Ws0 hWs0 2 W main_arg1 (by decide), keepB_arg1 W]
  have eY : ∀ v, (.of main_call0_v2 : StableHlo.TRef sig ⟨S1x1600000, .i32⟩).toBuf (Val := Elt F) v = v := fun _ => rfl
  have e0 : ∀ v, (.of main_arg1 : StableHlo.TRef sig ⟨S2x1600000, .i32⟩).ofBuf (Val := Elt F) v = v := fun _ => rfl
  rw [eY, e0]
  rfl

theorem B_main_call0_v3 (W : Valuation τ sig (Elt F)) :
    after hOps W (Proc.devRef .tc main_call0_v3) = k_v3 (F := F) (W (Proc.devRef .tc main_arg1)) := by
  rw [after_local hOps Ws0 hWs0 3 (hlt0 3 (by decide)) W main_call0_v3 (by decide)]
  have hop : (hOps (F := F))[3]'(hlt0 3 (by decide)) = StableHlo.TRef.reshape (.of main_call0_v2 : StableHlo.TRef sig ⟨S1x1600000, .i32⟩) (.of main_call0_v3 : StableHlo.TRef sig ⟨S1600000, .i32⟩) rfl shapeCasts_S1x1600000_S1600000 := rfl
  rw [hop, StableHlo.reshape_result, after_take hOps Ws0 hWs0 3 W main_call0_v2 (by decide), B_main_call0_v2 W]
  rfl

theorem B_main_call0_cst (W : Valuation τ sig (Elt F)) :
    after hOps W (Proc.devRef .tc main_call0_cst) = k_cst (F := F) := by
  rw [after_local hOps Ws0 hWs0 4 (hlt0 4 (by decide)) W main_call0_cst (by decide)]
  have hop : (hOps (F := F))[4]'(hlt0 4 (by decide)) = StableHlo.TRef.nullary (.of main_call0_cst : StableHlo.TRef sig ⟨S_, .f32⟩) (constant S_ .f32 0x3F800000#32) := rfl
  rw [hop, StableHlo.nullary_result]
  have eY : ∀ v, (.of main_call0_cst : StableHlo.TRef sig ⟨S_, .f32⟩).toBuf (Val := Elt F) v = v := fun _ => rfl
  rw [eY]
  rfl

theorem B_main_call0_v4 (W : Valuation τ sig (Elt F)) :
    after hOps W (Proc.devRef .tc main_call0_v4) = k_v4 (F := F) := by
  rw [after_local hOps Ws0 hWs0 5 (hlt0 5 (by decide)) W main_call0_v4 (by decide)]
  have hop : (hOps (F := F))[5]'(hlt0 5 (by decide)) = StableHlo.TRef.unary (.of main_call0_cst : StableHlo.TRef sig ⟨S_, .f32⟩) (.of main_call0_v4 : StableHlo.TRef sig ⟨S1600000, .f32⟩) (broadcastInDim S1600000 ![] bcast_S_S1600000) := rfl
  rw [hop, StableHlo.unary_result, after_take hOps Ws0 hWs0 5 W main_call0_cst (by decide), B_main_call0_cst W]
  have eY : ∀ v, (.of main_call0_v4 : StableHlo.TRef sig ⟨S1600000, .f32⟩).toBuf (Val := Elt F) v = v := fun _ => rfl
  have e0 : ∀ v, (.of main_call0_cst : StableHlo.TRef sig ⟨S_, .f32⟩).ofBuf (Val := Elt F) v = v := fun _ => rfl
  rw [eY, e0]
  rfl

theorem B_main_call0_cst_0 (W : Valuation τ sig (Elt F)) :
    after hOps W (Proc.devRef .tc main_call0_cst_0) = k_cst_0 (F := F) := by
  rw [after_local hOps Ws0 hWs0 6 (hlt0 6 (by decide)) W main_call0_cst_0 (by decide)]
  have hop : (hOps (F := F))[6]'(hlt0 6 (by decide)) = StableHlo.TRef.nullary (.of main_call0_cst_0 : StableHlo.TRef sig ⟨S_, .f32⟩) (constant S_ .f32 0x00000000#32) := rfl
  rw [hop, StableHlo.nullary_result]
  have eY : ∀ v, (.of main_call0_cst_0 : StableHlo.TRef sig ⟨S_, .f32⟩).toBuf (Val := Elt F) v = v := fun _ => rfl
  rw [eY]
  rfl

theorem B_main_call0_v5 (W : Valuation τ sig (Elt F)) :
    after hOps W (Proc.devRef .tc main_call0_v5) = k_v5 (F := F) := by
  rw [after_local hOps Ws0 hWs0 7 (hlt0 7 (by decide)) W main_call0_v5 (by decide)]
  have hop : (hOps (F := F))[7]'(hlt0 7 (by decide)) = StableHlo.TRef.unary (.of main_call0_cst_0 : StableHlo.TRef sig ⟨S_, .f32⟩) (.of main_call0_v5 : StableHlo.TRef sig ⟨S100000, .f32⟩) (broadcastInDim S100000 ![] bcast_S_S100000) := rfl
  rw [hop, StableHlo.unary_result, after_take hOps Ws0 hWs0 7 W main_call0_cst_0 (by decide), B_main_call0_cst_0 W]
  have eY : ∀ v, (.of main_call0_v5 : StableHlo.TRef sig ⟨S100000, .f32⟩).toBuf (Val := Elt F) v = v := fun _ => rfl
  have e0 : ∀ v, (.of main_call0_cst_0 : StableHlo.TRef sig ⟨S_, .f32⟩).ofBuf (Val := Elt F) v = v := fun _ => rfl
  rw [eY, e0]
  rfl

theorem B_main_call0_v6 (W : Valuation τ sig (Elt F)) :
    after hOps W (Proc.devRef .tc main_call0_v6) = k_v6 (F := F) (W (Proc.devRef .tc main_arg1)) := by
  rw [after_local hOps Ws0 hWs0 8 (hlt0 8 (by decide)) W main_call0_v6 (by decide)]
  have hop : (hOps (F := F))[8]'(hlt0 8 (by decide)) = StableHlo.TRef.unary (.of main_call0_v3 : StableHlo.TRef sig ⟨S1600000, .i32⟩) (.of main_call0_v6 : StableHlo.TRef sig ⟨S1600000x1, .i32⟩) (broadcastInDim S1600000x1 ![0] bcast_S1600000_S1600000x1_0) := rfl
  rw [hop, StableHlo.unary_result, after_take hOps Ws0 hWs0 8 W main_call0_v3 (by decide), B_main_call0_v3 W]
  have eY : ∀ v, (.of main_call0_v6 : StableHlo.TRef sig ⟨S1600000x1, .i32⟩).toBuf (Val := Elt F) v = v := fun _ => rfl
  have e0 : ∀ v, (.of main_call0_v3 : StableHlo.TRef sig ⟨S1600000, .i32⟩).ofBuf (Val := Elt F) v = v := fun _ => rfl
  rw [eY, e0]
  rfl

theorem B_main_call0_v7 (W : Valuation τ sig (Elt F)) :
    after hOps W (Proc.devRef .tc main_call0_v7) = k_v7 (F := F) (W (Proc.devRef .tc main_arg1)) := by
  rw [after_local hOps Ws0 hWs0 9 (hlt0 9 (by decide)) W main_call0_v7 (by decide)]
  have hop : (hOps (F := F))[9]'(hlt0 9 (by decide)) = StableHlo.TRef.ternary (.of main_call0_v5 : StableHlo.TRef sig ⟨S100000, .f32⟩) (.of main_call0_v6 : StableHlo.TRef sig ⟨S1600000x1, .i32⟩) (.of main_call0_v4 : StableHlo.TRef sig ⟨S1600000, .f32⟩) (.of main_call0_v7 : StableHlo.TRef sig ⟨S100000, .f32⟩) (fun x i u => Host.scatterAdd scatter_S100000_S1600000x1_S1600000_n_0_0_1 x i u) := rfl
  rw [hop, StableHlo.ternary_result, after_take hOps Ws0 hWs0 9 W main_call0_v5 (by decide), B_main_call0_v5 W, after_take hOps Ws0 hWs0 9 W main_call0_v6 (by decide), B_main_call0_v6 W, after_take hOps Ws0 hWs0 9 W main_call0_v4 (by decide), B_main_call0_v4 W]
  have eY : ∀ v, (.of main_call0_v7 : StableHlo.TRef sig ⟨S100000, .f32⟩).toBuf (Val := Elt F) v = v := fun _ => rfl
  have e0 : ∀ v, (.of main_call0_v5 : StableHlo.TRef sig ⟨S100000, .f32⟩).ofBuf (Val := Elt F) v = v := fun _ => rfl
  have e1 : ∀ v, (.of main_call0_v6 : StableHlo.TRef sig ⟨S1600000x1, .i32⟩).ofBuf (Val := Elt F) v = v := fun _ => rfl
  have e2 : ∀ v, (.of main_call0_v4 : StableHlo.TRef sig ⟨S1600000, .f32⟩).ofBuf (Val := Elt F) v = v := fun _ => rfl
  rw [eY, e0, e1, e2]
  rfl

theorem B_main_call0_cst_1 (W : Valuation τ sig (Elt F)) :
    after hOps W (Proc.devRef .tc main_call0_cst_1) = k_cst_1 (F := F) := by
  rw [after_local hOps Ws0 hWs0 10 (hlt0 10 (by decide)) W main_call0_cst_1 (by decide)]
  have hop : (hOps (F := F))[10]'(hlt0 10 (by decide)) = StableHlo.TRef.nullary (.of main_call0_cst_1 : StableHlo.TRef sig ⟨S_, .f32⟩) (constant S_ .f32 0x3F800000#32) := rfl
  rw [hop, StableHlo.nullary_result]
  have eY : ∀ v, (.of main_call0_cst_1 : StableHlo.TRef sig ⟨S_, .f32⟩).toBuf (Val := Elt F) v = v := fun _ => rfl
  rw [eY]
  rfl

theorem B_main_call0_v8 (W : Valuation τ sig (Elt F)) :
    after hOps W (Proc.devRef .tc main_call0_v8) = k_v8 (F := F) := by
  rw [after_local hOps Ws0 hWs0 11 (hlt0 11 (by decide)) W main_call0_v8 (by decide)]
  have hop : (hOps (F := F))[11]'(hlt0 11 (by decide)) = StableHlo.TRef.unary (.of main_call0_cst_1 : StableHlo.TRef sig ⟨S_, .f32⟩) (.of main_call0_v8 : StableHlo.TRef sig ⟨S100000, .f32⟩) (broadcastInDim S100000 ![] bcast_S_S100000) := rfl
  rw [hop, StableHlo.unary_result, after_take hOps Ws0 hWs0 11 W main_call0_cst_1 (by decide), B_main_call0_cst_1 W]
  have eY : ∀ v, (.of main_call0_v8 : StableHlo.TRef sig ⟨S100000, .f32⟩).toBuf (Val := Elt F) v = v := fun _ => rfl
  have e0 : ∀ v, (.of main_call0_cst_1 : StableHlo.TRef sig ⟨S_, .f32⟩).ofBuf (Val := Elt F) v = v := fun _ => rfl
  rw [eY, e0]
  rfl

theorem B_main_call0_v9 (W : Valuation τ sig (Elt F)) :
    after hOps W (Proc.devRef .tc main_call0_v9) = k_v9 (F := F) (W (Proc.devRef .tc main_arg1)) := by
  rw [after_local hOps Ws0 hWs0 12 (hlt0 12 (by decide)) W main_call0_v9 (by decide)]
  have hop : (hOps (F := F))[12]'(hlt0 12 (by decide)) = StableHlo.TRef.binary (.of main_call0_v7 : StableHlo.TRef sig ⟨S100000, .f32⟩) (.of main_call0_v8 : StableHlo.TRef sig ⟨S100000, .f32⟩) (.of main_call0_v9 : StableHlo.TRef sig ⟨S100000, .f32⟩) addf := rfl
  rw [hop, StableHlo.binary_result, after_take hOps Ws0 hWs0 12 W main_call0_v7 (by decide), B_main_call0_v7 W, after_take hOps Ws0 hWs0 12 W main_call0_v8 (by decide), B_main_call0_v8 W]
  have eY : ∀ v, (.of main_call0_v9 : StableHlo.TRef sig ⟨S100000, .f32⟩).toBuf (Val := Elt F) v = v := fun _ => rfl
  have e0 : ∀ v, (.of main_call0_v7 : StableHlo.TRef sig ⟨S100000, .f32⟩).ofBuf (Val := Elt F) v = v := fun _ => rfl
  have e1 : ∀ v, (.of main_call0_v8 : StableHlo.TRef sig ⟨S100000, .f32⟩).ofBuf (Val := Elt F) v = v := fun _ => rfl
  rw [eY, e0, e1]
  rfl

theorem B_main_call0_cst_2 (W : Valuation τ sig (Elt F)) :
    after hOps W (Proc.devRef .tc main_call0_cst_2) = k_cst_2 (F := F) := by
  rw [after_local hOps Ws0 hWs0 13 (hlt0 13 (by decide)) W main_call0_cst_2 (by decide)]
  have hop : (hOps (F := F))[13]'(hlt0 13 (by decide)) = StableHlo.TRef.nullary (.of main_call0_cst_2 : StableHlo.TRef sig ⟨S_, .f32⟩) (constant S_ .f32 0x00000000#32) := rfl
  rw [hop, StableHlo.nullary_result]
  have eY : ∀ v, (.of main_call0_cst_2 : StableHlo.TRef sig ⟨S_, .f32⟩).toBuf (Val := Elt F) v = v := fun _ => rfl
  rw [eY]
  rfl

theorem B_main_call0_v10 (W : Valuation τ sig (Elt F)) :
    after hOps W (Proc.devRef .tc main_call0_v10) = k_v10 (F := F) := by
  rw [after_local hOps Ws0 hWs0 14 (hlt0 14 (by decide)) W main_call0_v10 (by decide)]
  have hop : (hOps (F := F))[14]'(hlt0 14 (by decide)) = StableHlo.TRef.unary (.of main_call0_cst_2 : StableHlo.TRef sig ⟨S_, .f32⟩) (.of main_call0_v10 : StableHlo.TRef sig ⟨S100000, .f32⟩) (broadcastInDim S100000 ![] bcast_S_S100000) := rfl
  rw [hop, StableHlo.unary_result, after_take hOps Ws0 hWs0 14 W main_call0_cst_2 (by decide), B_main_call0_cst_2 W]
  have eY : ∀ v, (.of main_call0_v10 : StableHlo.TRef sig ⟨S100000, .f32⟩).toBuf (Val := Elt F) v = v := fun _ => rfl
  have e0 : ∀ v, (.of main_call0_cst_2 : StableHlo.TRef sig ⟨S_, .f32⟩).ofBuf (Val := Elt F) v = v := fun _ => rfl
  rw [eY, e0]
  rfl

theorem B_main_call0_v11 (W : Valuation τ sig (Elt F)) :
    after hOps W (Proc.devRef .tc main_call0_v11) = k_v11 (F := F) (W (Proc.devRef .tc main_arg1)) := by
  rw [after_local hOps Ws0 hWs0 15 (hlt0 15 (by decide)) W main_call0_v11 (by decide)]
  have hop : (hOps (F := F))[15]'(hlt0 15 (by decide)) = StableHlo.TRef.binary (.of main_call0_v9 : StableHlo.TRef sig ⟨S100000, .f32⟩) (.of main_call0_v10 : StableHlo.TRef sig ⟨S100000, .f32⟩) (.of main_call0_v11 : StableHlo.TRef sig ⟨S100000, .i1⟩) (cmpf .ogt) := rfl
  rw [hop, StableHlo.binary_result, after_take hOps Ws0 hWs0 15 W main_call0_v9 (by decide), B_main_call0_v9 W, after_take hOps Ws0 hWs0 15 W main_call0_v10 (by decide), B_main_call0_v10 W]
  have eY : ∀ v, (.of main_call0_v11 : StableHlo.TRef sig ⟨S100000, .i1⟩).toBuf (Val := Elt F) v = v := fun _ => rfl
  have e0 : ∀ v, (.of main_call0_v9 : StableHlo.TRef sig ⟨S100000, .f32⟩).ofBuf (Val := Elt F) v = v := fun _ => rfl
  have e1 : ∀ v, (.of main_call0_v10 : StableHlo.TRef sig ⟨S100000, .f32⟩).ofBuf (Val := Elt F) v = v := fun _ => rfl
  rw [eY, e0, e1]
  rfl

theorem B_main_call0_v12 (W : Valuation τ sig (Elt F)) :
    after hOps W (Proc.devRef .tc main_call0_v12) = k_v12 (F := F) (W (Proc.devRef .tc main_arg1)) := by
  rw [after_local hOps Ws0 hWs0 16 (hlt0 16 (by decide)) W main_call0_v12 (by decide)]
  have hop : (hOps (F := F))[16]'(hlt0 16 (by decide)) = StableHlo.TRef.unary (.of main_call0_v9 : StableHlo.TRef sig ⟨S100000, .f32⟩) (.of main_call0_v12 : StableHlo.TRef sig ⟨S100000, .f32⟩) Host.rsqrt := rfl
  rw [hop, StableHlo.unary_result, after_take hOps Ws0 hWs0 16 W main_call0_v9 (by decide), B_main_call0_v9 W]
  have eY : ∀ v, (.of main_call0_v12 : StableHlo.TRef sig ⟨S100000, .f32⟩).toBuf (Val := Elt F) v = v := fun _ => rfl
  have e0 : ∀ v, (.of main_call0_v9 : StableHlo.TRef sig ⟨S100000, .f32⟩).ofBuf (Val := Elt F) v = v := fun _ => rfl
  rw [eY, e0]
  rfl

theorem B_main_call0_cst_3 (W : Valuation τ sig (Elt F)) :
    after hOps W (Proc.devRef .tc main_call0_cst_3) = k_cst_3 (F := F) := by
  rw [after_local hOps Ws0 hWs0 17 (hlt0 17 (by decide)) W main_call0_cst_3 (by decide)]
  have hop : (hOps (F := F))[17]'(hlt0 17 (by decide)) = StableHlo.TRef.nullary (.of main_call0_cst_3 : StableHlo.TRef sig ⟨S_, .f32⟩) (constant S_ .f32 0x00000000#32) := rfl
  rw [hop, StableHlo.nullary_result]
  have eY : ∀ v, (.of main_call0_cst_3 : StableHlo.TRef sig ⟨S_, .f32⟩).toBuf (Val := Elt F) v = v := fun _ => rfl
  rw [eY]
  rfl

theorem B_main_call0_call0_v0 (W : Valuation τ sig (Elt F)) :
    after hOps W (Proc.devRef .tc main_call0_call0_v0) = k_call0_v0 (F := F) := by
  rw [after_local hOps Ws0 hWs0 18 (hlt0 18 (by decide)) W main_call0_call0_v0 (by decide)]
  have hop : (hOps (F := F))[18]'(hlt0 18 (by decide)) = StableHlo.TRef.unary (.of main_call0_cst_3 : StableHlo.TRef sig ⟨S_, .f32⟩) (.of main_call0_call0_v0 : StableHlo.TRef sig ⟨S_, .f32⟩) id := rfl
  rw [hop, StableHlo.unary_result, after_take hOps Ws0 hWs0 18 W main_call0_cst_3 (by decide), B_main_call0_cst_3 W]
  have eY : ∀ v, (.of main_call0_call0_v0 : StableHlo.TRef sig ⟨S_, .f32⟩).toBuf (Val := Elt F) v = v := fun _ => rfl
  have e0 : ∀ v, (.of main_call0_cst_3 : StableHlo.TRef sig ⟨S_, .f32⟩).ofBuf (Val := Elt F) v = v := fun _ => rfl
  rw [eY, e0]
  rfl

theorem B_main_call0_call0_v1 (W : Valuation τ sig (Elt F)) :
    after hOps W (Proc.devRef .tc main_call0_call0_v1) = k_call0_v1 (F := F) := by
  rw [after_local hOps Ws0 hWs0 19 (hlt0 19 (by decide)) W main_call0_call0_v1 (by decide)]
  have hop : (hOps (F := F))[19]'(hlt0 19 (by decide)) = StableHlo.TRef.unary (.of main_call0_call0_v0 : StableHlo.TRef sig ⟨S_, .f32⟩) (.of main_call0_call0_v1 : StableHlo.TRef sig ⟨S100000, .f32⟩) (broadcastInDim S100000 ![] bcast_S_S100000) := rfl
  rw [hop, StableHlo.unary_result, after_take hOps Ws0 hWs0 19 W main_call0_call0_v0 (by decide), B_main_call0_call0_v0 W]
  have eY : ∀ v, (.of main_call0_call0_v1 : StableHlo.TRef sig ⟨S100000, .f32⟩).toBuf (Val := Elt F) v = v := fun _ => rfl
  have e0 : ∀ v, (.of main_call0_call0_v0 : StableHlo.TRef sig ⟨S_, .f32⟩).ofBuf (Val := Elt F) v = v := fun _ => rfl
  rw [eY, e0]
  rfl

theorem B_main_call0_v13 (W : Valuation τ sig (Elt F)) :
    after hOps W (Proc.devRef .tc main_call0_v13) = k_v13 (F := F) (W (Proc.devRef .tc main_arg1)) := by
  rw [after_local hOps Ws0 hWs0 20 (hlt0 20 (by decide)) W main_call0_v13 (by decide)]
  have hop : (hOps (F := F))[20]'(hlt0 20 (by decide)) = StableHlo.TRef.ternary (.of main_call0_v11 : StableHlo.TRef sig ⟨S100000, .i1⟩) (.of main_call0_v12 : StableHlo.TRef sig ⟨S100000, .f32⟩) (.of main_call0_call0_v1 : StableHlo.TRef sig ⟨S100000, .f32⟩) (.of main_call0_v13 : StableHlo.TRef sig ⟨S100000, .f32⟩) select := rfl
  rw [hop, StableHlo.ternary_result, after_take hOps Ws0 hWs0 20 W main_call0_v11 (by decide), B_main_call0_v11 W, after_take hOps Ws0 hWs0 20 W main_call0_v12 (by decide), B_main_call0_v12 W, after_take hOps Ws0 hWs0 20 W main_call0_call0_v1 (by decide), B_main_call0_call0_v1 W]
  have eY : ∀ v, (.of main_call0_v13 : StableHlo.TRef sig ⟨S100000, .f32⟩).toBuf (Val := Elt F) v = v := fun _ => rfl
  have e0 : ∀ v, (.of main_call0_v11 : StableHlo.TRef sig ⟨S100000, .i1⟩).ofBuf (Val := Elt F) v = v := fun _ => rfl
  have e1 : ∀ v, (.of main_call0_v12 : StableHlo.TRef sig ⟨S100000, .f32⟩).ofBuf (Val := Elt F) v = v := fun _ => rfl
  have e2 : ∀ v, (.of main_call0_call0_v1 : StableHlo.TRef sig ⟨S100000, .f32⟩).ofBuf (Val := Elt F) v = v := fun _ => rfl
  rw [eY, e0, e1, e2]
  rfl

theorem B_main_call0_v14 (W : Valuation τ sig (Elt F)) :
    after hOps W (Proc.devRef .tc main_call0_v14) = k_v14 (F := F) (W (Proc.devRef .tc main_arg1)) := by
  rw [after_local hOps Ws0 hWs0 21 (hlt0 21 (by decide)) W main_call0_v14 (by decide)]
  have hop : (hOps (F := F))[21]'(hlt0 21 (by decide)) = StableHlo.TRef.reshape main_call0_call0.v2 (.of main_call0_v14 : StableHlo.TRef sig ⟨S100000x1, .f32⟩) rfl shapeCasts_S100000_S100000x1 := rfl
  rw [hop, StableHlo.reshape_result, after_take hOps Ws0 hWs0 21 W main_call0_v13 (by decide), B_main_call0_v13 W]
  rfl

/-! ## The stages read at an index, at the ideal values -/

/-- The word `0x3F800000` denotes the number one. -/
theorem ofBits_one_f32_b : Ideal.ofBits .f32 0x3F800000#32 = 1 := by
  simp [Ideal.ofBits, Ideal.ieee]
  rw [← EReal.coe_mul, ← EReal.coe_one, EReal.coe_eq_coe_iff]
  norm_num

/-- Row `1` of the edge list as a flat list of words. -/
theorem row1_apply (x : S2x1600000.Idx → BitVec 32) (j : Fin 1600000) :
    shapeCast S1600000 (extractStridedSlice S1x1600000 ![1, 0] x slices_S2x1600000_S1x1600000_1_0) shapeCasts_S1x1600000_S1600000 (ix1 j)
      = x (ix2 (1 : Fin 2) j) := by
  rw [shapeCast_apply _ shapeCasts_S1x1600000_S1600000 (ix1 j) (ix2 (0 : Fin 1) j)
    (by rewrite [Shape.rowMajor_val_two, Shape.rowMajor_val_one]; show 0 * 1600000 + j.val = j.val; omega)]
  exact extractStridedSlice_apply ![1, 0] x slices_S2x1600000_S1x1600000_1_0 _ (ix2 (1 : Fin 2) j) (fun a => match a with
    | ⟨0, _⟩ => by show 1 = 1 + 0; omega
    | ⟨1, _⟩ => by show j.val = 0 + j.val; omega)

/-- A splat of a scalar reads the scalar everywhere. -/
theorem splat0_apply (y : S_.Idx → EReal) (r : Fin 100000) :
    broadcastInDim S100000 ![] bcast_S_S100000 y (ix1 r) = y ix0 :=
  broadcastInDim_apply _ bcast_S_S100000 y (ix1 r) ix0 (fun a => a.elim0)

theorem splatE0_apply (y : S_.Idx → EReal) (j : Fin 1600000) :
    broadcastInDim S1600000 ![] bcast_S_S1600000 y (ix1 j) = y ix0 :=
  broadcastInDim_apply _ bcast_S_S1600000 y (ix1 j) ix0 (fun a => a.elim0)

/-- A list of words laid out as a one-column table: entry `(j, 0)` is word `j`. -/
theorem col0_apply {α : Type} (y : S1600000.Idx → α) (j : Fin 1600000) :
    broadcastInDim S1600000x1 ![0] bcast_S1600000_S1600000x1_0 y (ix2 j (0 : Fin 1)) = y (ix1 j) :=
  broadcastInDim_apply _ bcast_S1600000_S1600000x1_0 y (ix2 j (0 : Fin 1)) (ix1 j) (fun a => match a with
    | ⟨0, _⟩ => by show j.val = if (1600000 : Nat) = 1 then 0 else j.val; rw [if_neg (by decide)])

/-- Ones scattered into zeros at a column of index words: at node `r`, the number of positions whose word, read
    signed, is `r`. -/
theorem scatter_ones0 (z : S100000.Idx → EReal) (idx : S1600000x1.Idx → BitVec 32) (u : S1600000.Idx → EReal)
    (d : Fin 1600000 → BitVec 32) (hz : ∀ r : Fin 100000, z (ix1 r) = 0)
    (hidx : ∀ j : Fin 1600000, idx (ix2 j (0 : Fin 1)) = d j) (hu : ∀ j : Fin 1600000, u (ix1 j) = 1) (r : Fin 100000) :
    Host.scatterAdd (F := Ideal) (φ := .f32) scatter_S100000_S1600000x1_S1600000_n_0_0_1 z idx u (ix1 r)
      = ∑ _j ∈ lands d r, (1 : EReal) := by
  show Ideal.hostScatterAdd (Cert.LibSG.flatScatterDims 100000 1600000 _) z idx u (ix1 r) = _
  rw [Cert.LibSG.scatterAdd_flat_apply, hz, zero_add]
  simp only [hidx, hu]
  rfl

/-- The target words. -/
theorem k_v3_apply (x : S2x1600000.Idx → BitVec 32) (j : Fin 1600000) :
    k_v3 (F := Ideal) x (ix1 j) = x (ix2 (1 : Fin 2) j) := by
  unfold k_v3 k_v2
  exact row1_apply x j

/-- The host's inverse square root, element by element. -/
theorem rsqrt0_apply (y : S100000.Idx → EReal) (i : S100000.Idx) :
    Host.rsqrt (F := Ideal) (φ := .f32) y i = Ideal.rsqrt (y i) := rfl

/-- What the edges bring to node `r`'s degree: one each. -/
theorem k_v7_apply (x : S2x1600000.Idx → BitVec 32) (r : Fin 100000) :
    k_v7 (F := Ideal) x (ix1 r) = ∑ _j ∈ lands (fun j : Fin 1600000 => x (ix2 (1 : Fin 2) j)) r, (1 : EReal) := by
  unfold k_v7
  exact scatter_ones0 _ _ _ (fun j : Fin 1600000 => x (ix2 (1 : Fin 2) j))
    (fun r => by unfold k_v5 k_cst_0; rw [splat0_apply, constant_apply]; exact Ideal.ofBits_zero_f32)
    (fun j => by unfold k_v6; rw [col0_apply, k_v3_apply])
    (fun j => by unfold k_v4 k_cst; rw [splatE0_apply, constant_apply]; exact ofBits_one_f32_b) r

/-- The self loop's one. -/
theorem k_v8_apply (r : Fin 100000) : k_v8 (F := Ideal) (ix1 r) = 1 := by
  unfold k_v8 k_cst_1; rw [splat0_apply, constant_apply]; exact ofBits_one_f32_b

/-- The degree the stretch computes at node `r`: the edges landing on it, and one. -/
theorem k_v9_apply (x : S2x1600000.Idx → BitVec 32) (r : Fin 100000) :
    k_v9 (F := Ideal) x (ix1 r) = deg (fun j : Fin 1600000 => x (ix2 (1 : Fin 2) j)) r := by
  unfold k_v9
  rw [addf_apply, k_v7_apply, k_v8_apply]
  rfl

/-- The zero the degree is compared with. -/
theorem k_v10_apply (r : Fin 100000) : k_v10 (F := Ideal) (ix1 r) = 0 := by
  unfold k_v10 k_cst_2; rw [splat0_apply, constant_apply]; exact Ideal.ofBits_zero_f32

/-- The zero taken where the guard fails. -/
theorem k_call0_v1_apply (r : Fin 100000) : k_call0_v1 (F := Ideal) (ix1 r) = 0 := by
  unfold k_call0_v1 k_call0_v0 k_cst_3; rw [splat0_apply]
  simp only [id, constant_apply, Ideal.ofBits_zero_f32]

/-- The guard: the degree compared with zero. -/
theorem k_v11_apply (x : S2x1600000.Idx → BitVec 32) (r : Fin 100000) :
    k_v11 (F := Ideal) x (ix1 r) = Ideal.cmp .ogt (deg (fun j : Fin 1600000 => x (ix2 (1 : Fin 2) j)) r) 0 := by
  unfold k_v11
  rw [cmpf_apply, Ideal.cmpf_def, k_v9_apply, k_v10_apply]

/-- The inverse square root of the degree. -/
theorem k_v12_apply (x : S2x1600000.Idx → BitVec 32) (r : Fin 100000) :
    k_v12 (F := Ideal) x (ix1 r) = Ideal.rsqrt (deg (fun j : Fin 1600000 => x (ix2 (1 : Fin 2) j)) r) := by
  unfold k_v12
  rw [rsqrt0_apply, k_v9_apply]

/-- The normalisation column at node `r`: the guarded inverse square root of the degree, which is the
    specification's because a degree is positive. -/
theorem k_v14_apply (x : S2x1600000.Idx → BitVec 32) (r : Fin 100000) :
    k_v14 (F := Ideal) x (ix2 r (0 : Fin 1)) = dinv (fun j : Fin 1600000 => x (ix2 (1 : Fin 2) j)) r := by
  unfold k_v14
  rw [shapeCast_apply _ shapeCasts_S100000_S100000x1 (ix2 r (0 : Fin 1)) (ix1 r)
    (by rewrite [Shape.rowMajor_val_two, Shape.rowMajor_val_one]; show r.val = r.val * 1 + 0; omega)]
  unfold k_v13
  rw [select_apply, k_v11_apply, k_v12_apply, k_call0_v1_apply]
  exact dinv_select _ r

/-- The normalisation column after the stretch, at node `r`: the specification's `dinv` of the target words. -/
theorem h0_v14 (W : Valuation τ sig (Elt Ideal)) (r : Fin 100000) :
    (after (hostOps0 (F := Ideal)) W (Proc.devRef .tc main_call0_v14) : S100000x1.Idx → EReal) (ix2 r (0 : Fin 1))
      = dinv (fun j : Fin 1600000 => (W (Proc.devRef .tc main_arg1) : S2x1600000.Idx → BitVec 32) (ix2 (1 : Fin 2) j)) r := by
  have e : (after (hostOps0 (F := Ideal)) W (Proc.devRef .tc main_call0_v14) : S100000x1.Idx → EReal)
      = k_v14 (F := Ideal) (W (Proc.devRef .tc main_arg1)) := B_main_call0_v14 (F := Ideal) W
  rw [e]
  exact k_v14_apply _ r

end Cert.KernelIdeal.HostValueB

end
-- ==== Proof.KHost0.lean ====
/-
  The idealized kernel's first stretch of host operations, read at an index, from any contents `W` of the buffers
  before it: the source and target words of the edges are rows 0 and 1 of the edge list; the normalisation column holds,
  at node `r`, `deg r ^ (-1/2)` with `deg r` one more than the number of edges landing on `r` (an accumulating scatter of
  ones into zeros, plus one; the comparison with zero that guards the inverse square root always holds — read operation
  by operation in KHost0b); the float arguments are not written.
-/
import proofs.«157511_j56384330662074_2_alg».proof.Proof.Gen.KernelIdeal.Frame
import proofs.«157511_j56384330662074_2_alg».proof.Proof.LibScatterGather
import proofs.«157511_j56384330662074_2_alg».proof.Proof.GcnNet
import proofs.«157511_j56384330662074_2_alg».proof.Proof.KHost0b
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Cert.Gcn Idealize.ShloMosaic Idealize.ShloMosaic.ValueIdx
open Idealize.ShloMosaic.StableHlo Idealize.ShloMosaic.TcCoe Idealize.SL.Sem

variable (W : Valuation τ sig (Elt Ideal))

/-- The word `0x3F800000` denotes the number one. -/
theorem ofBits_one_f32_0 : Ideal.ofBits .f32 0x3F800000#32 = 1 := by
  simp [Ideal.ofBits, Ideal.ieee]
  rw [← EReal.coe_mul, ← EReal.coe_one, EReal.coe_eq_coe_iff]
  norm_num

/-- The edge list before the stretch. -/
abbrev edges : S2x1600000.Idx → BitVec 32 := W (Proc.devRef .tc main_arg1)

/-! ## The float arguments pass through -/

theorem h0_keep_arg0 : after (hostOps0 (F := Ideal)) W (Proc.devRef .tc main_arg0) = W (Proc.devRef .tc main_arg0) := by
  after_results
theorem h0_keep_arg2 : after (hostOps0 (F := Ideal)) W (Proc.devRef .tc main_arg2) = W (Proc.devRef .tc main_arg2) := by
  after_results
theorem h0_keep_arg3 : after (hostOps0 (F := Ideal)) W (Proc.devRef .tc main_arg3) = W (Proc.devRef .tc main_arg3) := by
  after_results
theorem h0_keep_arg4 : after (hostOps0 (F := Ideal)) W (Proc.devRef .tc main_arg4) = W (Proc.devRef .tc main_arg4) := by
  after_results
theorem h0_keep_arg5 : after (hostOps0 (F := Ideal)) W (Proc.devRef .tc main_arg5) = W (Proc.devRef .tc main_arg5) := by
  after_results

/-! ## The edge words -/

/-- Row `a` of the edge list as a flat list of words. -/
theorem row0_apply (x : S2x1600000.Idx → BitVec 32) (j : Fin 1600000) :
    shapeCast S1600000 (extractStridedSlice S1x1600000 ![0, 0] x slices_S2x1600000_S1x1600000_0_0) shapeCasts_S1x1600000_S1600000 (ix1 j)
      = x (ix2 (0 : Fin 2) j) := by
  rw [shapeCast_apply _ shapeCasts_S1x1600000_S1600000 (ix1 j) (ix2 (0 : Fin 1) j)
    (by rewrite [Shape.rowMajor_val_two, Shape.rowMajor_val_one]; show 0 * 1600000 + j.val = j.val; omega)]
  exact extractStridedSlice_apply ![0, 0] x slices_S2x1600000_S1x1600000_0_0 _ (ix2 (0 : Fin 2) j) (fun a => match a with
    | ⟨0, _⟩ => by show 0 = 0 + 0; omega
    | ⟨1, _⟩ => by show j.val = 0 + j.val; omega)

theorem row1_apply (x : S2x1600000.Idx → BitVec 32) (j : Fin 1600000) :
    shapeCast S1600000 (extractStridedSlice S1x1600000 ![1, 0] x slices_S2x1600000_S1x1600000_1_0) shapeCasts_S1x1600000_S1600000 (ix1 j)
      = x (ix2 (1 : Fin 2) j) := by
  rw [shapeCast_apply _ shapeCasts_S1x1600000_S1600000 (ix1 j) (ix2 (0 : Fin 1) j)
    (by rewrite [Shape.rowMajor_val_two, Shape.rowMajor_val_one]; show 0 * 1600000 + j.val = j.val; omega)]
  exact extractStridedSlice_apply ![1, 0] x slices_S2x1600000_S1x1600000_1_0 _ (ix2 (1 : Fin 2) j) (fun a => match a with
    | ⟨0, _⟩ => by show 1 = 1 + 0; omega
    | ⟨1, _⟩ => by show j.val = 0 + j.val; omega)

/-- The source words after the stretch. -/
theorem h0_v1 (j : Fin 1600000) :
    (after (hostOps0 (F := Ideal)) W (Proc.devRef .tc main_call0_v1) : S1600000.Idx → BitVec 32) (ix1 j)
      = edges W (ix2 (0 : Fin 2) j) := by
  have e : (after (hostOps0 (F := Ideal)) W (Proc.devRef .tc main_call0_v1) : S1600000.Idx → BitVec 32)
      = shapeCast S1600000 (extractStridedSlice S1x1600000 ![0, 0] (edges W) slices_S2x1600000_S1x1600000_0_0) shapeCasts_S1x1600000_S1600000 := by
    after_results; rfl
  rw [e]; exact row0_apply _ j

/-- The target words after the stretch. -/
theorem h0_v3 (j : Fin 1600000) :
    (after (hostOps0 (F := Ideal)) W (Proc.devRef .tc main_call0_v3) : S1600000.Idx → BitVec 32) (ix1 j)
      = edges W (ix2 (1 : Fin 2) j) := by
  have e : (after (hostOps0 (F := Ideal)) W (Proc.devRef .tc main_call0_v3) : S1600000.Idx → BitVec 32)
      = shapeCast S1600000 (extractStridedSlice S1x1600000 ![1, 0] (edges W) slices_S2x1600000_S1x1600000_1_0) shapeCasts_S1x1600000_S1600000 := by
    after_results; rfl
  rw [e]; exact row1_apply _ j

/-! ## The normalisation column -/

/-- The normalisation column after the stretch, at node `r`: `deg r ^ (-1/2)` for the target words. -/
theorem h0_v14 (r : Fin 100000) :
    (after (hostOps0 (F := Ideal)) W (Proc.devRef .tc main_call0_v14) : S100000x1.Idx → EReal) (ix2 r (0 : Fin 1))
      = dinv (fun j : Fin 1600000 => edges W (ix2 (1 : Fin 2) j)) r :=
  Cert.KernelIdeal.HostValueB.h0_v14 W r

end Cert.KernelIdeal.HostValue

end
-- ==== Proof.KHost1.lean ====
/-
  The second stretch of host operations of the idealized kernel, read at an index: from any contents `W` of the
  buffers before the stretch, the aggregated table it leaves is GcnSpec's `agg` of the scaled product table along the
  edges, the bias row it leaves is the bias, and the buffers it does not write keep their contents.

  The stretch wraps each negative source word once by the number of rows, looks the rows of the table up at the wrapped
  words (the lookup clamps), and adds each looked-up row into the row its target word names, starting from the zero
  table; an edge whose target word names no row is dropped.
-/
import proofs.«157511_j56384330662074_2_alg».proof.Proof.Gen.KernelIdeal.Frame
import proofs.«157511_j56384330662074_2_alg».proof.Proof.LibScatterGather
import proofs.«157511_j56384330662074_2_alg».proof.Proof.GcnSpec
import Idealize.ShloMosaic.Lib.StableHlo.Run
import Idealize.ShloMosaic.Lib.Pipeline.Value
import Idealize.ShloMosaic.PureOps.Ideal.Laws

noncomputable section

namespace Cert.KernelIdeal.HostValue

open Cert.KernelIdeal Cert.KernelIdeal.Gen Cert.Gcn Cert.LibSG Idealize.ShloMosaic Idealize.ShloMosaic.ValueIdx
  Idealize.ShloMosaic.StableHlo

variable (W : Valuation τ sig (Elt Ideal))

/-! ### The buffers the stretch does not write -/

theorem h1_keep_v14 : StableHlo.after (hostOps1 (F := Ideal)) W (Proc.devRef .tc main_call0_v14)
    = W (Proc.devRef .tc main_call0_v14) := by after_results
theorem h1_keep_v15 : StableHlo.after (hostOps1 (F := Ideal)) W (Proc.devRef .tc main_call0_v15)
    = W (Proc.devRef .tc main_call0_v15) := by after_results
theorem h1_keep_v1 : StableHlo.after (hostOps1 (F := Ideal)) W (Proc.devRef .tc main_call0_v1)
    = W (Proc.devRef .tc main_call0_v1) := by after_results
theorem h1_keep_v3 : StableHlo.after (hostOps1 (F := Ideal)) W (Proc.devRef .tc main_call0_v3)
    = W (Proc.devRef .tc main_call0_v3) := by after_results
theorem h1_keep_arg4 : StableHlo.after (hostOps1 (F := Ideal)) W (Proc.devRef .tc main_arg4)
    = W (Proc.devRef .tc main_arg4) := by after_results
theorem h1_keep_arg5 : StableHlo.after (hostOps1 (F := Ideal)) W (Proc.devRef .tc main_arg5)
    = W (Proc.devRef .tc main_arg5) := by after_results

/-! ### The pieces, read at an index -/

/-- A list of 1600000 words laid out as a column reads, at `(j, 0)`, its word `j`. -/
theorem col_apply {α : Type} (v : S1600000.Idx → α) (j : Fin 1600000) :
    broadcastInDim S1600000x1 ![0] bcast_S1600000_S1600000x1_0 v (ix2 j (0 : Fin 1)) = v (ix1 j) :=
  broadcastInDim_apply _ bcast_S1600000_S1600000x1_0 v (ix2 j (0 : Fin 1)) (ix1 j) (fun a => match a with
    | ⟨0, _⟩ => by show j.val = if (1600000 : Nat) = 1 then 0 else j.val; rw [if_neg (by decide)])

/-- The source words after the wrap of the negative ones. -/
def wrapped (v : S1600000.Idx → BitVec 32) : S1600000.Idx → BitVec 32 :=
  select (cmpi .slt v (broadcastInDim S1600000 ![] bcast_S_S1600000 (constantI S_ 32 0#32)))
    (addi v (broadcastInDim S1600000 ![] bcast_S_S1600000 (constantI S_ 32 100000#32))) v

/-- Pointwise the wrap is `wrapW` by the number of rows. -/
theorem wrapped_apply (v : S1600000.Idx → BitVec 32) (j : S1600000.Idx) : wrapped v j = wrapW 100000#32 (v j) := rfl

/-! ### The bias row -/

/-- The stretch leaves the bias as a row. -/
theorem h1_v26 (k : Fin 64) :
    (StableHlo.after (hostOps1 (F := Ideal)) W (Proc.devRef .tc main_call0_v26) : S1x64.Idx → EReal) (ix2 (0 : Fin 1) k)
      = (W (Proc.devRef .tc main_arg3) : S64.Idx → EReal) (ix1 k) := by
  have h : (StableHlo.after (hostOps1 (F := Ideal)) W (Proc.devRef .tc main_call0_v26) : S1x64.Idx → EReal)
      = shapeCast S1x64 (W (Proc.devRef .tc main_arg3) : S64.Idx → EReal) shapeCasts_S64_S1x64 := by
    after_results
    rfl
  rw [h]
  exact shapeCast_apply _ shapeCasts_S64_S1x64 (ix2 (0 : Fin 1) k) (ix1 k)
    (by rewrite [Shape.rowMajor_val_one, Shape.rowMajor_val_two]; show k.val = 0 * 64 + k.val; omega)

/-! ### The aggregated table -/

/-- The table the stretch leaves, as one term over the contents before it. -/
theorem h1_v25_term :
    (StableHlo.after (hostOps1 (F := Ideal)) W (Proc.devRef .tc main_call0_v25) : S100000x64.Idx → EReal)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0
            (W (Proc.devRef .tc main_call0_v3) : S1600000.Idx → BitVec 32))
          (Host.gather gather_S100000x64_S1600000x1_S1600000x64_1_0_n_n_0_1_164
            (W (Proc.devRef .tc main_call0_v15) : S100000x64.Idx → EReal)
            (broadcastInDim S1600000x1 ![0] bcast_S1600000_S1600000x1_0
              (wrapped (W (Proc.devRef .tc main_call0_v1) : S1600000.Idx → BitVec 32)))) := by
  after_results
  rfl

/-- THE TABLE AT `(i, k)`: the rows the edges landing on `i` read, summed. -/
theorem h1_v25 (i : Fin 100000) (k : Fin 64) :
    (StableHlo.after (hostOps1 (F := Ideal)) W (Proc.devRef .tc main_call0_v25) : S100000x64.Idx → EReal) (ix2 i k)
      = agg (fun j : Fin 1600000 => srcRow 100000 (by decide) 100000#32
              ((W (Proc.devRef .tc main_call0_v1) : S1600000.Idx → BitVec 32) (ix1 j)))
          (fun j : Fin 1600000 => (W (Proc.devRef .tc main_call0_v3) : S1600000.Idx → BitVec 32) (ix1 j))
          (fun r k => (W (Proc.devRef .tc main_call0_v15) : S100000x64.Idx → EReal) (ix2 r k)) i k := by
  rw [h1_v25_term]
  refine (host_scatterAdd_row_apply (N := 100000) (M := 1600000) (C := 64)
    scatter_S100000x64_S1600000x1_S1600000x64_1_0_0_1_wf _ _ _ i k).trans ?_
  have h0 : broadcastInDim S100000x64 ![] bcast_S_S100000x64 (constant (F := Ideal) S_ .f32 0x00000000#32) (ix2 i k)
      = (0 : EReal) := Ideal.ofBits_zero_f32
  rw [h0, zero_add]
  unfold agg lands
  refine Finset.sum_congr (Finset.filter_congr fun j _ => by rw [col_apply]) fun j _ => ?_
  refine (gather_row_apply (N := 100000) (M := 1600000) (C := 64) (by decide)
    gather_S100000x64_S1600000x1_S1600000x64_1_0_n_n_0_1_164_wf _ _ j k).trans ?_
  refine congrArg (fun r : Fin 100000 => (W (Proc.devRef .tc main_call0_v15) : S100000x64.Idx → EReal) (ix2 r k))
    (Fin.ext ?_)
  show min _ _ = min _ _
  rw [col_apply, wrapped_apply]

end Cert.KernelIdeal.HostValue

end
-- ==== Proof.KHost2.lean ====
/-
  The third stretch of host operations of the idealized kernel, read at an index: from any contents `W` of the
  buffers before the stretch, the aggregated table it leaves is GcnSpec's `agg` of the scaled product table along the
  edges, the bias row it leaves is the bias, and the buffers it does not write keep their contents.

  The stretch wraps each negative source word once by the number of rows, looks the rows of the table up at the wrapped
  words (the lookup clamps), and adds each looked-up row into the row its target word names, starting from the zero
  table; an edge whose target word names no row is dropped.
-/
import proofs.«157511_j56384330662074_2_alg».proof.Proof.Gen.KernelIdeal.Frame
import proofs.«157511_j56384330662074_2_alg».proof.Proof.LibScatterGather
import proofs.«157511_j56384330662074_2_alg».proof.Proof.GcnSpec
import Idealize.ShloMosaic.Lib.StableHlo.Run
import Idealize.ShloMosaic.Lib.Pipeline.Value
import Idealize.ShloMosaic.PureOps.Ideal.Laws

noncomputable section

namespace Cert.KernelIdeal.HostValue

open Cert.KernelIdeal Cert.KernelIdeal.Gen Cert.Gcn Cert.LibSG Idealize.ShloMosaic Idealize.ShloMosaic.ValueIdx
  Idealize.ShloMosaic.StableHlo

variable (W : Valuation τ sig (Elt Ideal))

/-! ### The buffers the stretch does not write -/

theorem h2_keep_v14 : StableHlo.after (hostOps2 (F := Ideal)) W (Proc.devRef .tc main_call0_v14)
    = W (Proc.devRef .tc main_call0_v14) := by after_results
theorem h2_keep_v27 : StableHlo.after (hostOps2 (F := Ideal)) W (Proc.devRef .tc main_call0_v27)
    = W (Proc.devRef .tc main_call0_v27) := by after_results

/-! ### The pieces, read at an index -/

/-- A list of 1600000 words laid out as a column reads, at `(j, 0)`, its word `j`. -/
theorem col_apply2 {α : Type} (v : S1600000.Idx → α) (j : Fin 1600000) :
    broadcastInDim S1600000x1 ![0] bcast_S1600000_S1600000x1_0 v (ix2 j (0 : Fin 1)) = v (ix1 j) :=
  broadcastInDim_apply _ bcast_S1600000_S1600000x1_0 v (ix2 j (0 : Fin 1)) (ix1 j) (fun a => match a with
    | ⟨0, _⟩ => by show j.val = if (1600000 : Nat) = 1 then 0 else j.val; rw [if_neg (by decide)])

/-- The source words after the wrap of the negative ones. -/
def wrapped2 (v : S1600000.Idx → BitVec 32) : S1600000.Idx → BitVec 32 :=
  select (cmpi .slt v (broadcastInDim S1600000 ![] bcast_S_S1600000 (constantI S_ 32 0#32)))
    (addi v (broadcastInDim S1600000 ![] bcast_S_S1600000 (constantI S_ 32 100000#32))) v

/-- Pointwise the wrap is `wrapW` by the number of rows. -/
theorem wrapped2_apply (v : S1600000.Idx → BitVec 32) (j : S1600000.Idx) : wrapped2 v j = wrapW 100000#32 (v j) := rfl

/-! ### The bias row -/

/-- The stretch leaves the bias as a row. -/
theorem h2_v38 (k : Fin 40) :
    (StableHlo.after (hostOps2 (F := Ideal)) W (Proc.devRef .tc main_call0_v38) : S1x40.Idx → EReal) (ix2 (0 : Fin 1) k)
      = (W (Proc.devRef .tc main_arg5) : S40.Idx → EReal) (ix1 k) := by
  have h : (StableHlo.after (hostOps2 (F := Ideal)) W (Proc.devRef .tc main_call0_v38) : S1x40.Idx → EReal)
      = shapeCast S1x40 (W (Proc.devRef .tc main_arg5) : S40.Idx → EReal) shapeCasts_S40_S1x40 := by
    after_results
    rfl
  rw [h]
  exact shapeCast_apply _ shapeCasts_S40_S1x40 (ix2 (0 : Fin 1) k) (ix1 k)
    (by rewrite [Shape.rowMajor_val_one, Shape.rowMajor_val_two]; show k.val = 0 * 40 + k.val; omega)

/-! ### The aggregated table -/

/-- The table the stretch leaves, as one term over the contents before it. -/
theorem h2_v37_term :
    (StableHlo.after (hostOps2 (F := Ideal)) W (Proc.devRef .tc main_call0_v37) : S100000x40.Idx → EReal)
      = Host.scatterAdd (F := Ideal) scatter_S100000x40_S1600000x1_S1600000x40_1_0_0_1
          (broadcastInDim S100000x40 ![] bcast_S_S100000x40 (constant (F := Ideal) S_ .f32 0x00000000#32))
          (broadcastInDim S1600000x1 ![0] bcast_S1600000_S1600000x1_0
            (W (Proc.devRef .tc main_call0_v3) : S1600000.Idx → BitVec 32))
          (Host.gather gather_S100000x40_S1600000x1_S1600000x40_1_0_n_n_0_1_140
            (W (Proc.devRef .tc main_call0_v27) : S100000x40.Idx → EReal)
            (broadcastInDim S1600000x1 ![0] bcast_S1600000_S1600000x1_0
              (wrapped2 (W (Proc.devRef .tc main_call0_v1) : S1600000.Idx → BitVec 32)))) := by
  after_results
  rfl

/-- THE TABLE AT `(i, k)`: the rows the edges landing on `i` read, summed. -/
theorem h2_v37 (i : Fin 100000) (k : Fin 40) :
    (StableHlo.after (hostOps2 (F := Ideal)) W (Proc.devRef .tc main_call0_v37) : S100000x40.Idx → EReal) (ix2 i k)
      = agg (fun j : Fin 1600000 => srcRow 100000 (by decide) 100000#32
              ((W (Proc.devRef .tc main_call0_v1) : S1600000.Idx → BitVec 32) (ix1 j)))
          (fun j : Fin 1600000 => (W (Proc.devRef .tc main_call0_v3) : S1600000.Idx → BitVec 32) (ix1 j))
          (fun r k => (W (Proc.devRef .tc main_call0_v27) : S100000x40.Idx → EReal) (ix2 r k)) i k := by
  rw [h2_v37_term]
  refine (host_scatterAdd_row_apply (N := 100000) (M := 1600000) (C := 40)
    scatter_S100000x40_S1600000x1_S1600000x40_1_0_0_1_wf _ _ _ i k).trans ?_
  have h0 : broadcastInDim S100000x40 ![] bcast_S_S100000x40 (constant (F := Ideal) S_ .f32 0x00000000#32) (ix2 i k)
      = (0 : EReal) := Ideal.ofBits_zero_f32
  rw [h0, zero_add]
  unfold agg lands
  refine Finset.sum_congr (Finset.filter_congr fun j _ => by rw [col_apply2]) fun j _ => ?_
  refine (gather_row_apply (N := 100000) (M := 1600000) (C := 40) (by decide)
    gather_S100000x40_S1600000x1_S1600000x40_1_0_n_n_0_1_140_wf _ _ j k).trans ?_
  refine congrArg (fun r : Fin 100000 => (W (Proc.devRef .tc main_call0_v27) : S100000x40.Idx → EReal) (ix2 r k))
    (Fin.ext ?_)
  show min _ _ = min _ _
  rw [col_apply2, wrapped2_apply]

end Cert.KernelIdeal.HostValue

end
-- ==== Proof.KValue.lean ====
/-
  The kernel's result, as the two-layer network of the specification applied to the arguments.

  The program is three regions among three stretches of host operations.  Reading the buffers at each boundary, from
  the launch on:  the first stretch leaves the edge list's two rows as the source and target words and the
  normalisation column δ = (1 + #edges landing)^(-1/2); the first region leaves S₁ = (x·w₁)·δ, row by row; the second
  stretch gathers S₁ at the rows the source words read and adds them where the target words land, T₁, and lays out
  the first bias as a row; the second region leaves S₂ = (relu (δ·(T₁ + S₁) + b₁)·w₂)·δ; the third stretch does for S₂
  what the second did for S₁, T₂, and lays out the second bias; the third region leaves the log-softmax of
  δ·(T₂ + S₂) + b₂.  A buffer a stretch or region does not write is what it was one boundary earlier.  Composed, these
  are the network of the specification, term for term: no arithmetic law is used here.
-/
import proofs.«157511_j56384330662074_2_alg».proof.Proof.Gen.KernelIdeal.Frame
import proofs.«157511_j56384330662074_2_alg».proof.Proof.GcnSpec
import proofs.«157511_j56384330662074_2_alg».proof.Proof.KRegion0
import proofs.«157511_j56384330662074_2_alg».proof.Proof.KRegion1
import proofs.«157511_j56384330662074_2_alg».proof.Proof.KRegion2
import proofs.«157511_j56384330662074_2_alg».proof.Proof.KHost0
import proofs.«157511_j56384330662074_2_alg».proof.Proof.KHost1
import proofs.«157511_j56384330662074_2_alg».proof.Proof.KHost2
import Idealize.ShloMosaic.Lib.StableHlo.Run
import Idealize.ShloMosaic.Lib.Pipeline.Value
import Idealize.ShloMosaic.Lib.ValueIdx

noncomputable section

namespace Cert.KernelIdeal.RunValue

open Cert.KernelIdeal Cert.KernelIdeal.Gen Cert.KernelIdeal.HostValue Cert.KernelIdeal.RegionValue Cert.Gcn
open Idealize.ShloMosaic Idealize.ShloMosaic.ValueIdx Idealize.ShloMosaic.StableHlo Idealize.ShloMosaic.TcCoe Idealize.SL.Sem

/-! ## Equal arguments, equal results: the specification's functions at equal functions -/

theorem scaled_prod_eq {n p q : ℕ} {x x' : Fin n → Fin p → EReal} {w w' : Fin p → Fin q → EReal} {d d' : Fin n → EReal}
    (hx : x = x') (hw : w = w') (hd : d = d') : scaled (prod x w) d = scaled (prod x' w') d' := by
  subst hx hw hd; rfl

theorem agg_eq {n E q : ℕ} {row row' : Fin E → Fin n} {dst dst' : Fin E → BitVec 32} {S S' : Fin n → Fin q → EReal}
    (hrow : row = row') (hdst : dst = dst') (hS : S = S') : agg row dst S = agg row' dst' S' := by
  subst hrow hdst hS; rfl

theorem combine_eq {n q : ℕ} {d d' : Fin n → EReal} {T T' S S' : Fin n → Fin q → EReal} {b b' : Fin q → EReal}
    (hd : d = d') (hT : T = T') (hS : S = S') (hb : b = b') : combine d T S b = combine d' T' S' b' := by
  subst hd hT hS hb; rfl

theorem hidden_eq {n p q : ℕ} {d d' : Fin n → EReal} {T T' S S' : Fin n → Fin p → EReal} {b b' : Fin p → EReal}
    {w w' : Fin p → Fin q → EReal} (hd : d = d') (hT : T = T') (hS : S = S') (hb : b = b') (hw : w = w') :
    scaled (prod (relu (combine d T S b)) w) d = scaled (prod (relu (combine d' T' S' b')) w') d' := by
  subst hd hT hS hb hw; rfl

variable (m : (ℓ : Loc nD τ sig) → Buf (Elt Ideal) ℓ) (ρ : Dev nD → PrngReg) (c : Dev nD)

/-! ## The specification's pieces on the arguments as launched -/

/-- The source word of edge j: row 0 of the edge list. -/
abbrev srcWord (j : Fin 1600000) : BitVec 32 :=
  (m ((c : Thread nD τ).loc main_arg1) : S2x1600000.Idx → BitVec 32) (ix2 (0 : Fin 2) j)
/-- The target word of edge j: row 1 of the edge list. -/
abbrev dstWord (j : Fin 1600000) : BitVec 32 :=
  (m ((c : Thread nD τ).loc main_arg1) : S2x1600000.Idx → BitVec 32) (ix2 (1 : Fin 2) j)
/-- The row edge j reads. -/
abbrev rowOf (j : Fin 1600000) : Fin 100000 := srcRow 100000 (by decide) 100000#32 (srcWord m c j)
/-- The node features, the two weight matrices and the two biases, by coordinates. -/
abbrev feat : Fin 100000 → Fin 128 → EReal := fun r t => (m ((c : Thread nD τ).loc main_arg0) : S100000x128.Idx → EReal) (ix2 r t)
abbrev wt1 : Fin 128 → Fin 64 → EReal := fun t k => (m ((c : Thread nD τ).loc main_arg2) : S128x64.Idx → EReal) (ix2 t k)
abbrev bias1 : Fin 64 → EReal := fun k => (m ((c : Thread nD τ).loc main_arg3) : S64.Idx → EReal) (ix1 k)
abbrev wt2 : Fin 64 → Fin 40 → EReal := fun t f => (m ((c : Thread nD τ).loc main_arg4) : S64x40.Idx → EReal) (ix2 t f)
abbrev bias2 : Fin 40 → EReal := fun f => (m ((c : Thread nD τ).loc main_arg5) : S40.Idx → EReal) (ix1 f)
/-- The normalisation. -/
abbrev nrm : Fin 100000 → EReal := dinv (dstWord m c)
/-- The first layer's scaled product S₁. -/
abbrev own1 : Fin 100000 → Fin 64 → EReal := scaled (prod (feat m c) (wt1 m c)) (nrm m c)
/-- The second layer's scaled product S₂, of the rectified first layer. -/
abbrev own2 : Fin 100000 → Fin 40 → EReal :=
  scaled (prod (relu (combine (nrm m c) (agg (rowOf m c) (dstWord m c) (own1 m c)) (own1 m c) (bias1 m c))) (wt2 m c)) (nrm m c)

/-! ## The float arguments, where a later boundary reads them -/

theorem arg0_at1 : W1 m ρ c (Proc.devRef .tc main_arg0) = m ((c : Thread nD τ).loc main_arg0) :=
  (h0_keep_arg0 (W0 m ρ c)).trans rfl
theorem arg2_at1 : W1 m ρ c (Proc.devRef .tc main_arg2) = m ((c : Thread nD τ).loc main_arg2) :=
  (h0_keep_arg2 (W0 m ρ c)).trans rfl
theorem arg3_at2 : W2 m ρ c (Proc.devRef .tc main_arg3) = m ((c : Thread nD τ).loc main_arg3) :=
  (W2_of_ne m ρ c main_arg3 (by decide)).trans ((h0_keep_arg3 (W0 m ρ c)).trans rfl)
theorem arg4_at3 : W3 m ρ c (Proc.devRef .tc main_arg4) = m ((c : Thread nD τ).loc main_arg4) :=
  (h1_keep_arg4 (W2 m ρ c)).trans ((W2_of_ne m ρ c main_arg4 (by decide)).trans ((h0_keep_arg4 (W0 m ρ c)).trans rfl))
theorem arg5_at4 : W4 m ρ c (Proc.devRef .tc main_arg5) = m ((c : Thread nD τ).loc main_arg5) :=
  (W4_of_ne m ρ c main_arg5 (by decide)).trans ((h1_keep_arg5 (W2 m ρ c)).trans
    ((W2_of_ne m ρ c main_arg5 (by decide)).trans ((h0_keep_arg5 (W0 m ρ c)).trans rfl)))

/-! ## The edge words: written by the first stretch, never after -/

theorem v1_at2 (j : Fin 1600000) :
    (W2 m ρ c (Proc.devRef .tc main_call0_v1) : S1600000.Idx → BitVec 32) (ix1 j) = srcWord m c j :=
  (congrFun (W2_of_ne m ρ c main_call0_v1 (by decide)) (ix1 j)).trans (h0_v1 (W0 m ρ c) j)
theorem v3_at2 (j : Fin 1600000) :
    (W2 m ρ c (Proc.devRef .tc main_call0_v3) : S1600000.Idx → BitVec 32) (ix1 j) = dstWord m c j :=
  (congrFun (W2_of_ne m ρ c main_call0_v3 (by decide)) (ix1 j)).trans (h0_v3 (W0 m ρ c) j)
theorem v1_at4 (j : Fin 1600000) :
    (W4 m ρ c (Proc.devRef .tc main_call0_v1) : S1600000.Idx → BitVec 32) (ix1 j) = srcWord m c j :=
  (congrFun ((W4_of_ne m ρ c main_call0_v1 (by decide)).trans (h1_keep_v1 (W2 m ρ c))) (ix1 j)).trans (v1_at2 m ρ c j)
theorem v3_at4 (j : Fin 1600000) :
    (W4 m ρ c (Proc.devRef .tc main_call0_v3) : S1600000.Idx → BitVec 32) (ix1 j) = dstWord m c j :=
  (congrFun ((W4_of_ne m ρ c main_call0_v3 (by decide)).trans (h1_keep_v3 (W2 m ρ c))) (ix1 j)).trans (v3_at2 m ρ c j)

/-! ## The normalisation column: written by the first stretch, an input window of every region -/

theorem v14_at1 (r : Fin 100000) :
    (W1 m ρ c (Proc.devRef .tc main_call0_v14) : S100000x1.Idx → EReal) (ix2 r (0 : Fin 1)) = nrm m c r :=
  h0_v14 (W0 m ρ c) r
theorem v14_2 : W2 m ρ c (Proc.devRef .tc main_call0_v14) = W1 m ρ c (Proc.devRef .tc main_call0_v14) :=
  (W2_arr m ρ c 2).trans (((dat0 (V1 m ρ) c).arrAt_in 2 rfl _).trans (A_eq0 (V1 m ρ) c 2))
theorem v14_at3 (r : Fin 100000) :
    (W3 m ρ c (Proc.devRef .tc main_call0_v14) : S100000x1.Idx → EReal) (ix2 r (0 : Fin 1)) = nrm m c r :=
  (congrFun ((h1_keep_v14 (W2 m ρ c)).trans (v14_2 m ρ c)) (ix2 r (0 : Fin 1))).trans (v14_at1 m ρ c r)
theorem v14_4 : W4 m ρ c (Proc.devRef .tc main_call0_v14) = W3 m ρ c (Proc.devRef .tc main_call0_v14) :=
  (W4_arr m ρ c 2).trans (((dat1 (V3 m ρ) c).arrAt_in 2 rfl _).trans (A_eq1 (V3 m ρ) c 2))
theorem v14_at5 (r : Fin 100000) :
    (W5 m ρ c (Proc.devRef .tc main_call0_v14) : S100000x1.Idx → EReal) (ix2 r (0 : Fin 1)) = nrm m c r :=
  (congrFun ((h2_keep_v14 (W4 m ρ c)).trans (v14_4 m ρ c)) (ix2 r (0 : Fin 1))).trans (v14_at3 m ρ c r)

/-! ## The first layer -/

/-- The first region's output, when it ends: S₁. -/
theorem v15_at2 (r : Fin 100000) (k : Fin 64) :
    (W2 m ρ c (Proc.devRef .tc main_call0_v15) : S100000x64.Idx → EReal) (ix2 r k) = own1 m c r k := by
  refine (congrFun (W2_arr m ρ c 3) (ix2 r k)).trans ((region0_value (V1 m ρ) c r k).trans ?_)
  refine congrFun (congrFun (scaled_prod_eq ?_ ?_ ?_) r) k
  · exact funext fun r => funext fun t => congrFun (arg0_at1 m ρ c) (ix2 r t)
  · exact funext fun t => funext fun k => congrFun (arg2_at1 m ρ c) (ix2 t k)
  · exact funext fun r => v14_at1 m ρ c r

/-- It passes the second stretch. -/
theorem v15_at3 (r : Fin 100000) (k : Fin 64) :
    (W3 m ρ c (Proc.devRef .tc main_call0_v15) : S100000x64.Idx → EReal) (ix2 r k) = own1 m c r k :=
  (congrFun (h1_keep_v15 (W2 m ρ c)) (ix2 r k)).trans (v15_at2 m ρ c r k)

/-- What the second stretch gathers and adds up: the rows of S₁ the edges read, where they land. -/
theorem v25_at3 (i : Fin 100000) (k : Fin 64) :
    (W3 m ρ c (Proc.devRef .tc main_call0_v25) : S100000x64.Idx → EReal) (ix2 i k)
      = agg (rowOf m c) (dstWord m c) (own1 m c) i k := by
  refine (h1_v25 (W2 m ρ c) i k).trans ?_
  refine congrFun (congrFun (agg_eq ?_ ?_ ?_) i) k
  · exact funext fun j => congrArg (srcRow 100000 (by decide) 100000#32) (v1_at2 m ρ c j)
  · exact funext fun j => v3_at2 m ρ c j
  · exact funext fun r => funext fun k => v15_at2 m ρ c r k

/-- The first bias as a row. -/
theorem v26_at3 (k : Fin 64) :
    (W3 m ρ c (Proc.devRef .tc main_call0_v26) : S1x64.Idx → EReal) (ix2 (0 : Fin 1) k) = bias1 m c k :=
  (h1_v26 (W2 m ρ c) k).trans (congrFun (arg3_at2 m ρ c) (ix1 k))

/-! ## The second layer -/

/-- The second region's output, when it ends: S₂. -/
theorem v27_at4 (r : Fin 100000) (f : Fin 40) :
    (W4 m ρ c (Proc.devRef .tc main_call0_v27) : S100000x40.Idx → EReal) (ix2 r f) = own2 m c r f := by
  refine (congrFun (W4_arr m ρ c 5) (ix2 r f)).trans ((region1_value (V3 m ρ) c r f).trans ?_)
  refine congrFun (congrFun (hidden_eq ?_ ?_ ?_ ?_ ?_) r) f
  · exact funext fun r => v14_at3 m ρ c r
  · exact funext fun r => funext fun k => v25_at3 m ρ c r k
  · exact funext fun r => funext fun k => v15_at3 m ρ c r k
  · exact funext fun k => v26_at3 m ρ c k
  · exact funext fun t => funext fun f => congrFun (arg4_at3 m ρ c) (ix2 t f)

/-- It passes the third stretch. -/
theorem v27_at5 (r : Fin 100000) (f : Fin 40) :
    (W5 m ρ c (Proc.devRef .tc main_call0_v27) : S100000x40.Idx → EReal) (ix2 r f) = own2 m c r f :=
  (congrFun (h2_keep_v27 (W4 m ρ c)) (ix2 r f)).trans (v27_at4 m ρ c r f)

/-- What the third stretch gathers and adds up: the rows of S₂ the edges read, where they land. -/
theorem v37_at5 (i : Fin 100000) (f : Fin 40) :
    (W5 m ρ c (Proc.devRef .tc main_call0_v37) : S100000x40.Idx → EReal) (ix2 i f)
      = agg (rowOf m c) (dstWord m c) (own2 m c) i f := by
  refine (h2_v37 (W4 m ρ c) i f).trans ?_
  refine congrFun (congrFun (agg_eq ?_ ?_ ?_) i) f
  · exact funext fun j => congrArg (srcRow 100000 (by decide) 100000#32) (v1_at4 m ρ c j)
  · exact funext fun j => v3_at4 m ρ c j
  · exact funext fun r => funext fun k => v27_at4 m ρ c r k

/-- The second bias as a row. -/
theorem v38_at5 (f : Fin 40) :
    (W5 m ρ c (Proc.devRef .tc main_call0_v38) : S1x40.Idx → EReal) (ix2 (0 : Fin 1) f) = bias2 m c f :=
  (h2_v38 (W4 m ρ c) f).trans (congrFun (arg5_at4 m ρ c) (ix1 f))

/-! ## The result -/

/-- THE KERNEL'S RESULT, entry by entry: the network of the specification on the arguments as launched. -/
theorem kernel_value (r : Fin 100000) (f : Fin 40) :
    (W6 m ρ c (Proc.devRef .tc main_v0) : S100000x40.Idx → EReal) (ix2 r f)
      = net (fun j : Fin 1600000 => srcRow 100000 (by decide) 100000#32
                ((m ((c : Thread nD τ).loc main_arg1) : S2x1600000.Idx → BitVec 32) (ix2 (0 : Fin 2) j)))
            (fun j : Fin 1600000 => (m ((c : Thread nD τ).loc main_arg1) : S2x1600000.Idx → BitVec 32) (ix2 (1 : Fin 2) j))
            (fun r t => (m ((c : Thread nD τ).loc main_arg0) : S100000x128.Idx → EReal) (ix2 r t))
            (fun t k => (m ((c : Thread nD τ).loc main_arg2) : S128x64.Idx → EReal) (ix2 t k))
            (fun k => (m ((c : Thread nD τ).loc main_arg3) : S64.Idx → EReal) (ix1 k))
            (fun t f => (m ((c : Thread nD τ).loc main_arg4) : S64x40.Idx → EReal) (ix2 t f))
            (fun f => (m ((c : Thread nD τ).loc main_arg5) : S40.Idx → EReal) (ix1 f)) r f := by
  show _ = logSoftmax (combine (nrm m c) (agg (rowOf m c) (dstWord m c) (own2 m c)) (own2 m c) (bias2 m c) r) f
  refine (congrFun (W6_arr m ρ c 4) (ix2 r f)).trans ((region2_value (V5 m ρ) c r f).trans ?_)
  refine congrArg (fun z => logSoftmax z f) (congrFun (combine_eq ?_ ?_ ?_ ?_) r)
  · exact funext fun r => v14_at5 m ρ c r
  · exact funext fun r => funext fun k => v37_at5 m ρ c r k
  · exact funext fun r => funext fun k => v27_at5 m ρ c r k
  · exact funext fun k => v38_at5 m ρ c k

end Cert.KernelIdeal.RunValue

end
-- ==== Proof.RefBridge0.lean ====
/-
  The reference program as a straight line in single-assignment form: its 134 operations write 134 distinct buffers,
  none of them an argument, so each buffer holds at the end what its own operation left in it, computed from operands
  that were final when it ran. This module names the line and the list of written buffers, and shows the arguments
  are kept.
-/
import proofs.«157511_j56384330662074_2_alg».proof.Proof.RefRun
import proofs.«157511_j56384330662074_2_alg».proof.Proof.RefRead
import proofs.«157511_j56384330662074_2_alg».proof.Proof.LibAfter

set_option maxRecDepth 8192

noncomputable section

namespace Cert.ReferenceIdeal.RefValue

open Cert.ReferenceIdeal Cert.ReferenceIdeal.Gen Cert.ReferenceIdeal.ReadP Cert.ReferenceIdeal.ValueP Cert.LibAfter
open Idealize.ShloMosaic Idealize.ShloMosaic.TcCoe Idealize.ShloMosaic.StableHlo Idealize.SL.Sem

variable {F : FTy → Type} [FloatOps F]

/-- The reference's operations, in program order. -/
def opsG : List (HloOp τ sig (Elt F)) := ops (F := F)

/-- The buffer each operation writes, in the same order. -/
def Ws : List (Ref sig .tc) :=
  [main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_v49, main_v50, main_v51, main_cst_9, main_v52, main_cst_10, main_v53, main_v54, main_v55, main_cst_11, main_v56, main_v57, main_v58, main_cst_12, main_call2_v0, main_call2_v1, main_v59, main_c_13, main_v60, main_v61, main_c_14, main_v62, main_v63, main_v64, main_v65, main_v66, main_c_15, main_v67, main_v68, main_c_16, main_v69, main_v70, main_v71, main_v72, main_v73, main_v74, main_c_17, main_v75, main_v76, main_c_18, main_v77, main_v78, main_v79, main_v80, main_v81, main_v82, main_v83, main_v84, main_cst_19, main_v85, main_v86, main_v87, main_v88, main_v89, main_v90, main_call3_cst, main_call3_v0, main_call3_cst_0, main_call3_v1, main_call3_v2, main_call3_v3, main_call3_v4, main_call3_v5, main_call3_v6, main_call3_cst_1, main_call3_v7, main_call3_v8, main_call3_v9, main_call3_v10, main_v91]

/-- Operation `k` writes exactly buffer `k` of the list. -/
theorem hWs : WritesList (τ := τ) (opsG (F := F)) Ws := by
  unfold opsG Ws
  repeat' first | exact writesList_nil | refine writesList_cons rfl ?_

theorem opsG_length : (opsG (F := F)).length = 134 := rfl

theorem hlt (k : ℕ) (h : k < 134) : k < (opsG (F := F)).length := (opsG_length (F := F)) ▸ h

theorem keepG_arg0 (V : Valuation τ sig (Elt F)) :
    after opsG V (Proc.devRef .tc main_arg0) = V (Proc.devRef .tc main_arg0) :=
  after_keep opsG Ws hWs V main_arg0 (by decide)

theorem keepG_arg1 (V : Valuation τ sig (Elt F)) :
    after opsG V (Proc.devRef .tc main_arg1) = V (Proc.devRef .tc main_arg1) :=
  after_keep opsG Ws hWs V main_arg1 (by decide)

theorem keepG_arg2 (V : Valuation τ sig (Elt F)) :
    after opsG V (Proc.devRef .tc main_arg2) = V (Proc.devRef .tc main_arg2) :=
  after_keep opsG Ws hWs V main_arg2 (by decide)

theorem keepG_arg3 (V : Valuation τ sig (Elt F)) :
    after opsG V (Proc.devRef .tc main_arg3) = V (Proc.devRef .tc main_arg3) :=
  after_keep opsG Ws hWs V main_arg3 (by decide)

theorem keepG_arg4 (V : Valuation τ sig (Elt F)) :
    after opsG V (Proc.devRef .tc main_arg4) = V (Proc.devRef .tc main_arg4) :=
  after_keep opsG Ws hWs V main_arg4 (by decide)

theorem keepG_arg5 (V : Valuation τ sig (Elt F)) :
    after opsG V (Proc.devRef .tc main_arg5) = V (Proc.devRef .tc main_arg5) :=
  after_keep opsG Ws hWs V main_arg5 (by decide)

end Cert.ReferenceIdeal.RefValue

end
-- ==== Proof.RefBridge1.lean ====
/-
  Operations 0–26 of the reference line, one lemma each: the buffer the operation writes holds, after the whole line,
  the stage the index-by-index reading names (`val_…`) at the arguments. Each proof reads the operation's own result
  from the contents before it, replaces each operand by its own lemma, and compares ONE operation's term with the
  stage's one-level definition.
-/
import proofs.«157511_j56384330662074_2_alg».proof.Proof.RefBridge0

set_option maxRecDepth 8192

noncomputable section

namespace Cert.ReferenceIdeal.RefValue

open Cert.ReferenceIdeal Cert.ReferenceIdeal.Gen Cert.ReferenceIdeal.ReadP Cert.ReferenceIdeal.ValueP Cert.LibAfter
open Idealize.ShloMosaic Idealize.ShloMosaic.TcCoe Idealize.ShloMosaic.StableHlo Idealize.SL.Sem

variable {F : FTy → Type} [FloatOps F]

theorem A_main_v0 (V : Valuation τ sig (Elt F)) :
    after opsG V (Proc.devRef .tc main_v0) = val_main_v0 (F := F) (V (Proc.devRef .tc main_arg1)) := by
  rw [after_local opsG Ws hWs 0 (hlt 0 (by decide)) V main_v0 (by decide)]
  have hop : (opsG (F := F))[0]'(hlt 0 (by decide)) = unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)) := rfl
  rw [hop, unary_result, after_take opsG Ws hWs 0 V main_arg1 (by decide), keepG_arg1 V]
  rfl

theorem A_main_v1 (V : Valuation τ sig (Elt F)) :
    after opsG V (Proc.devRef .tc main_v1) = val_main_v1 (F := F) (V (Proc.devRef .tc main_arg1)) := by
  rw [after_local opsG Ws hWs 1 (hlt 1 (by decide)) V main_v1 (by decide)]
  have hop : (opsG (F := F))[1]'(hlt 1 (by decide)) = reshape main_v0 main_v1 rfl shapeCasts_S1x1600000_S1600000 := rfl
  rw [hop, reshape_result, after_take opsG Ws hWs 1 V main_v0 (by decide), A_main_v0 V]
  rfl

theorem A_main_v2 (V : Valuation τ sig (Elt F)) :
    after opsG V (Proc.devRef .tc main_v2) = val_main_v2 (F := F) (V (Proc.devRef .tc main_arg1)) := by
  rw [after_local opsG Ws hWs 2 (hlt 2 (by decide)) V main_v2 (by decide)]
  have hop : (opsG (F := F))[2]'(hlt 2 (by decide)) = unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)) := rfl
  rw [hop, unary_result, after_take opsG Ws hWs 2 V main_arg1 (by decide), keepG_arg1 V]
  rfl

theorem A_main_v3 (V : Valuation τ sig (Elt F)) :
    after opsG V (Proc.devRef .tc main_v3) = val_main_v3 (F := F) (V (Proc.devRef .tc main_arg1)) := by
  rw [after_local opsG Ws hWs 3 (hlt 3 (by decide)) V main_v3 (by decide)]
  have hop : (opsG (F := F))[3]'(hlt 3 (by decide)) = reshape main_v2 main_v3 rfl shapeCasts_S1x1600000_S1600000 := rfl
  rw [hop, reshape_result, after_take opsG Ws hWs 3 V main_v2 (by decide), A_main_v2 V]
  rfl

theorem A_main_v4 (V : Valuation τ sig (Elt F)) :
    after opsG V (Proc.devRef .tc main_v4) = val_main_v4 (F := F) (V (Proc.devRef .tc main_arg0)) (V (Proc.devRef .tc main_arg2)) := by
  rw [after_local opsG Ws hWs 4 (hlt 4 (by decide)) V main_v4 (by decide)]
  have hop : (opsG (F := F))[4]'(hlt 4 (by decide)) = binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) := rfl
  rw [hop, binary_result, after_take opsG Ws hWs 4 V main_arg0 (by decide), keepG_arg0 V, after_take opsG Ws hWs 4 V main_arg2 (by decide), keepG_arg2 V]
  rfl

theorem A_main_v5 (V : Valuation τ sig (Elt F)) :
    after opsG V (Proc.devRef .tc main_v5) = val_main_v5 (F := F) := by
  rw [after_local opsG Ws hWs 5 (hlt 5 (by decide)) V main_v5 (by decide)]
  have hop : (opsG (F := F))[5]'(hlt 5 (by decide)) = nullary main_v5 (iotaInDim S100000 32 0) := rfl
  rw [hop, nullary_result]
  rfl

theorem A_main_v6 (V : Valuation τ sig (Elt F)) :
    after opsG V (Proc.devRef .tc main_v6) = val_main_v6 (F := F) (V (Proc.devRef .tc main_arg1)) := by
  rw [after_local opsG Ws hWs 6 (hlt 6 (by decide)) V main_v6 (by decide)]
  have hop : (opsG (F := F))[6]'(hlt 6 (by decide)) = binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) := rfl
  rw [hop, binary_result, after_take opsG Ws hWs 6 V main_v1 (by decide), A_main_v1 V, after_take opsG Ws hWs 6 V main_v5 (by decide), A_main_v5 V]
  rfl

theorem A_main_v7 (V : Valuation τ sig (Elt F)) :
    after opsG V (Proc.devRef .tc main_v7) = val_main_v7 (F := F) (V (Proc.devRef .tc main_arg1)) := by
  rw [after_local opsG Ws hWs 7 (hlt 7 (by decide)) V main_v7 (by decide)]
  have hop : (opsG (F := F))[7]'(hlt 7 (by decide)) = binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) := rfl
  rw [hop, binary_result, after_take opsG Ws hWs 7 V main_v3 (by decide), A_main_v3 V, after_take opsG Ws hWs 7 V main_v5 (by decide), A_main_v5 V]
  rfl

theorem A_main_cst (V : Valuation τ sig (Elt F)) :
    after opsG V (Proc.devRef .tc main_cst) = val_main_cst (F := F) := by
  rw [after_local opsG Ws hWs 8 (hlt 8 (by decide)) V main_cst (by decide)]
  have hop : (opsG (F := F))[8]'(hlt 8 (by decide)) = nullary main_cst (constant S_ .f32 0x3F800000#32) := rfl
  rw [hop, nullary_result]
  rfl

theorem A_main_v8 (V : Valuation τ sig (Elt F)) :
    after opsG V (Proc.devRef .tc main_v8) = val_main_v8 (F := F) := by
  rw [after_local opsG Ws hWs 9 (hlt 9 (by decide)) V main_v8 (by decide)]
  have hop : (opsG (F := F))[9]'(hlt 9 (by decide)) = unary main_cst main_v8 (broadcastInDim S1700000 ![] bcast_S_S1700000 : (⟨S_, .f32⟩ : BufTy).Contents (Elt F) → (⟨S1700000, .f32⟩ : BufTy).Contents (Elt F)) := rfl
  rw [hop, unary_result, after_take opsG Ws hWs 9 V main_cst (by decide), A_main_cst V]
  rfl

theorem A_main_cst_0 (V : Valuation τ sig (Elt F)) :
    after opsG V (Proc.devRef .tc main_cst_0) = val_main_cst_0 (F := F) := by
  rw [after_local opsG Ws hWs 10 (hlt 10 (by decide)) V main_cst_0 (by decide)]
  have hop : (opsG (F := F))[10]'(hlt 10 (by decide)) = nullary main_cst_0 (constant S_ .f32 0x00000000#32) := rfl
  rw [hop, nullary_result]
  rfl

theorem A_main_v9 (V : Valuation τ sig (Elt F)) :
    after opsG V (Proc.devRef .tc main_v9) = val_main_v9 (F := F) := by
  rw [after_local opsG Ws hWs 11 (hlt 11 (by decide)) V main_v9 (by decide)]
  have hop : (opsG (F := F))[11]'(hlt 11 (by decide)) = unary main_cst_0 main_v9 (broadcastInDim S100000 ![] bcast_S_S100000 : (⟨S_, .f32⟩ : BufTy).Contents (Elt F) → (⟨S100000, .f32⟩ : BufTy).Contents (Elt F)) := rfl
  rw [hop, unary_result, after_take opsG Ws hWs 11 V main_cst_0 (by decide), A_main_cst_0 V]
  rfl

theorem A_main_v10 (V : Valuation τ sig (Elt F)) :
    after opsG V (Proc.devRef .tc main_v10) = val_main_v10 (F := F) (V (Proc.devRef .tc main_arg1)) := by
  rw [after_local opsG Ws hWs 12 (hlt 12 (by decide)) V main_v10 (by decide)]
  have hop : (opsG (F := F))[12]'(hlt 12 (by decide)) = unary main_v7 main_v10 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 12 V main_v7 (by decide), A_main_v7 V]
  rfl

theorem A_main_v11 (V : Valuation τ sig (Elt F)) :
    after opsG V (Proc.devRef .tc main_v11) = val_main_v11 (F := F) (V (Proc.devRef .tc main_arg1)) := by
  rw [after_local opsG Ws hWs 13 (hlt 13 (by decide)) V main_v11 (by decide)]
  have hop : (opsG (F := F))[13]'(hlt 13 (by decide)) = ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) := rfl
  rw [hop, ternary_result, after_take opsG Ws hWs 13 V main_v9 (by decide), A_main_v9 V, after_take opsG Ws hWs 13 V main_v10 (by decide), A_main_v10 V, after_take opsG Ws hWs 13 V main_v8 (by decide), A_main_v8 V]
  rfl

theorem A_main_cst_1 (V : Valuation τ sig (Elt F)) :
    after opsG V (Proc.devRef .tc main_cst_1) = val_main_cst_1 (F := F) := by
  rw [after_local opsG Ws hWs 14 (hlt 14 (by decide)) V main_cst_1 (by decide)]
  have hop : (opsG (F := F))[14]'(hlt 14 (by decide)) = nullary main_cst_1 (constant S_ .f32 0x00000000#32) := rfl
  rw [hop, nullary_result]
  rfl

theorem A_main_v12 (V : Valuation τ sig (Elt F)) :
    after opsG V (Proc.devRef .tc main_v12) = val_main_v12 (F := F) := by
  rw [after_local opsG Ws hWs 15 (hlt 15 (by decide)) V main_v12 (by decide)]
  have hop : (opsG (F := F))[15]'(hlt 15 (by decide)) = unary main_cst_1 main_v12 (broadcastInDim S100000 ![] bcast_S_S100000 : (⟨S_, .f32⟩ : BufTy).Contents (Elt F) → (⟨S100000, .f32⟩ : BufTy).Contents (Elt F)) := rfl
  rw [hop, unary_result, after_take opsG Ws hWs 15 V main_cst_1 (by decide), A_main_cst_1 V]
  rfl

theorem A_main_v13 (V : Valuation τ sig (Elt F)) :
    after opsG V (Proc.devRef .tc main_v13) = val_main_v13 (F := F) (V (Proc.devRef .tc main_arg1)) := by
  rw [after_local opsG Ws hWs 16 (hlt 16 (by decide)) V main_v13 (by decide)]
  have hop : (opsG (F := F))[16]'(hlt 16 (by decide)) = binary main_v11 main_v12 main_v13 (cmpf .ogt : (⟨S100000, .f32⟩ : BufTy).Contents (Elt F) → (⟨S100000, .f32⟩ : BufTy).Contents (Elt F) → (⟨S100000, .i1⟩ : BufTy).Contents (Elt F)) := rfl
  rw [hop, binary_result, after_take opsG Ws hWs 16 V main_v11 (by decide), A_main_v11 V, after_take opsG Ws hWs 16 V main_v12 (by decide), A_main_v12 V]
  rfl

theorem A_main_v14 (V : Valuation τ sig (Elt F)) :
    after opsG V (Proc.devRef .tc main_v14) = val_main_v14 (F := F) (V (Proc.devRef .tc main_arg1)) := by
  rw [after_local opsG Ws hWs 17 (hlt 17 (by decide)) V main_v14 (by decide)]
  have hop : (opsG (F := F))[17]'(hlt 17 (by decide)) = unary main_v11 main_v14 (Host.rsqrt : (⟨S100000, .f32⟩ : BufTy).Contents (Elt F) → (⟨S100000, .f32⟩ : BufTy).Contents (Elt F)) := rfl
  rw [hop, unary_result, after_take opsG Ws hWs 17 V main_v11 (by decide), A_main_v11 V]
  rfl

theorem A_main_cst_2 (V : Valuation τ sig (Elt F)) :
    after opsG V (Proc.devRef .tc main_cst_2) = val_main_cst_2 (F := F) := by
  rw [after_local opsG Ws hWs 18 (hlt 18 (by decide)) V main_cst_2 (by decide)]
  have hop : (opsG (F := F))[18]'(hlt 18 (by decide)) = nullary main_cst_2 (constant S_ .f32 0x00000000#32) := rfl
  rw [hop, nullary_result]
  rfl

theorem A_main_call0_v0 (V : Valuation τ sig (Elt F)) :
    after opsG V (Proc.devRef .tc main_call0_v0) = val_main_call0_v0 (F := F) := by
  rw [after_local opsG Ws hWs 19 (hlt 19 (by decide)) V main_call0_v0 (by decide)]
  have hop : (opsG (F := F))[19]'(hlt 19 (by decide)) = TRef.unary (TRef.of (T := ⟨S_, .f32⟩) main_cst_2) (TRef.of (T := ⟨S_, .f32⟩) main_call0_v0) id := rfl
  rw [hop, unary_result, after_take opsG Ws hWs 19 V main_cst_2 (by decide), A_main_cst_2 V]
  rfl

theorem A_main_call0_v1 (V : Valuation τ sig (Elt F)) :
    after opsG V (Proc.devRef .tc main_call0_v1) = val_main_call0_v1 (F := F) := by
  rw [after_local opsG Ws hWs 20 (hlt 20 (by decide)) V main_call0_v1 (by decide)]
  have hop : (opsG (F := F))[20]'(hlt 20 (by decide)) = TRef.unary (TRef.of (T := ⟨S_, .f32⟩) main_call0_v0) (TRef.of (T := ⟨S100000, .f32⟩) main_call0_v1) (broadcastInDim S100000 ![] bcast_S_S100000) := rfl
  rw [hop, unary_result, after_take opsG Ws hWs 20 V main_call0_v0 (by decide), A_main_call0_v0 V]
  rfl

theorem A_main_v15 (V : Valuation τ sig (Elt F)) :
    after opsG V (Proc.devRef .tc main_v15) = val_main_v15 (F := F) (V (Proc.devRef .tc main_arg1)) := by
  rw [after_local opsG Ws hWs 21 (hlt 21 (by decide)) V main_v15 (by decide)]
  have hop : (opsG (F := F))[21]'(hlt 21 (by decide)) = TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select := rfl
  rw [hop, ternary_result, after_take opsG Ws hWs 21 V main_v13 (by decide), A_main_v13 V, after_take opsG Ws hWs 21 V main_v14 (by decide), A_main_v14 V, after_take opsG Ws hWs 21 V main_call0_v1 (by decide), A_main_call0_v1 V]
  rfl

theorem A_main_c (V : Valuation τ sig (Elt F)) :
    after opsG V (Proc.devRef .tc main_c) = val_main_c (F := F) := by
  rw [after_local opsG Ws hWs 22 (hlt 22 (by decide)) V main_c (by decide)]
  have hop : (opsG (F := F))[22]'(hlt 22 (by decide)) = nullary main_c (constantI S_ 32 0#32) := rfl
  rw [hop, nullary_result]
  rfl

theorem A_main_v16 (V : Valuation τ sig (Elt F)) :
    after opsG V (Proc.devRef .tc main_v16) = val_main_v16 (F := F) := by
  rw [after_local opsG Ws hWs 23 (hlt 23 (by decide)) V main_v16 (by decide)]
  have hop : (opsG (F := F))[23]'(hlt 23 (by decide)) = unary main_c main_v16 (broadcastInDim S1700000 ![] bcast_S_S1700000 : (⟨S_, .i32⟩ : BufTy).Contents (Elt F) → (⟨S1700000, .i32⟩ : BufTy).Contents (Elt F)) := rfl
  rw [hop, unary_result, after_take opsG Ws hWs 23 V main_c (by decide), A_main_c V]
  rfl

theorem A_main_v17 (V : Valuation τ sig (Elt F)) :
    after opsG V (Proc.devRef .tc main_v17) = val_main_v17 (F := F) (V (Proc.devRef .tc main_arg1)) := by
  rw [after_local opsG Ws hWs 24 (hlt 24 (by decide)) V main_v17 (by decide)]
  have hop : (opsG (F := F))[24]'(hlt 24 (by decide)) = binary main_v6 main_v16 main_v17 (cmpi .slt : (⟨S1700000, .i32⟩ : BufTy).Contents (Elt F) → (⟨S1700000, .i32⟩ : BufTy).Contents (Elt F) → (⟨S1700000, .i1⟩ : BufTy).Contents (Elt F)) := rfl
  rw [hop, binary_result, after_take opsG Ws hWs 24 V main_v6 (by decide), A_main_v6 V, after_take opsG Ws hWs 24 V main_v16 (by decide), A_main_v16 V]
  rfl

theorem A_main_c_3 (V : Valuation τ sig (Elt F)) :
    after opsG V (Proc.devRef .tc main_c_3) = val_main_c_3 (F := F) := by
  rw [after_local opsG Ws hWs 25 (hlt 25 (by decide)) V main_c_3 (by decide)]
  have hop : (opsG (F := F))[25]'(hlt 25 (by decide)) = nullary main_c_3 (constantI S_ 32 100000#32) := rfl
  rw [hop, nullary_result]
  rfl

theorem A_main_v18 (V : Valuation τ sig (Elt F)) :
    after opsG V (Proc.devRef .tc main_v18) = val_main_v18 (F := F) := by
  rw [after_local opsG Ws hWs 26 (hlt 26 (by decide)) V main_v18 (by decide)]
  have hop : (opsG (F := F))[26]'(hlt 26 (by decide)) = unary main_c_3 main_v18 (broadcastInDim S1700000 ![] bcast_S_S1700000 : (⟨S_, .i32⟩ : BufTy).Contents (Elt F) → (⟨S1700000, .i32⟩ : BufTy).Contents (Elt F)) := rfl
  rw [hop, unary_result, after_take opsG Ws hWs 26 V main_c_3 (by decide), A_main_c_3 V]
  rfl

end Cert.ReferenceIdeal.RefValue

end
-- ==== Proof.RefBridge2.lean ====
/-
  Operations 27–53 of the reference line, one lemma each: the buffer the operation writes holds, after the whole line,
  the stage the index-by-index reading names (`val_…`) at the arguments. Each proof reads the operation's own result
  from the contents before it, replaces each operand by its own lemma, and compares ONE operation's term with the
  stage's one-level definition.
-/
import proofs.«157511_j56384330662074_2_alg».proof.Proof.RefBridge1

set_option maxRecDepth 8192

noncomputable section

namespace Cert.ReferenceIdeal.RefValue

open Cert.ReferenceIdeal Cert.ReferenceIdeal.Gen Cert.ReferenceIdeal.ReadP Cert.ReferenceIdeal.ValueP Cert.LibAfter
open Idealize.ShloMosaic Idealize.ShloMosaic.TcCoe Idealize.ShloMosaic.StableHlo Idealize.SL.Sem

variable {F : FTy → Type} [FloatOps F]

theorem A_main_v19 (V : Valuation τ sig (Elt F)) :
    after opsG V (Proc.devRef .tc main_v19) = val_main_v19 (F := F) (V (Proc.devRef .tc main_arg1)) := by
  rw [after_local opsG Ws hWs 27 (hlt 27 (by decide)) V main_v19 (by decide)]
  have hop : (opsG (F := F))[27]'(hlt 27 (by decide)) = binary main_v6 main_v18 main_v19 (addi : (⟨S1700000, .i32⟩ : BufTy).Contents (Elt F) → (⟨S1700000, .i32⟩ : BufTy).Contents (Elt F) → (⟨S1700000, .i32⟩ : BufTy).Contents (Elt F)) := rfl
  rw [hop, binary_result, after_take opsG Ws hWs 27 V main_v6 (by decide), A_main_v6 V, after_take opsG Ws hWs 27 V main_v18 (by decide), A_main_v18 V]
  rfl

theorem A_main_v20 (V : Valuation τ sig (Elt F)) :
    after opsG V (Proc.devRef .tc main_v20) = val_main_v20 (F := F) (V (Proc.devRef .tc main_arg1)) := by
  rw [after_local opsG Ws hWs 28 (hlt 28 (by decide)) V main_v20 (by decide)]
  have hop : (opsG (F := F))[28]'(hlt 28 (by decide)) = ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) := rfl
  rw [hop, ternary_result, after_take opsG Ws hWs 28 V main_v17 (by decide), A_main_v17 V, after_take opsG Ws hWs 28 V main_v19 (by decide), A_main_v19 V, after_take opsG Ws hWs 28 V main_v6 (by decide), A_main_v6 V]
  rfl

theorem A_main_v21 (V : Valuation τ sig (Elt F)) :
    after opsG V (Proc.devRef .tc main_v21) = val_main_v21 (F := F) (V (Proc.devRef .tc main_arg1)) := by
  rw [after_local opsG Ws hWs 29 (hlt 29 (by decide)) V main_v21 (by decide)]
  have hop : (opsG (F := F))[29]'(hlt 29 (by decide)) = unary main_v20 main_v21 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 29 V main_v20 (by decide), A_main_v20 V]
  rfl

theorem A_main_v22 (V : Valuation τ sig (Elt F)) :
    after opsG V (Proc.devRef .tc main_v22) = val_main_v22 (F := F) (V (Proc.devRef .tc main_arg1)) := by
  rw [after_local opsG Ws hWs 30 (hlt 30 (by decide)) V main_v22 (by decide)]
  have hop : (opsG (F := F))[30]'(hlt 30 (by decide)) = binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) := rfl
  rw [hop, binary_result, after_take opsG Ws hWs 30 V main_v15 (by decide), A_main_v15 V, after_take opsG Ws hWs 30 V main_v21 (by decide), A_main_v21 V]
  rfl

theorem A_main_c_4 (V : Valuation τ sig (Elt F)) :
    after opsG V (Proc.devRef .tc main_c_4) = val_main_c_4 (F := F) := by
  rw [after_local opsG Ws hWs 31 (hlt 31 (by decide)) V main_c_4 (by decide)]
  have hop : (opsG (F := F))[31]'(hlt 31 (by decide)) = nullary main_c_4 (constantI S_ 32 0#32) := rfl
  rw [hop, nullary_result]
  rfl

theorem A_main_v23 (V : Valuation τ sig (Elt F)) :
    after opsG V (Proc.devRef .tc main_v23) = val_main_v23 (F := F) := by
  rw [after_local opsG Ws hWs 32 (hlt 32 (by decide)) V main_v23 (by decide)]
  have hop : (opsG (F := F))[32]'(hlt 32 (by decide)) = unary main_c_4 main_v23 (broadcastInDim S1700000 ![] bcast_S_S1700000 : (⟨S_, .i32⟩ : BufTy).Contents (Elt F) → (⟨S1700000, .i32⟩ : BufTy).Contents (Elt F)) := rfl
  rw [hop, unary_result, after_take opsG Ws hWs 32 V main_c_4 (by decide), A_main_c_4 V]
  rfl

theorem A_main_v24 (V : Valuation τ sig (Elt F)) :
    after opsG V (Proc.devRef .tc main_v24) = val_main_v24 (F := F) (V (Proc.devRef .tc main_arg1)) := by
  rw [after_local opsG Ws hWs 33 (hlt 33 (by decide)) V main_v24 (by decide)]
  have hop : (opsG (F := F))[33]'(hlt 33 (by decide)) = binary main_v7 main_v23 main_v24 (cmpi .slt : (⟨S1700000, .i32⟩ : BufTy).Contents (Elt F) → (⟨S1700000, .i32⟩ : BufTy).Contents (Elt F) → (⟨S1700000, .i1⟩ : BufTy).Contents (Elt F)) := rfl
  rw [hop, binary_result, after_take opsG Ws hWs 33 V main_v7 (by decide), A_main_v7 V, after_take opsG Ws hWs 33 V main_v23 (by decide), A_main_v23 V]
  rfl

theorem A_main_c_5 (V : Valuation τ sig (Elt F)) :
    after opsG V (Proc.devRef .tc main_c_5) = val_main_c_5 (F := F) := by
  rw [after_local opsG Ws hWs 34 (hlt 34 (by decide)) V main_c_5 (by decide)]
  have hop : (opsG (F := F))[34]'(hlt 34 (by decide)) = nullary main_c_5 (constantI S_ 32 100000#32) := rfl
  rw [hop, nullary_result]
  rfl

theorem A_main_v25 (V : Valuation τ sig (Elt F)) :
    after opsG V (Proc.devRef .tc main_v25) = val_main_v25 (F := F) := by
  rw [after_local opsG Ws hWs 35 (hlt 35 (by decide)) V main_v25 (by decide)]
  have hop : (opsG (F := F))[35]'(hlt 35 (by decide)) = unary main_c_5 main_v25 (broadcastInDim S1700000 ![] bcast_S_S1700000 : (⟨S_, .i32⟩ : BufTy).Contents (Elt F) → (⟨S1700000, .i32⟩ : BufTy).Contents (Elt F)) := rfl
  rw [hop, unary_result, after_take opsG Ws hWs 35 V main_c_5 (by decide), A_main_c_5 V]
  rfl

theorem A_main_v26 (V : Valuation τ sig (Elt F)) :
    after opsG V (Proc.devRef .tc main_v26) = val_main_v26 (F := F) (V (Proc.devRef .tc main_arg1)) := by
  rw [after_local opsG Ws hWs 36 (hlt 36 (by decide)) V main_v26 (by decide)]
  have hop : (opsG (F := F))[36]'(hlt 36 (by decide)) = binary main_v7 main_v25 main_v26 (addi : (⟨S1700000, .i32⟩ : BufTy).Contents (Elt F) → (⟨S1700000, .i32⟩ : BufTy).Contents (Elt F) → (⟨S1700000, .i32⟩ : BufTy).Contents (Elt F)) := rfl
  rw [hop, binary_result, after_take opsG Ws hWs 36 V main_v7 (by decide), A_main_v7 V, after_take opsG Ws hWs 36 V main_v25 (by decide), A_main_v25 V]
  rfl

theorem A_main_v27 (V : Valuation τ sig (Elt F)) :
    after opsG V (Proc.devRef .tc main_v27) = val_main_v27 (F := F) (V (Proc.devRef .tc main_arg1)) := by
  rw [after_local opsG Ws hWs 37 (hlt 37 (by decide)) V main_v27 (by decide)]
  have hop : (opsG (F := F))[37]'(hlt 37 (by decide)) = ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) := rfl
  rw [hop, ternary_result, after_take opsG Ws hWs 37 V main_v24 (by decide), A_main_v24 V, after_take opsG Ws hWs 37 V main_v26 (by decide), A_main_v26 V, after_take opsG Ws hWs 37 V main_v7 (by decide), A_main_v7 V]
  rfl

theorem A_main_v28 (V : Valuation τ sig (Elt F)) :
    after opsG V (Proc.devRef .tc main_v28) = val_main_v28 (F := F) (V (Proc.devRef .tc main_arg1)) := by
  rw [after_local opsG Ws hWs 38 (hlt 38 (by decide)) V main_v28 (by decide)]
  have hop : (opsG (F := F))[38]'(hlt 38 (by decide)) = unary main_v27 main_v28 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 38 V main_v27 (by decide), A_main_v27 V]
  rfl

theorem A_main_v29 (V : Valuation τ sig (Elt F)) :
    after opsG V (Proc.devRef .tc main_v29) = val_main_v29 (F := F) (V (Proc.devRef .tc main_arg1)) := by
  rw [after_local opsG Ws hWs 39 (hlt 39 (by decide)) V main_v29 (by decide)]
  have hop : (opsG (F := F))[39]'(hlt 39 (by decide)) = binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) := rfl
  rw [hop, binary_result, after_take opsG Ws hWs 39 V main_v15 (by decide), A_main_v15 V, after_take opsG Ws hWs 39 V main_v28 (by decide), A_main_v28 V]
  rfl

theorem A_main_v30 (V : Valuation τ sig (Elt F)) :
    after opsG V (Proc.devRef .tc main_v30) = val_main_v30 (F := F) (V (Proc.devRef .tc main_arg1)) := by
  rw [after_local opsG Ws hWs 40 (hlt 40 (by decide)) V main_v30 (by decide)]
  have hop : (opsG (F := F))[40]'(hlt 40 (by decide)) = binary main_v22 main_v29 main_v30 (mulf : (⟨S1700000, .f32⟩ : BufTy).Contents (Elt F) → (⟨S1700000, .f32⟩ : BufTy).Contents (Elt F) → (⟨S1700000, .f32⟩ : BufTy).Contents (Elt F)) := rfl
  rw [hop, binary_result, after_take opsG Ws hWs 40 V main_v22 (by decide), A_main_v22 V, after_take opsG Ws hWs 40 V main_v29 (by decide), A_main_v29 V]
  rfl

theorem A_main_c_6 (V : Valuation τ sig (Elt F)) :
    after opsG V (Proc.devRef .tc main_c_6) = val_main_c_6 (F := F) := by
  rw [after_local opsG Ws hWs 41 (hlt 41 (by decide)) V main_c_6 (by decide)]
  have hop : (opsG (F := F))[41]'(hlt 41 (by decide)) = nullary main_c_6 (constantI S_ 32 0#32) := rfl
  rw [hop, nullary_result]
  rfl

theorem A_main_v31 (V : Valuation τ sig (Elt F)) :
    after opsG V (Proc.devRef .tc main_v31) = val_main_v31 (F := F) := by
  rw [after_local opsG Ws hWs 42 (hlt 42 (by decide)) V main_v31 (by decide)]
  have hop : (opsG (F := F))[42]'(hlt 42 (by decide)) = unary main_c_6 main_v31 (broadcastInDim S1700000 ![] bcast_S_S1700000 : (⟨S_, .i32⟩ : BufTy).Contents (Elt F) → (⟨S1700000, .i32⟩ : BufTy).Contents (Elt F)) := rfl
  rw [hop, unary_result, after_take opsG Ws hWs 42 V main_c_6 (by decide), A_main_c_6 V]
  rfl

theorem A_main_v32 (V : Valuation τ sig (Elt F)) :
    after opsG V (Proc.devRef .tc main_v32) = val_main_v32 (F := F) (V (Proc.devRef .tc main_arg1)) := by
  rw [after_local opsG Ws hWs 43 (hlt 43 (by decide)) V main_v32 (by decide)]
  have hop : (opsG (F := F))[43]'(hlt 43 (by decide)) = binary main_v6 main_v31 main_v32 (cmpi .slt : (⟨S1700000, .i32⟩ : BufTy).Contents (Elt F) → (⟨S1700000, .i32⟩ : BufTy).Contents (Elt F) → (⟨S1700000, .i1⟩ : BufTy).Contents (Elt F)) := rfl
  rw [hop, binary_result, after_take opsG Ws hWs 43 V main_v6 (by decide), A_main_v6 V, after_take opsG Ws hWs 43 V main_v31 (by decide), A_main_v31 V]
  rfl

theorem A_main_c_7 (V : Valuation τ sig (Elt F)) :
    after opsG V (Proc.devRef .tc main_c_7) = val_main_c_7 (F := F) := by
  rw [after_local opsG Ws hWs 44 (hlt 44 (by decide)) V main_c_7 (by decide)]
  have hop : (opsG (F := F))[44]'(hlt 44 (by decide)) = nullary main_c_7 (constantI S_ 32 100000#32) := rfl
  rw [hop, nullary_result]
  rfl

theorem A_main_v33 (V : Valuation τ sig (Elt F)) :
    after opsG V (Proc.devRef .tc main_v33) = val_main_v33 (F := F) := by
  rw [after_local opsG Ws hWs 45 (hlt 45 (by decide)) V main_v33 (by decide)]
  have hop : (opsG (F := F))[45]'(hlt 45 (by decide)) = unary main_c_7 main_v33 (broadcastInDim S1700000 ![] bcast_S_S1700000 : (⟨S_, .i32⟩ : BufTy).Contents (Elt F) → (⟨S1700000, .i32⟩ : BufTy).Contents (Elt F)) := rfl
  rw [hop, unary_result, after_take opsG Ws hWs 45 V main_c_7 (by decide), A_main_c_7 V]
  rfl

theorem A_main_v34 (V : Valuation τ sig (Elt F)) :
    after opsG V (Proc.devRef .tc main_v34) = val_main_v34 (F := F) (V (Proc.devRef .tc main_arg1)) := by
  rw [after_local opsG Ws hWs 46 (hlt 46 (by decide)) V main_v34 (by decide)]
  have hop : (opsG (F := F))[46]'(hlt 46 (by decide)) = binary main_v6 main_v33 main_v34 (addi : (⟨S1700000, .i32⟩ : BufTy).Contents (Elt F) → (⟨S1700000, .i32⟩ : BufTy).Contents (Elt F) → (⟨S1700000, .i32⟩ : BufTy).Contents (Elt F)) := rfl
  rw [hop, binary_result, after_take opsG Ws hWs 46 V main_v6 (by decide), A_main_v6 V, after_take opsG Ws hWs 46 V main_v33 (by decide), A_main_v33 V]
  rfl

theorem A_main_v35 (V : Valuation τ sig (Elt F)) :
    after opsG V (Proc.devRef .tc main_v35) = val_main_v35 (F := F) (V (Proc.devRef .tc main_arg1)) := by
  rw [after_local opsG Ws hWs 47 (hlt 47 (by decide)) V main_v35 (by decide)]
  have hop : (opsG (F := F))[47]'(hlt 47 (by decide)) = ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) := rfl
  rw [hop, ternary_result, after_take opsG Ws hWs 47 V main_v32 (by decide), A_main_v32 V, after_take opsG Ws hWs 47 V main_v34 (by decide), A_main_v34 V, after_take opsG Ws hWs 47 V main_v6 (by decide), A_main_v6 V]
  rfl

theorem A_main_v36 (V : Valuation τ sig (Elt F)) :
    after opsG V (Proc.devRef .tc main_v36) = val_main_v36 (F := F) (V (Proc.devRef .tc main_arg1)) := by
  rw [after_local opsG Ws hWs 48 (hlt 48 (by decide)) V main_v36 (by decide)]
  have hop : (opsG (F := F))[48]'(hlt 48 (by decide)) = unary main_v35 main_v36 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 48 V main_v35 (by decide), A_main_v35 V]
  rfl

theorem A_main_v37 (V : Valuation τ sig (Elt F)) :
    after opsG V (Proc.devRef .tc main_v37) = val_main_v37 (F := F) (V (Proc.devRef .tc main_arg0)) (V (Proc.devRef .tc main_arg1)) (V (Proc.devRef .tc main_arg2)) := by
  rw [after_local opsG Ws hWs 49 (hlt 49 (by decide)) V main_v37 (by decide)]
  have hop : (opsG (F := F))[49]'(hlt 49 (by decide)) = binary main_v4 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)) := rfl
  rw [hop, binary_result, after_take opsG Ws hWs 49 V main_v4 (by decide), A_main_v4 V, after_take opsG Ws hWs 49 V main_v36 (by decide), A_main_v36 V]
  rfl

theorem A_main_v38 (V : Valuation τ sig (Elt F)) :
    after opsG V (Proc.devRef .tc main_v38) = val_main_v38 (F := F) (V (Proc.devRef .tc main_arg1)) := by
  rw [after_local opsG Ws hWs 50 (hlt 50 (by decide)) V main_v38 (by decide)]
  have hop : (opsG (F := F))[50]'(hlt 50 (by decide)) = unary main_v30 main_v38 (broadcastInDim S1700000x1 ![0] bcast_S1700000_S1700000x1_0 : (⟨S1700000, .f32⟩ : BufTy).Contents (Elt F) → (⟨S1700000x1, .f32⟩ : BufTy).Contents (Elt F)) := rfl
  rw [hop, unary_result, after_take opsG Ws hWs 50 V main_v30 (by decide), A_main_v30 V]
  rfl

theorem A_main_v39 (V : Valuation τ sig (Elt F)) :
    after opsG V (Proc.devRef .tc main_v39) = val_main_v39 (F := F) (V (Proc.devRef .tc main_arg1)) := by
  rw [after_local opsG Ws hWs 51 (hlt 51 (by decide)) V main_v39 (by decide)]
  have hop : (opsG (F := F))[51]'(hlt 51 (by decide)) = unary main_v38 main_v39 (broadcastInDim S1700000x64 ![0, 1] bcast_S1700000x1_S1700000x64_0_1 : (⟨S1700000x1, .f32⟩ : BufTy).Contents (Elt F) → (⟨S1700000x64, .f32⟩ : BufTy).Contents (Elt F)) := rfl
  rw [hop, unary_result, after_take opsG Ws hWs 51 V main_v38 (by decide), A_main_v38 V]
  rfl

theorem A_main_v40 (V : Valuation τ sig (Elt F)) :
    after opsG V (Proc.devRef .tc main_v40) = val_main_v40 (F := F) (V (Proc.devRef .tc main_arg0)) (V (Proc.devRef .tc main_arg1)) (V (Proc.devRef .tc main_arg2)) := by
  rw [after_local opsG Ws hWs 52 (hlt 52 (by decide)) V main_v40 (by decide)]
  have hop : (opsG (F := F))[52]'(hlt 52 (by decide)) = binary main_v37 main_v39 main_v40 (mulf : (⟨S1700000x64, .f32⟩ : BufTy).Contents (Elt F) → (⟨S1700000x64, .f32⟩ : BufTy).Contents (Elt F) → (⟨S1700000x64, .f32⟩ : BufTy).Contents (Elt F)) := rfl
  rw [hop, binary_result, after_take opsG Ws hWs 52 V main_v37 (by decide), A_main_v37 V, after_take opsG Ws hWs 52 V main_v39 (by decide), A_main_v39 V]
  rfl

theorem A_main_cst_8 (V : Valuation τ sig (Elt F)) :
    after opsG V (Proc.devRef .tc main_cst_8) = val_main_cst_8 (F := F) := by
  rw [after_local opsG Ws hWs 53 (hlt 53 (by decide)) V main_cst_8 (by decide)]
  have hop : (opsG (F := F))[53]'(hlt 53 (by decide)) = nullary main_cst_8 (constant S_ .f32 0x00000000#32) := rfl
  rw [hop, nullary_result]
  rfl

end Cert.ReferenceIdeal.RefValue

end
-- ==== Proof.RefBridge3.lean ====
/-
  Operations 54–80 of the reference line, one lemma each: the buffer the operation writes holds, after the whole line,
  the stage the index-by-index reading names (`val_…`) at the arguments. Each proof reads the operation's own result
  from the contents before it, replaces each operand by its own lemma, and compares ONE operation's term with the
  stage's one-level definition.
-/
import proofs.«157511_j56384330662074_2_alg».proof.Proof.RefBridge2

set_option maxRecDepth 8192

noncomputable section

namespace Cert.ReferenceIdeal.RefValue

open Cert.ReferenceIdeal Cert.ReferenceIdeal.Gen Cert.ReferenceIdeal.ReadP Cert.ReferenceIdeal.ValueP Cert.LibAfter
open Idealize.ShloMosaic Idealize.ShloMosaic.TcCoe Idealize.ShloMosaic.StableHlo Idealize.SL.Sem

variable {F : FTy → Type} [FloatOps F]

theorem A_main_v41 (V : Valuation τ sig (Elt F)) :
    after opsG V (Proc.devRef .tc main_v41) = val_main_v41 (F := F) := by
  rw [after_local opsG Ws hWs 54 (hlt 54 (by decide)) V main_v41 (by decide)]
  have hop : (opsG (F := F))[54]'(hlt 54 (by decide)) = unary main_cst_8 main_v41 (broadcastInDim S100000x64 ![] bcast_S_S100000x64 : (⟨S_, .f32⟩ : BufTy).Contents (Elt F) → (⟨S100000x64, .f32⟩ : BufTy).Contents (Elt F)) := rfl
  rw [hop, unary_result, after_take opsG Ws hWs 54 V main_cst_8 (by decide), A_main_cst_8 V]
  rfl

theorem A_main_v42 (V : Valuation τ sig (Elt F)) :
    after opsG V (Proc.devRef .tc main_v42) = val_main_v42 (F := F) (V (Proc.devRef .tc main_arg1)) := by
  rw [after_local opsG Ws hWs 55 (hlt 55 (by decide)) V main_v42 (by decide)]
  have hop : (opsG (F := F))[55]'(hlt 55 (by decide)) = unary main_v7 main_v42 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 55 V main_v7 (by decide), A_main_v7 V]
  rfl

theorem A_main_v43 (V : Valuation τ sig (Elt F)) :
    after opsG V (Proc.devRef .tc main_v43) = val_main_v43 (F := F) (V (Proc.devRef .tc main_arg0)) (V (Proc.devRef .tc main_arg1)) (V (Proc.devRef .tc main_arg2)) := by
  rw [after_local opsG Ws hWs 56 (hlt 56 (by decide)) V main_v43 (by decide)]
  have hop : (opsG (F := F))[56]'(hlt 56 (by decide)) = ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) := rfl
  rw [hop, ternary_result, after_take opsG Ws hWs 56 V main_v41 (by decide), A_main_v41 V, after_take opsG Ws hWs 56 V main_v42 (by decide), A_main_v42 V, after_take opsG Ws hWs 56 V main_v40 (by decide), A_main_v40 V]
  rfl

theorem A_main_v44 (V : Valuation τ sig (Elt F)) :
    after opsG V (Proc.devRef .tc main_v44) = val_main_v44 (F := F) (V (Proc.devRef .tc main_arg3)) := by
  rw [after_local opsG Ws hWs 57 (hlt 57 (by decide)) V main_v44 (by decide)]
  have hop : (opsG (F := F))[57]'(hlt 57 (by decide)) = unary main_arg3 main_v44 (broadcastInDim S1x64 ![1] bcast_S64_S1x64_1 : (⟨S64, .f32⟩ : BufTy).Contents (Elt F) → (⟨S1x64, .f32⟩ : BufTy).Contents (Elt F)) := rfl
  rw [hop, unary_result, after_take opsG Ws hWs 57 V main_arg3 (by decide), keepG_arg3 V]
  rfl

theorem A_main_v45 (V : Valuation τ sig (Elt F)) :
    after opsG V (Proc.devRef .tc main_v45) = val_main_v45 (F := F) (V (Proc.devRef .tc main_arg3)) := by
  rw [after_local opsG Ws hWs 58 (hlt 58 (by decide)) V main_v45 (by decide)]
  have hop : (opsG (F := F))[58]'(hlt 58 (by decide)) = unary main_v44 main_v45 (broadcastInDim S100000x64 ![0, 1] bcast_S1x64_S100000x64_0_1 : (⟨S1x64, .f32⟩ : BufTy).Contents (Elt F) → (⟨S100000x64, .f32⟩ : BufTy).Contents (Elt F)) := rfl
  rw [hop, unary_result, after_take opsG Ws hWs 58 V main_v44 (by decide), A_main_v44 V]
  rfl

theorem A_main_v46 (V : Valuation τ sig (Elt F)) :
    after opsG V (Proc.devRef .tc main_v46) = val_main_v46 (F := F) (V (Proc.devRef .tc main_arg0)) (V (Proc.devRef .tc main_arg1)) (V (Proc.devRef .tc main_arg2)) (V (Proc.devRef .tc main_arg3)) := by
  rw [after_local opsG Ws hWs 59 (hlt 59 (by decide)) V main_v46 (by decide)]
  have hop : (opsG (F := F))[59]'(hlt 59 (by decide)) = binary main_v43 main_v45 main_v46 (addf : (⟨S100000x64, .f32⟩ : BufTy).Contents (Elt F) → (⟨S100000x64, .f32⟩ : BufTy).Contents (Elt F) → (⟨S100000x64, .f32⟩ : BufTy).Contents (Elt F)) := rfl
  rw [hop, binary_result, after_take opsG Ws hWs 59 V main_v43 (by decide), A_main_v43 V, after_take opsG Ws hWs 59 V main_v45 (by decide), A_main_v45 V]
  rfl

theorem A_main_call1_cst (V : Valuation τ sig (Elt F)) :
    after opsG V (Proc.devRef .tc main_call1_cst) = val_main_call1_cst (F := F) := by
  rw [after_local opsG Ws hWs 60 (hlt 60 (by decide)) V main_call1_cst (by decide)]
  have hop : (opsG (F := F))[60]'(hlt 60 (by decide)) = TRef.nullary (TRef.of (T := ⟨S_, .f32⟩) main_call1_cst) (constant S_ .f32 0x00000000#32) := rfl
  rw [hop, nullary_result]
  rfl

theorem A_main_call1_v0 (V : Valuation τ sig (Elt F)) :
    after opsG V (Proc.devRef .tc main_call1_v0) = val_main_call1_v0 (F := F) := by
  rw [after_local opsG Ws hWs 61 (hlt 61 (by decide)) V main_call1_v0 (by decide)]
  have hop : (opsG (F := F))[61]'(hlt 61 (by decide)) = TRef.unary (TRef.of (T := ⟨S_, .f32⟩) main_call1_cst) (TRef.of (T := ⟨S100000x64, .f32⟩) main_call1_v0) (broadcastInDim S100000x64 ![] bcast_S_S100000x64) := rfl
  rw [hop, unary_result, after_take opsG Ws hWs 61 V main_call1_cst (by decide), A_main_call1_cst V]
  rfl

theorem A_main_v47 (V : Valuation τ sig (Elt F)) :
    after opsG V (Proc.devRef .tc main_v47) = val_main_v47 (F := F) (V (Proc.devRef .tc main_arg0)) (V (Proc.devRef .tc main_arg1)) (V (Proc.devRef .tc main_arg2)) (V (Proc.devRef .tc main_arg3)) := by
  rw [after_local opsG Ws hWs 62 (hlt 62 (by decide)) V main_v47 (by decide)]
  have hop : (opsG (F := F))[62]'(hlt 62 (by decide)) = TRef.binary (TRef.of (T := ⟨S100000x64, .f32⟩) main_v46) (TRef.of (T := ⟨S100000x64, .f32⟩) main_call1_v0) (TRef.of (T := ⟨S100000x64, .f32⟩) main_v47) maximumf := rfl
  rw [hop, binary_result, after_take opsG Ws hWs 62 V main_v46 (by decide), A_main_v46 V, after_take opsG Ws hWs 62 V main_call1_v0 (by decide), A_main_call1_v0 V]
  rfl

theorem A_main_v48 (V : Valuation τ sig (Elt F)) :
    after opsG V (Proc.devRef .tc main_v48) = val_main_v48 (F := F) (V (Proc.devRef .tc main_arg0)) (V (Proc.devRef .tc main_arg1)) (V (Proc.devRef .tc main_arg2)) (V (Proc.devRef .tc main_arg3)) (V (Proc.devRef .tc main_arg4)) := by
  rw [after_local opsG Ws hWs 63 (hlt 63 (by decide)) V main_v48 (by decide)]
  have hop : (opsG (F := F))[63]'(hlt 63 (by decide)) = binary main_v47 main_arg4 main_v48 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)) := rfl
  rw [hop, binary_result, after_take opsG Ws hWs 63 V main_v47 (by decide), A_main_v47 V, after_take opsG Ws hWs 63 V main_arg4 (by decide), keepG_arg4 V]
  rfl

theorem A_main_v49 (V : Valuation τ sig (Elt F)) :
    after opsG V (Proc.devRef .tc main_v49) = val_main_v49 (F := F) := by
  rw [after_local opsG Ws hWs 64 (hlt 64 (by decide)) V main_v49 (by decide)]
  have hop : (opsG (F := F))[64]'(hlt 64 (by decide)) = nullary main_v49 (iotaInDim S100000 32 0) := rfl
  rw [hop, nullary_result]
  rfl

theorem A_main_v50 (V : Valuation τ sig (Elt F)) :
    after opsG V (Proc.devRef .tc main_v50) = val_main_v50 (F := F) (V (Proc.devRef .tc main_arg1)) := by
  rw [after_local opsG Ws hWs 65 (hlt 65 (by decide)) V main_v50 (by decide)]
  have hop : (opsG (F := F))[65]'(hlt 65 (by decide)) = binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) := rfl
  rw [hop, binary_result, after_take opsG Ws hWs 65 V main_v1 (by decide), A_main_v1 V, after_take opsG Ws hWs 65 V main_v49 (by decide), A_main_v49 V]
  rfl

theorem A_main_v51 (V : Valuation τ sig (Elt F)) :
    after opsG V (Proc.devRef .tc main_v51) = val_main_v51 (F := F) (V (Proc.devRef .tc main_arg1)) := by
  rw [after_local opsG Ws hWs 66 (hlt 66 (by decide)) V main_v51 (by decide)]
  have hop : (opsG (F := F))[66]'(hlt 66 (by decide)) = binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) := rfl
  rw [hop, binary_result, after_take opsG Ws hWs 66 V main_v3 (by decide), A_main_v3 V, after_take opsG Ws hWs 66 V main_v49 (by decide), A_main_v49 V]
  rfl

theorem A_main_cst_9 (V : Valuation τ sig (Elt F)) :
    after opsG V (Proc.devRef .tc main_cst_9) = val_main_cst_9 (F := F) := by
  rw [after_local opsG Ws hWs 67 (hlt 67 (by decide)) V main_cst_9 (by decide)]
  have hop : (opsG (F := F))[67]'(hlt 67 (by decide)) = nullary main_cst_9 (constant S_ .f32 0x3F800000#32) := rfl
  rw [hop, nullary_result]
  rfl

theorem A_main_v52 (V : Valuation τ sig (Elt F)) :
    after opsG V (Proc.devRef .tc main_v52) = val_main_v52 (F := F) := by
  rw [after_local opsG Ws hWs 68 (hlt 68 (by decide)) V main_v52 (by decide)]
  have hop : (opsG (F := F))[68]'(hlt 68 (by decide)) = unary main_cst_9 main_v52 (broadcastInDim S1700000 ![] bcast_S_S1700000 : (⟨S_, .f32⟩ : BufTy).Contents (Elt F) → (⟨S1700000, .f32⟩ : BufTy).Contents (Elt F)) := rfl
  rw [hop, unary_result, after_take opsG Ws hWs 68 V main_cst_9 (by decide), A_main_cst_9 V]
  rfl

theorem A_main_cst_10 (V : Valuation τ sig (Elt F)) :
    after opsG V (Proc.devRef .tc main_cst_10) = val_main_cst_10 (F := F) := by
  rw [after_local opsG Ws hWs 69 (hlt 69 (by decide)) V main_cst_10 (by decide)]
  have hop : (opsG (F := F))[69]'(hlt 69 (by decide)) = nullary main_cst_10 (constant S_ .f32 0x00000000#32) := rfl
  rw [hop, nullary_result]
  rfl

theorem A_main_v53 (V : Valuation τ sig (Elt F)) :
    after opsG V (Proc.devRef .tc main_v53) = val_main_v53 (F := F) := by
  rw [after_local opsG Ws hWs 70 (hlt 70 (by decide)) V main_v53 (by decide)]
  have hop : (opsG (F := F))[70]'(hlt 70 (by decide)) = unary main_cst_10 main_v53 (broadcastInDim S100000 ![] bcast_S_S100000 : (⟨S_, .f32⟩ : BufTy).Contents (Elt F) → (⟨S100000, .f32⟩ : BufTy).Contents (Elt F)) := rfl
  rw [hop, unary_result, after_take opsG Ws hWs 70 V main_cst_10 (by decide), A_main_cst_10 V]
  rfl

theorem A_main_v54 (V : Valuation τ sig (Elt F)) :
    after opsG V (Proc.devRef .tc main_v54) = val_main_v54 (F := F) (V (Proc.devRef .tc main_arg1)) := by
  rw [after_local opsG Ws hWs 71 (hlt 71 (by decide)) V main_v54 (by decide)]
  have hop : (opsG (F := F))[71]'(hlt 71 (by decide)) = unary main_v51 main_v54 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 71 V main_v51 (by decide), A_main_v51 V]
  rfl

theorem A_main_v55 (V : Valuation τ sig (Elt F)) :
    after opsG V (Proc.devRef .tc main_v55) = val_main_v55 (F := F) (V (Proc.devRef .tc main_arg1)) := by
  rw [after_local opsG Ws hWs 72 (hlt 72 (by decide)) V main_v55 (by decide)]
  have hop : (opsG (F := F))[72]'(hlt 72 (by decide)) = ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) := rfl
  rw [hop, ternary_result, after_take opsG Ws hWs 72 V main_v53 (by decide), A_main_v53 V, after_take opsG Ws hWs 72 V main_v54 (by decide), A_main_v54 V, after_take opsG Ws hWs 72 V main_v52 (by decide), A_main_v52 V]
  rfl

theorem A_main_cst_11 (V : Valuation τ sig (Elt F)) :
    after opsG V (Proc.devRef .tc main_cst_11) = val_main_cst_11 (F := F) := by
  rw [after_local opsG Ws hWs 73 (hlt 73 (by decide)) V main_cst_11 (by decide)]
  have hop : (opsG (F := F))[73]'(hlt 73 (by decide)) = nullary main_cst_11 (constant S_ .f32 0x00000000#32) := rfl
  rw [hop, nullary_result]
  rfl

theorem A_main_v56 (V : Valuation τ sig (Elt F)) :
    after opsG V (Proc.devRef .tc main_v56) = val_main_v56 (F := F) := by
  rw [after_local opsG Ws hWs 74 (hlt 74 (by decide)) V main_v56 (by decide)]
  have hop : (opsG (F := F))[74]'(hlt 74 (by decide)) = unary main_cst_11 main_v56 (broadcastInDim S100000 ![] bcast_S_S100000 : (⟨S_, .f32⟩ : BufTy).Contents (Elt F) → (⟨S100000, .f32⟩ : BufTy).Contents (Elt F)) := rfl
  rw [hop, unary_result, after_take opsG Ws hWs 74 V main_cst_11 (by decide), A_main_cst_11 V]
  rfl

theorem A_main_v57 (V : Valuation τ sig (Elt F)) :
    after opsG V (Proc.devRef .tc main_v57) = val_main_v57 (F := F) (V (Proc.devRef .tc main_arg1)) := by
  rw [after_local opsG Ws hWs 75 (hlt 75 (by decide)) V main_v57 (by decide)]
  have hop : (opsG (F := F))[75]'(hlt 75 (by decide)) = binary main_v55 main_v56 main_v57 (cmpf .ogt : (⟨S100000, .f32⟩ : BufTy).Contents (Elt F) → (⟨S100000, .f32⟩ : BufTy).Contents (Elt F) → (⟨S100000, .i1⟩ : BufTy).Contents (Elt F)) := rfl
  rw [hop, binary_result, after_take opsG Ws hWs 75 V main_v55 (by decide), A_main_v55 V, after_take opsG Ws hWs 75 V main_v56 (by decide), A_main_v56 V]
  rfl

theorem A_main_v58 (V : Valuation τ sig (Elt F)) :
    after opsG V (Proc.devRef .tc main_v58) = val_main_v58 (F := F) (V (Proc.devRef .tc main_arg1)) := by
  rw [after_local opsG Ws hWs 76 (hlt 76 (by decide)) V main_v58 (by decide)]
  have hop : (opsG (F := F))[76]'(hlt 76 (by decide)) = unary main_v55 main_v58 (Host.rsqrt : (⟨S100000, .f32⟩ : BufTy).Contents (Elt F) → (⟨S100000, .f32⟩ : BufTy).Contents (Elt F)) := rfl
  rw [hop, unary_result, after_take opsG Ws hWs 76 V main_v55 (by decide), A_main_v55 V]
  rfl

theorem A_main_cst_12 (V : Valuation τ sig (Elt F)) :
    after opsG V (Proc.devRef .tc main_cst_12) = val_main_cst_12 (F := F) := by
  rw [after_local opsG Ws hWs 77 (hlt 77 (by decide)) V main_cst_12 (by decide)]
  have hop : (opsG (F := F))[77]'(hlt 77 (by decide)) = nullary main_cst_12 (constant S_ .f32 0x00000000#32) := rfl
  rw [hop, nullary_result]
  rfl

theorem A_main_call2_v0 (V : Valuation τ sig (Elt F)) :
    after opsG V (Proc.devRef .tc main_call2_v0) = val_main_call2_v0 (F := F) := by
  rw [after_local opsG Ws hWs 78 (hlt 78 (by decide)) V main_call2_v0 (by decide)]
  have hop : (opsG (F := F))[78]'(hlt 78 (by decide)) = TRef.unary (TRef.of (T := ⟨S_, .f32⟩) main_cst_12) (TRef.of (T := ⟨S_, .f32⟩) main_call2_v0) id := rfl
  rw [hop, unary_result, after_take opsG Ws hWs 78 V main_cst_12 (by decide), A_main_cst_12 V]
  rfl

theorem A_main_call2_v1 (V : Valuation τ sig (Elt F)) :
    after opsG V (Proc.devRef .tc main_call2_v1) = val_main_call2_v1 (F := F) := by
  rw [after_local opsG Ws hWs 79 (hlt 79 (by decide)) V main_call2_v1 (by decide)]
  have hop : (opsG (F := F))[79]'(hlt 79 (by decide)) = TRef.unary (TRef.of (T := ⟨S_, .f32⟩) main_call2_v0) (TRef.of (T := ⟨S100000, .f32⟩) main_call2_v1) (broadcastInDim S100000 ![] bcast_S_S100000) := rfl
  rw [hop, unary_result, after_take opsG Ws hWs 79 V main_call2_v0 (by decide), A_main_call2_v0 V]
  rfl

theorem A_main_v59 (V : Valuation τ sig (Elt F)) :
    after opsG V (Proc.devRef .tc main_v59) = val_main_v59 (F := F) (V (Proc.devRef .tc main_arg1)) := by
  rw [after_local opsG Ws hWs 80 (hlt 80 (by decide)) V main_v59 (by decide)]
  have hop : (opsG (F := F))[80]'(hlt 80 (by decide)) = TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select := rfl
  rw [hop, ternary_result, after_take opsG Ws hWs 80 V main_v57 (by decide), A_main_v57 V, after_take opsG Ws hWs 80 V main_v58 (by decide), A_main_v58 V, after_take opsG Ws hWs 80 V main_call2_v1 (by decide), A_main_call2_v1 V]
  rfl

end Cert.ReferenceIdeal.RefValue

end
-- ==== Proof.RefBridge4.lean ====
/-
  Operations 81–107 of the reference line, one lemma each: the buffer the operation writes holds, after the whole line,
  the stage the index-by-index reading names (`val_…`) at the arguments. Each proof reads the operation's own result
  from the contents before it, replaces each operand by its own lemma, and compares ONE operation's term with the
  stage's one-level definition.
-/
import proofs.«157511_j56384330662074_2_alg».proof.Proof.RefBridge3

set_option maxRecDepth 8192

noncomputable section

namespace Cert.ReferenceIdeal.RefValue

open Cert.ReferenceIdeal Cert.ReferenceIdeal.Gen Cert.ReferenceIdeal.ReadP Cert.ReferenceIdeal.ValueP Cert.LibAfter
open Idealize.ShloMosaic Idealize.ShloMosaic.TcCoe Idealize.ShloMosaic.StableHlo Idealize.SL.Sem

variable {F : FTy → Type} [FloatOps F]

theorem A_main_c_13 (V : Valuation τ sig (Elt F)) :
    after opsG V (Proc.devRef .tc main_c_13) = val_main_c_13 (F := F) := by
  rw [after_local opsG Ws hWs 81 (hlt 81 (by decide)) V main_c_13 (by decide)]
  have hop : (opsG (F := F))[81]'(hlt 81 (by decide)) = nullary main_c_13 (constantI S_ 32 0#32) := rfl
  rw [hop, nullary_result]
  rfl

theorem A_main_v60 (V : Valuation τ sig (Elt F)) :
    after opsG V (Proc.devRef .tc main_v60) = val_main_v60 (F := F) := by
  rw [after_local opsG Ws hWs 82 (hlt 82 (by decide)) V main_v60 (by decide)]
  have hop : (opsG (F := F))[82]'(hlt 82 (by decide)) = unary main_c_13 main_v60 (broadcastInDim S1700000 ![] bcast_S_S1700000 : (⟨S_, .i32⟩ : BufTy).Contents (Elt F) → (⟨S1700000, .i32⟩ : BufTy).Contents (Elt F)) := rfl
  rw [hop, unary_result, after_take opsG Ws hWs 82 V main_c_13 (by decide), A_main_c_13 V]
  rfl

theorem A_main_v61 (V : Valuation τ sig (Elt F)) :
    after opsG V (Proc.devRef .tc main_v61) = val_main_v61 (F := F) (V (Proc.devRef .tc main_arg1)) := by
  rw [after_local opsG Ws hWs 83 (hlt 83 (by decide)) V main_v61 (by decide)]
  have hop : (opsG (F := F))[83]'(hlt 83 (by decide)) = binary main_v50 main_v60 main_v61 (cmpi .slt : (⟨S1700000, .i32⟩ : BufTy).Contents (Elt F) → (⟨S1700000, .i32⟩ : BufTy).Contents (Elt F) → (⟨S1700000, .i1⟩ : BufTy).Contents (Elt F)) := rfl
  rw [hop, binary_result, after_take opsG Ws hWs 83 V main_v50 (by decide), A_main_v50 V, after_take opsG Ws hWs 83 V main_v60 (by decide), A_main_v60 V]
  rfl

theorem A_main_c_14 (V : Valuation τ sig (Elt F)) :
    after opsG V (Proc.devRef .tc main_c_14) = val_main_c_14 (F := F) := by
  rw [after_local opsG Ws hWs 84 (hlt 84 (by decide)) V main_c_14 (by decide)]
  have hop : (opsG (F := F))[84]'(hlt 84 (by decide)) = nullary main_c_14 (constantI S_ 32 100000#32) := rfl
  rw [hop, nullary_result]
  rfl

theorem A_main_v62 (V : Valuation τ sig (Elt F)) :
    after opsG V (Proc.devRef .tc main_v62) = val_main_v62 (F := F) := by
  rw [after_local opsG Ws hWs 85 (hlt 85 (by decide)) V main_v62 (by decide)]
  have hop : (opsG (F := F))[85]'(hlt 85 (by decide)) = unary main_c_14 main_v62 (broadcastInDim S1700000 ![] bcast_S_S1700000 : (⟨S_, .i32⟩ : BufTy).Contents (Elt F) → (⟨S1700000, .i32⟩ : BufTy).Contents (Elt F)) := rfl
  rw [hop, unary_result, after_take opsG Ws hWs 85 V main_c_14 (by decide), A_main_c_14 V]
  rfl

theorem A_main_v63 (V : Valuation τ sig (Elt F)) :
    after opsG V (Proc.devRef .tc main_v63) = val_main_v63 (F := F) (V (Proc.devRef .tc main_arg1)) := by
  rw [after_local opsG Ws hWs 86 (hlt 86 (by decide)) V main_v63 (by decide)]
  have hop : (opsG (F := F))[86]'(hlt 86 (by decide)) = binary main_v50 main_v62 main_v63 (addi : (⟨S1700000, .i32⟩ : BufTy).Contents (Elt F) → (⟨S1700000, .i32⟩ : BufTy).Contents (Elt F) → (⟨S1700000, .i32⟩ : BufTy).Contents (Elt F)) := rfl
  rw [hop, binary_result, after_take opsG Ws hWs 86 V main_v50 (by decide), A_main_v50 V, after_take opsG Ws hWs 86 V main_v62 (by decide), A_main_v62 V]
  rfl

theorem A_main_v64 (V : Valuation τ sig (Elt F)) :
    after opsG V (Proc.devRef .tc main_v64) = val_main_v64 (F := F) (V (Proc.devRef .tc main_arg1)) := by
  rw [after_local opsG Ws hWs 87 (hlt 87 (by decide)) V main_v64 (by decide)]
  have hop : (opsG (F := F))[87]'(hlt 87 (by decide)) = ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) := rfl
  rw [hop, ternary_result, after_take opsG Ws hWs 87 V main_v61 (by decide), A_main_v61 V, after_take opsG Ws hWs 87 V main_v63 (by decide), A_main_v63 V, after_take opsG Ws hWs 87 V main_v50 (by decide), A_main_v50 V]
  rfl

theorem A_main_v65 (V : Valuation τ sig (Elt F)) :
    after opsG V (Proc.devRef .tc main_v65) = val_main_v65 (F := F) (V (Proc.devRef .tc main_arg1)) := by
  rw [after_local opsG Ws hWs 88 (hlt 88 (by decide)) V main_v65 (by decide)]
  have hop : (opsG (F := F))[88]'(hlt 88 (by decide)) = unary main_v64 main_v65 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 88 V main_v64 (by decide), A_main_v64 V]
  rfl

theorem A_main_v66 (V : Valuation τ sig (Elt F)) :
    after opsG V (Proc.devRef .tc main_v66) = val_main_v66 (F := F) (V (Proc.devRef .tc main_arg1)) := by
  rw [after_local opsG Ws hWs 89 (hlt 89 (by decide)) V main_v66 (by decide)]
  have hop : (opsG (F := F))[89]'(hlt 89 (by decide)) = binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) := rfl
  rw [hop, binary_result, after_take opsG Ws hWs 89 V main_v59 (by decide), A_main_v59 V, after_take opsG Ws hWs 89 V main_v65 (by decide), A_main_v65 V]
  rfl

theorem A_main_c_15 (V : Valuation τ sig (Elt F)) :
    after opsG V (Proc.devRef .tc main_c_15) = val_main_c_15 (F := F) := by
  rw [after_local opsG Ws hWs 90 (hlt 90 (by decide)) V main_c_15 (by decide)]
  have hop : (opsG (F := F))[90]'(hlt 90 (by decide)) = nullary main_c_15 (constantI S_ 32 0#32) := rfl
  rw [hop, nullary_result]
  rfl

theorem A_main_v67 (V : Valuation τ sig (Elt F)) :
    after opsG V (Proc.devRef .tc main_v67) = val_main_v67 (F := F) := by
  rw [after_local opsG Ws hWs 91 (hlt 91 (by decide)) V main_v67 (by decide)]
  have hop : (opsG (F := F))[91]'(hlt 91 (by decide)) = unary main_c_15 main_v67 (broadcastInDim S1700000 ![] bcast_S_S1700000 : (⟨S_, .i32⟩ : BufTy).Contents (Elt F) → (⟨S1700000, .i32⟩ : BufTy).Contents (Elt F)) := rfl
  rw [hop, unary_result, after_take opsG Ws hWs 91 V main_c_15 (by decide), A_main_c_15 V]
  rfl

theorem A_main_v68 (V : Valuation τ sig (Elt F)) :
    after opsG V (Proc.devRef .tc main_v68) = val_main_v68 (F := F) (V (Proc.devRef .tc main_arg1)) := by
  rw [after_local opsG Ws hWs 92 (hlt 92 (by decide)) V main_v68 (by decide)]
  have hop : (opsG (F := F))[92]'(hlt 92 (by decide)) = binary main_v51 main_v67 main_v68 (cmpi .slt : (⟨S1700000, .i32⟩ : BufTy).Contents (Elt F) → (⟨S1700000, .i32⟩ : BufTy).Contents (Elt F) → (⟨S1700000, .i1⟩ : BufTy).Contents (Elt F)) := rfl
  rw [hop, binary_result, after_take opsG Ws hWs 92 V main_v51 (by decide), A_main_v51 V, after_take opsG Ws hWs 92 V main_v67 (by decide), A_main_v67 V]
  rfl

theorem A_main_c_16 (V : Valuation τ sig (Elt F)) :
    after opsG V (Proc.devRef .tc main_c_16) = val_main_c_16 (F := F) := by
  rw [after_local opsG Ws hWs 93 (hlt 93 (by decide)) V main_c_16 (by decide)]
  have hop : (opsG (F := F))[93]'(hlt 93 (by decide)) = nullary main_c_16 (constantI S_ 32 100000#32) := rfl
  rw [hop, nullary_result]
  rfl

theorem A_main_v69 (V : Valuation τ sig (Elt F)) :
    after opsG V (Proc.devRef .tc main_v69) = val_main_v69 (F := F) := by
  rw [after_local opsG Ws hWs 94 (hlt 94 (by decide)) V main_v69 (by decide)]
  have hop : (opsG (F := F))[94]'(hlt 94 (by decide)) = unary main_c_16 main_v69 (broadcastInDim S1700000 ![] bcast_S_S1700000 : (⟨S_, .i32⟩ : BufTy).Contents (Elt F) → (⟨S1700000, .i32⟩ : BufTy).Contents (Elt F)) := rfl
  rw [hop, unary_result, after_take opsG Ws hWs 94 V main_c_16 (by decide), A_main_c_16 V]
  rfl

theorem A_main_v70 (V : Valuation τ sig (Elt F)) :
    after opsG V (Proc.devRef .tc main_v70) = val_main_v70 (F := F) (V (Proc.devRef .tc main_arg1)) := by
  rw [after_local opsG Ws hWs 95 (hlt 95 (by decide)) V main_v70 (by decide)]
  have hop : (opsG (F := F))[95]'(hlt 95 (by decide)) = binary main_v51 main_v69 main_v70 (addi : (⟨S1700000, .i32⟩ : BufTy).Contents (Elt F) → (⟨S1700000, .i32⟩ : BufTy).Contents (Elt F) → (⟨S1700000, .i32⟩ : BufTy).Contents (Elt F)) := rfl
  rw [hop, binary_result, after_take opsG Ws hWs 95 V main_v51 (by decide), A_main_v51 V, after_take opsG Ws hWs 95 V main_v69 (by decide), A_main_v69 V]
  rfl

theorem A_main_v71 (V : Valuation τ sig (Elt F)) :
    after opsG V (Proc.devRef .tc main_v71) = val_main_v71 (F := F) (V (Proc.devRef .tc main_arg1)) := by
  rw [after_local opsG Ws hWs 96 (hlt 96 (by decide)) V main_v71 (by decide)]
  have hop : (opsG (F := F))[96]'(hlt 96 (by decide)) = ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) := rfl
  rw [hop, ternary_result, after_take opsG Ws hWs 96 V main_v68 (by decide), A_main_v68 V, after_take opsG Ws hWs 96 V main_v70 (by decide), A_main_v70 V, after_take opsG Ws hWs 96 V main_v51 (by decide), A_main_v51 V]
  rfl

theorem A_main_v72 (V : Valuation τ sig (Elt F)) :
    after opsG V (Proc.devRef .tc main_v72) = val_main_v72 (F := F) (V (Proc.devRef .tc main_arg1)) := by
  rw [after_local opsG Ws hWs 97 (hlt 97 (by decide)) V main_v72 (by decide)]
  have hop : (opsG (F := F))[97]'(hlt 97 (by decide)) = unary main_v71 main_v72 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 97 V main_v71 (by decide), A_main_v71 V]
  rfl

theorem A_main_v73 (V : Valuation τ sig (Elt F)) :
    after opsG V (Proc.devRef .tc main_v73) = val_main_v73 (F := F) (V (Proc.devRef .tc main_arg1)) := by
  rw [after_local opsG Ws hWs 98 (hlt 98 (by decide)) V main_v73 (by decide)]
  have hop : (opsG (F := F))[98]'(hlt 98 (by decide)) = binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) := rfl
  rw [hop, binary_result, after_take opsG Ws hWs 98 V main_v59 (by decide), A_main_v59 V, after_take opsG Ws hWs 98 V main_v72 (by decide), A_main_v72 V]
  rfl

theorem A_main_v74 (V : Valuation τ sig (Elt F)) :
    after opsG V (Proc.devRef .tc main_v74) = val_main_v74 (F := F) (V (Proc.devRef .tc main_arg1)) := by
  rw [after_local opsG Ws hWs 99 (hlt 99 (by decide)) V main_v74 (by decide)]
  have hop : (opsG (F := F))[99]'(hlt 99 (by decide)) = binary main_v66 main_v73 main_v74 (mulf : (⟨S1700000, .f32⟩ : BufTy).Contents (Elt F) → (⟨S1700000, .f32⟩ : BufTy).Contents (Elt F) → (⟨S1700000, .f32⟩ : BufTy).Contents (Elt F)) := rfl
  rw [hop, binary_result, after_take opsG Ws hWs 99 V main_v66 (by decide), A_main_v66 V, after_take opsG Ws hWs 99 V main_v73 (by decide), A_main_v73 V]
  rfl

theorem A_main_c_17 (V : Valuation τ sig (Elt F)) :
    after opsG V (Proc.devRef .tc main_c_17) = val_main_c_17 (F := F) := by
  rw [after_local opsG Ws hWs 100 (hlt 100 (by decide)) V main_c_17 (by decide)]
  have hop : (opsG (F := F))[100]'(hlt 100 (by decide)) = nullary main_c_17 (constantI S_ 32 0#32) := rfl
  rw [hop, nullary_result]
  rfl

theorem A_main_v75 (V : Valuation τ sig (Elt F)) :
    after opsG V (Proc.devRef .tc main_v75) = val_main_v75 (F := F) := by
  rw [after_local opsG Ws hWs 101 (hlt 101 (by decide)) V main_v75 (by decide)]
  have hop : (opsG (F := F))[101]'(hlt 101 (by decide)) = unary main_c_17 main_v75 (broadcastInDim S1700000 ![] bcast_S_S1700000 : (⟨S_, .i32⟩ : BufTy).Contents (Elt F) → (⟨S1700000, .i32⟩ : BufTy).Contents (Elt F)) := rfl
  rw [hop, unary_result, after_take opsG Ws hWs 101 V main_c_17 (by decide), A_main_c_17 V]
  rfl

theorem A_main_v76 (V : Valuation τ sig (Elt F)) :
    after opsG V (Proc.devRef .tc main_v76) = val_main_v76 (F := F) (V (Proc.devRef .tc main_arg1)) := by
  rw [after_local opsG Ws hWs 102 (hlt 102 (by decide)) V main_v76 (by decide)]
  have hop : (opsG (F := F))[102]'(hlt 102 (by decide)) = binary main_v50 main_v75 main_v76 (cmpi .slt : (⟨S1700000, .i32⟩ : BufTy).Contents (Elt F) → (⟨S1700000, .i32⟩ : BufTy).Contents (Elt F) → (⟨S1700000, .i1⟩ : BufTy).Contents (Elt F)) := rfl
  rw [hop, binary_result, after_take opsG Ws hWs 102 V main_v50 (by decide), A_main_v50 V, after_take opsG Ws hWs 102 V main_v75 (by decide), A_main_v75 V]
  rfl

theorem A_main_c_18 (V : Valuation τ sig (Elt F)) :
    after opsG V (Proc.devRef .tc main_c_18) = val_main_c_18 (F := F) := by
  rw [after_local opsG Ws hWs 103 (hlt 103 (by decide)) V main_c_18 (by decide)]
  have hop : (opsG (F := F))[103]'(hlt 103 (by decide)) = nullary main_c_18 (constantI S_ 32 100000#32) := rfl
  rw [hop, nullary_result]
  rfl

theorem A_main_v77 (V : Valuation τ sig (Elt F)) :
    after opsG V (Proc.devRef .tc main_v77) = val_main_v77 (F := F) := by
  rw [after_local opsG Ws hWs 104 (hlt 104 (by decide)) V main_v77 (by decide)]
  have hop : (opsG (F := F))[104]'(hlt 104 (by decide)) = unary main_c_18 main_v77 (broadcastInDim S1700000 ![] bcast_S_S1700000 : (⟨S_, .i32⟩ : BufTy).Contents (Elt F) → (⟨S1700000, .i32⟩ : BufTy).Contents (Elt F)) := rfl
  rw [hop, unary_result, after_take opsG Ws hWs 104 V main_c_18 (by decide), A_main_c_18 V]
  rfl

theorem A_main_v78 (V : Valuation τ sig (Elt F)) :
    after opsG V (Proc.devRef .tc main_v78) = val_main_v78 (F := F) (V (Proc.devRef .tc main_arg1)) := by
  rw [after_local opsG Ws hWs 105 (hlt 105 (by decide)) V main_v78 (by decide)]
  have hop : (opsG (F := F))[105]'(hlt 105 (by decide)) = binary main_v50 main_v77 main_v78 (addi : (⟨S1700000, .i32⟩ : BufTy).Contents (Elt F) → (⟨S1700000, .i32⟩ : BufTy).Contents (Elt F) → (⟨S1700000, .i32⟩ : BufTy).Contents (Elt F)) := rfl
  rw [hop, binary_result, after_take opsG Ws hWs 105 V main_v50 (by decide), A_main_v50 V, after_take opsG Ws hWs 105 V main_v77 (by decide), A_main_v77 V]
  rfl

theorem A_main_v79 (V : Valuation τ sig (Elt F)) :
    after opsG V (Proc.devRef .tc main_v79) = val_main_v79 (F := F) (V (Proc.devRef .tc main_arg1)) := by
  rw [after_local opsG Ws hWs 106 (hlt 106 (by decide)) V main_v79 (by decide)]
  have hop : (opsG (F := F))[106]'(hlt 106 (by decide)) = ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) := rfl
  rw [hop, ternary_result, after_take opsG Ws hWs 106 V main_v76 (by decide), A_main_v76 V, after_take opsG Ws hWs 106 V main_v78 (by decide), A_main_v78 V, after_take opsG Ws hWs 106 V main_v50 (by decide), A_main_v50 V]
  rfl

theorem A_main_v80 (V : Valuation τ sig (Elt F)) :
    after opsG V (Proc.devRef .tc main_v80) = val_main_v80 (F := F) (V (Proc.devRef .tc main_arg1)) := by
  rw [after_local opsG Ws hWs 107 (hlt 107 (by decide)) V main_v80 (by decide)]
  have hop : (opsG (F := F))[107]'(hlt 107 (by decide)) = unary main_v79 main_v80 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 107 V main_v79 (by decide), A_main_v79 V]
  rfl

end Cert.ReferenceIdeal.RefValue

end
-- ==== Proof.RefBridge5.lean ====
/-
  Operations 108–133 of the reference line, one lemma each: the buffer the operation writes holds, after the whole line,
  the stage the index-by-index reading names (`val_…`) at the arguments. Each proof reads the operation's own result
  from the contents before it, replaces each operand by its own lemma, and compares ONE operation's term with the
  stage's one-level definition.
-/
import proofs.«157511_j56384330662074_2_alg».proof.Proof.RefBridge4

set_option maxRecDepth 8192

noncomputable section

namespace Cert.ReferenceIdeal.RefValue

open Cert.ReferenceIdeal Cert.ReferenceIdeal.Gen Cert.ReferenceIdeal.ReadP Cert.ReferenceIdeal.ValueP Cert.LibAfter
open Idealize.ShloMosaic Idealize.ShloMosaic.TcCoe Idealize.ShloMosaic.StableHlo Idealize.SL.Sem

variable {F : FTy → Type} [FloatOps F]

theorem A_main_v81 (V : Valuation τ sig (Elt F)) :
    after opsG V (Proc.devRef .tc main_v81) = val_main_v81 (F := F) (V (Proc.devRef .tc main_arg0)) (V (Proc.devRef .tc main_arg1)) (V (Proc.devRef .tc main_arg2)) (V (Proc.devRef .tc main_arg3)) (V (Proc.devRef .tc main_arg4)) := by
  rw [after_local opsG Ws hWs 108 (hlt 108 (by decide)) V main_v81 (by decide)]
  have hop : (opsG (F := F))[108]'(hlt 108 (by decide)) = binary main_v48 main_v80 main_v81 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)) := rfl
  rw [hop, binary_result, after_take opsG Ws hWs 108 V main_v48 (by decide), A_main_v48 V, after_take opsG Ws hWs 108 V main_v80 (by decide), A_main_v80 V]
  rfl

theorem A_main_v82 (V : Valuation τ sig (Elt F)) :
    after opsG V (Proc.devRef .tc main_v82) = val_main_v82 (F := F) (V (Proc.devRef .tc main_arg1)) := by
  rw [after_local opsG Ws hWs 109 (hlt 109 (by decide)) V main_v82 (by decide)]
  have hop : (opsG (F := F))[109]'(hlt 109 (by decide)) = unary main_v74 main_v82 (broadcastInDim S1700000x1 ![0] bcast_S1700000_S1700000x1_0 : (⟨S1700000, .f32⟩ : BufTy).Contents (Elt F) → (⟨S1700000x1, .f32⟩ : BufTy).Contents (Elt F)) := rfl
  rw [hop, unary_result, after_take opsG Ws hWs 109 V main_v74 (by decide), A_main_v74 V]
  rfl

theorem A_main_v83 (V : Valuation τ sig (Elt F)) :
    after opsG V (Proc.devRef .tc main_v83) = val_main_v83 (F := F) (V (Proc.devRef .tc main_arg1)) := by
  rw [after_local opsG Ws hWs 110 (hlt 110 (by decide)) V main_v83 (by decide)]
  have hop : (opsG (F := F))[110]'(hlt 110 (by decide)) = unary main_v82 main_v83 (broadcastInDim S1700000x40 ![0, 1] bcast_S1700000x1_S1700000x40_0_1 : (⟨S1700000x1, .f32⟩ : BufTy).Contents (Elt F) → (⟨S1700000x40, .f32⟩ : BufTy).Contents (Elt F)) := rfl
  rw [hop, unary_result, after_take opsG Ws hWs 110 V main_v82 (by decide), A_main_v82 V]
  rfl

theorem A_main_v84 (V : Valuation τ sig (Elt F)) :
    after opsG V (Proc.devRef .tc main_v84) = val_main_v84 (F := F) (V (Proc.devRef .tc main_arg0)) (V (Proc.devRef .tc main_arg1)) (V (Proc.devRef .tc main_arg2)) (V (Proc.devRef .tc main_arg3)) (V (Proc.devRef .tc main_arg4)) := by
  rw [after_local opsG Ws hWs 111 (hlt 111 (by decide)) V main_v84 (by decide)]
  have hop : (opsG (F := F))[111]'(hlt 111 (by decide)) = binary main_v81 main_v83 main_v84 (mulf : (⟨S1700000x40, .f32⟩ : BufTy).Contents (Elt F) → (⟨S1700000x40, .f32⟩ : BufTy).Contents (Elt F) → (⟨S1700000x40, .f32⟩ : BufTy).Contents (Elt F)) := rfl
  rw [hop, binary_result, after_take opsG Ws hWs 111 V main_v81 (by decide), A_main_v81 V, after_take opsG Ws hWs 111 V main_v83 (by decide), A_main_v83 V]
  rfl

theorem A_main_cst_19 (V : Valuation τ sig (Elt F)) :
    after opsG V (Proc.devRef .tc main_cst_19) = val_main_cst_19 (F := F) := by
  rw [after_local opsG Ws hWs 112 (hlt 112 (by decide)) V main_cst_19 (by decide)]
  have hop : (opsG (F := F))[112]'(hlt 112 (by decide)) = nullary main_cst_19 (constant S_ .f32 0x00000000#32) := rfl
  rw [hop, nullary_result]
  rfl

theorem A_main_v85 (V : Valuation τ sig (Elt F)) :
    after opsG V (Proc.devRef .tc main_v85) = val_main_v85 (F := F) := by
  rw [after_local opsG Ws hWs 113 (hlt 113 (by decide)) V main_v85 (by decide)]
  have hop : (opsG (F := F))[113]'(hlt 113 (by decide)) = unary main_cst_19 main_v85 (broadcastInDim S100000x40 ![] bcast_S_S100000x40 : (⟨S_, .f32⟩ : BufTy).Contents (Elt F) → (⟨S100000x40, .f32⟩ : BufTy).Contents (Elt F)) := rfl
  rw [hop, unary_result, after_take opsG Ws hWs 113 V main_cst_19 (by decide), A_main_cst_19 V]
  rfl

theorem A_main_v86 (V : Valuation τ sig (Elt F)) :
    after opsG V (Proc.devRef .tc main_v86) = val_main_v86 (F := F) (V (Proc.devRef .tc main_arg1)) := by
  rw [after_local opsG Ws hWs 114 (hlt 114 (by decide)) V main_v86 (by decide)]
  have hop : (opsG (F := F))[114]'(hlt 114 (by decide)) = unary main_v51 main_v86 (broadcastInDim S1700000x1 ![0] bcast_S1700000_S1700000x1_0 : (⟨S1700000, .i32⟩ : BufTy).Contents (Elt F) → (⟨S1700000x1, .i32⟩ : BufTy).Contents (Elt F)) := rfl
  rw [hop, unary_result, after_take opsG Ws hWs 114 V main_v51 (by decide), A_main_v51 V]
  rfl

theorem A_main_v87 (V : Valuation τ sig (Elt F)) :
    after opsG V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) := by
  rw [after_local opsG Ws hWs 115 (hlt 115 (by decide)) V main_v87 (by decide)]
  have hop : (opsG (F := F))[115]'(hlt 115 (by decide)) = ternary main_v85 main_v86 main_v84 main_v87 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)) := rfl
  rw [hop, ternary_result, after_take opsG Ws hWs 115 V main_v85 (by decide), A_main_v85 V, after_take opsG Ws hWs 115 V main_v86 (by decide), A_main_v86 V, after_take opsG Ws hWs 115 V main_v84 (by decide), A_main_v84 V]
  rfl

theorem A_main_v88 (V : Valuation τ sig (Elt F)) :
    after opsG V (Proc.devRef .tc main_v88) = val_main_v88 (F := F) (V (Proc.devRef .tc main_arg5)) := by
  rw [after_local opsG Ws hWs 116 (hlt 116 (by decide)) V main_v88 (by decide)]
  have hop : (opsG (F := F))[116]'(hlt 116 (by decide)) = unary main_arg5 main_v88 (broadcastInDim S1x40 ![1] bcast_S40_S1x40_1 : (⟨S40, .f32⟩ : BufTy).Contents (Elt F) → (⟨S1x40, .f32⟩ : BufTy).Contents (Elt F)) := rfl
  rw [hop, unary_result, after_take opsG Ws hWs 116 V main_arg5 (by decide), keepG_arg5 V]
  rfl

theorem A_main_v89 (V : Valuation τ sig (Elt F)) :
    after opsG V (Proc.devRef .tc main_v89) = val_main_v89 (F := F) (V (Proc.devRef .tc main_arg5)) := by
  rw [after_local opsG Ws hWs 117 (hlt 117 (by decide)) V main_v89 (by decide)]
  have hop : (opsG (F := F))[117]'(hlt 117 (by decide)) = unary main_v88 main_v89 (broadcastInDim S100000x40 ![0, 1] bcast_S1x40_S100000x40_0_1 : (⟨S1x40, .f32⟩ : BufTy).Contents (Elt F) → (⟨S100000x40, .f32⟩ : BufTy).Contents (Elt F)) := rfl
  rw [hop, unary_result, after_take opsG Ws hWs 117 V main_v88 (by decide), A_main_v88 V]
  rfl

theorem A_main_v90 (V : Valuation τ sig (Elt F)) :
    after opsG V (Proc.devRef .tc main_v90) = val_main_v90 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 118 (hlt 118 (by decide)) V main_v90 (by decide)]
  have hop : (opsG (F := F))[118]'(hlt 118 (by decide)) = binary main_v87 main_v89 main_v90 (addf : (⟨S100000x40, .f32⟩ : BufTy).Contents (Elt F) → (⟨S100000x40, .f32⟩ : BufTy).Contents (Elt F) → (⟨S100000x40, .f32⟩ : BufTy).Contents (Elt F)) := rfl
  rw [hop, binary_result, after_take opsG Ws hWs 118 V main_v87 (by decide), A_main_v87 V, after_take opsG Ws hWs 118 V main_v89 (by decide), A_main_v89 V]
  rfl

theorem A_main_call3_cst (V : Valuation τ sig (Elt F)) :
    after opsG V (Proc.devRef .tc main_call3_cst) = val_main_call3_cst (F := F) := by
  rw [after_local opsG Ws hWs 119 (hlt 119 (by decide)) V main_call3_cst (by decide)]
  have hop : (opsG (F := F))[119]'(hlt 119 (by decide)) = TRef.nullary (TRef.of (T := ⟨S_, .f32⟩) main_call3_cst) (constant S_ .f32 0xFF800000#32) := rfl
  rw [hop, nullary_result]
  rfl

theorem A_main_call3_v0 (V : Valuation τ sig (Elt F)) :
    after opsG V (Proc.devRef .tc main_call3_v0) = val_main_call3_v0 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 120 (hlt 120 (by decide)) V main_call3_v0 (by decide)]
  have hop : (opsG (F := F))[120]'(hlt 120 (by decide)) = TRef.binary (TRef.of (T := ⟨S100000x40, .f32⟩) main_v90) (TRef.of (T := ⟨S_, .f32⟩) main_call3_cst) (TRef.of (T := ⟨S100000, .f32⟩) main_call3_v0) (fun x v => Host.reduce FloatOps.maximumf x v reducesTo_S100000x40_S100000_d1 h_S_) := rfl
  rw [hop, binary_result, after_take opsG Ws hWs 120 V main_v90 (by decide), A_main_v90 V, after_take opsG Ws hWs 120 V main_call3_cst (by decide), A_main_call3_cst V]
  simp only [TRef.toBuf, TRef.ofBuf, cast_eq]
  rfl

theorem A_main_call3_cst_0 (V : Valuation τ sig (Elt F)) :
    after opsG V (Proc.devRef .tc main_call3_cst_0) = val_main_call3_cst_0 (F := F) := by
  rw [after_local opsG Ws hWs 121 (hlt 121 (by decide)) V main_call3_cst_0 (by decide)]
  have hop : (opsG (F := F))[121]'(hlt 121 (by decide)) = TRef.nullary (TRef.of (T := ⟨S_, .f32⟩) main_call3_cst_0) (constant S_ .f32 0xFF800000#32) := rfl
  rw [hop, nullary_result]
  rfl

theorem A_main_call3_v1 (V : Valuation τ sig (Elt F)) :
    after opsG V (Proc.devRef .tc main_call3_v1) = val_main_call3_v1 (F := F) := by
  rw [after_local opsG Ws hWs 122 (hlt 122 (by decide)) V main_call3_v1 (by decide)]
  have hop : (opsG (F := F))[122]'(hlt 122 (by decide)) = TRef.unary (TRef.of (T := ⟨S_, .f32⟩) main_call3_cst_0) (TRef.of (T := ⟨S100000, .f32⟩) main_call3_v1) (broadcastInDim S100000 ![] bcast_S_S100000) := rfl
  rw [hop, unary_result, after_take opsG Ws hWs 122 V main_call3_cst_0 (by decide), A_main_call3_cst_0 V]
  rfl

theorem A_main_call3_v2 (V : Valuation τ sig (Elt F)) :
    after opsG V (Proc.devRef .tc main_call3_v2) = val_main_call3_v2 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 123 (hlt 123 (by decide)) V main_call3_v2 (by decide)]
  have hop : (opsG (F := F))[123]'(hlt 123 (by decide)) = TRef.binary (TRef.of (T := ⟨S100000, .f32⟩) main_call3_v1) (TRef.of (T := ⟨S100000, .f32⟩) main_call3_v0) (TRef.of (T := ⟨S100000, .f32⟩) main_call3_v2) maximumf := rfl
  rw [hop, binary_result, after_take opsG Ws hWs 123 V main_call3_v1 (by decide), A_main_call3_v1 V, after_take opsG Ws hWs 123 V main_call3_v0 (by decide), A_main_call3_v0 V]
  have eY : ∀ v, (TRef.of (T := ⟨S100000, .f32⟩) main_call3_v2).toBuf (Val := Elt F) v = v := fun _ => rfl
  have e0 : ∀ v, (TRef.of (T := ⟨S100000, .f32⟩) main_call3_v1).ofBuf (Val := Elt F) v = v := fun _ => rfl
  have e1 : ∀ v, (TRef.of (T := ⟨S100000, .f32⟩) main_call3_v0).ofBuf (Val := Elt F) v = v := fun _ => rfl
  rw [eY, e0, e1]
  rfl

theorem A_main_call3_v3 (V : Valuation τ sig (Elt F)) :
    after opsG V (Proc.devRef .tc main_call3_v3) = val_main_call3_v3 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 124 (hlt 124 (by decide)) V main_call3_v3 (by decide)]
  have hop : (opsG (F := F))[124]'(hlt 124 (by decide)) = TRef.unary (TRef.of (T := ⟨S100000, .f32⟩) main_call3_v2) (TRef.of (T := ⟨S100000x1, .f32⟩) main_call3_v3) (broadcastInDim S100000x1 ![0] bcast_S100000_S100000x1_0) := rfl
  rw [hop, unary_result, after_take opsG Ws hWs 124 V main_call3_v2 (by decide), A_main_call3_v2 V]
  rfl

theorem A_main_call3_v4 (V : Valuation τ sig (Elt F)) :
    after opsG V (Proc.devRef .tc main_call3_v4) = val_main_call3_v4 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 125 (hlt 125 (by decide)) V main_call3_v4 (by decide)]
  have hop : (opsG (F := F))[125]'(hlt 125 (by decide)) = TRef.unary (TRef.of (T := ⟨S100000x1, .f32⟩) main_call3_v3) (TRef.of (T := ⟨S100000x40, .f32⟩) main_call3_v4) (broadcastInDim S100000x40 ![0, 1] bcast_S100000x1_S100000x40_0_1) := rfl
  rw [hop, unary_result, after_take opsG Ws hWs 125 V main_call3_v3 (by decide), A_main_call3_v3 V]
  rfl

theorem A_main_call3_v5 (V : Valuation τ sig (Elt F)) :
    after opsG V (Proc.devRef .tc main_call3_v5) = val_main_call3_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 126 (hlt 126 (by decide)) V main_call3_v5 (by decide)]
  have hop : (opsG (F := F))[126]'(hlt 126 (by decide)) = TRef.binary (TRef.of (T := ⟨S100000x40, .f32⟩) main_v90) (TRef.of (T := ⟨S100000x40, .f32⟩) main_call3_v4) (TRef.of (T := ⟨S100000x40, .f32⟩) main_call3_v5) subf := rfl
  rw [hop, binary_result, after_take opsG Ws hWs 126 V main_v90 (by decide), A_main_v90 V, after_take opsG Ws hWs 126 V main_call3_v4 (by decide), A_main_call3_v4 V]
  rfl

theorem A_main_call3_v6 (V : Valuation τ sig (Elt F)) :
    after opsG V (Proc.devRef .tc main_call3_v6) = val_main_call3_v6 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 127 (hlt 127 (by decide)) V main_call3_v6 (by decide)]
  have hop : (opsG (F := F))[127]'(hlt 127 (by decide)) = TRef.unary (TRef.of (T := ⟨S100000x40, .f32⟩) main_call3_v5) (TRef.of (T := ⟨S100000x40, .f32⟩) main_call3_v6) Host.exp := rfl
  rw [hop, unary_result, after_take opsG Ws hWs 127 V main_call3_v5 (by decide), A_main_call3_v5 V]
  rfl

theorem A_main_call3_cst_1 (V : Valuation τ sig (Elt F)) :
    after opsG V (Proc.devRef .tc main_call3_cst_1) = val_main_call3_cst_1 (F := F) := by
  rw [after_local opsG Ws hWs 128 (hlt 128 (by decide)) V main_call3_cst_1 (by decide)]
  have hop : (opsG (F := F))[128]'(hlt 128 (by decide)) = TRef.nullary (TRef.of (T := ⟨S_, .f32⟩) main_call3_cst_1) (constant S_ .f32 0x00000000#32) := rfl
  rw [hop, nullary_result]
  rfl

theorem A_main_call3_v7 (V : Valuation τ sig (Elt F)) :
    after opsG V (Proc.devRef .tc main_call3_v7) = val_main_call3_v7 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 129 (hlt 129 (by decide)) V main_call3_v7 (by decide)]
  have hop : (opsG (F := F))[129]'(hlt 129 (by decide)) = TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) := rfl
  rw [hop, binary_result, after_take opsG Ws hWs 129 V main_call3_v6 (by decide), A_main_call3_v6 V, after_take opsG Ws hWs 129 V main_call3_cst_1 (by decide), A_main_call3_cst_1 V]
  rfl

theorem A_main_call3_v8 (V : Valuation τ sig (Elt F)) :
    after opsG V (Proc.devRef .tc main_call3_v8) = val_main_call3_v8 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 130 (hlt 130 (by decide)) V main_call3_v8 (by decide)]
  have hop : (opsG (F := F))[130]'(hlt 130 (by decide)) = TRef.unary (TRef.of (T := ⟨S100000, .f32⟩) main_call3_v7) (TRef.of (T := ⟨S100000x1, .f32⟩) main_call3_v8) (broadcastInDim S100000x1 ![0] bcast_S100000_S100000x1_0) := rfl
  rw [hop, unary_result, after_take opsG Ws hWs 130 V main_call3_v7 (by decide), A_main_call3_v7 V]
  rfl

theorem A_main_call3_v9 (V : Valuation τ sig (Elt F)) :
    after opsG V (Proc.devRef .tc main_call3_v9) = val_main_call3_v9 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 131 (hlt 131 (by decide)) V main_call3_v9 (by decide)]
  have hop : (opsG (F := F))[131]'(hlt 131 (by decide)) = TRef.unary (TRef.of (T := ⟨S100000x1, .f32⟩) main_call3_v8) (TRef.of (T := ⟨S100000x1, .f32⟩) main_call3_v9) Host.log := rfl
  rw [hop, unary_result, after_take opsG Ws hWs 131 V main_call3_v8 (by decide), A_main_call3_v8 V]
  rfl

theorem A_main_call3_v10 (V : Valuation τ sig (Elt F)) :
    after opsG V (Proc.devRef .tc main_call3_v10) = val_main_call3_v10 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 132 (hlt 132 (by decide)) V main_call3_v10 (by decide)]
  have hop : (opsG (F := F))[132]'(hlt 132 (by decide)) = TRef.unary (TRef.of (T := ⟨S100000x1, .f32⟩) main_call3_v9) (TRef.of (T := ⟨S100000x40, .f32⟩) main_call3_v10) (broadcastInDim S100000x40 ![0, 1] bcast_S100000x1_S100000x40_0_1) := rfl
  rw [hop, unary_result, after_take opsG Ws hWs 132 V main_call3_v9 (by decide), A_main_call3_v9 V]
  rfl

theorem A_main_v91 (V : Valuation τ sig (Elt F)) :
    after opsG V (Proc.devRef .tc main_v91) = val_main_v91 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_local opsG Ws hWs 133 (hlt 133 (by decide)) V main_v91 (by decide)]
  have hop : (opsG (F := F))[133]'(hlt 133 (by decide)) = TRef.binary (TRef.of (T := ⟨S100000x40, .f32⟩) main_call3_v5) (TRef.of (T := ⟨S100000x40, .f32⟩) main_call3_v10) (TRef.of (T := ⟨S100000x40, .f32⟩) main_v91) subf := rfl
  rw [hop, binary_result, after_take opsG Ws hWs 133 V main_call3_v5 (by decide), A_main_call3_v5 V, after_take opsG Ws hWs 133 V main_call3_v10 (by decide), A_main_call3_v10 V]
  rfl

end Cert.ReferenceIdeal.RefValue

end
-- ==== Proof.RefBridge.lean ====
/-
  The reference program's run: from any memory, every weakly fair execution terminates with the result buffer at the
  stage `val_main_v91` of the launch arguments and the arguments unchanged.
-/
import proofs.«157511_j56384330662074_2_alg».proof.Proof.RefBridge5

set_option maxRecDepth 8192

noncomputable section

namespace Cert.ReferenceIdeal.RefValue

open Cert.ReferenceIdeal Cert.ReferenceIdeal.Gen Cert.ReferenceIdeal.ReadP Cert.ReferenceIdeal.ValueP Cert.LibAfter
open Idealize.ShloMosaic Idealize.ShloMosaic.TcCoe Idealize.ShloMosaic.StableHlo Idealize.SL.Sem

/-- The result buffer after the line is the last stage at the arguments. -/
theorem bridge (V : Valuation τ sig (Elt Ideal)) :
    after (ops (F := Ideal)) V (Proc.devRef .tc main_v91)
      = val_main_v91 (F := Ideal) (V (Proc.devRef .tc main_arg0)) (V (Proc.devRef .tc main_arg1))
          (V (Proc.devRef .tc main_arg2)) (V (Proc.devRef .tc main_arg3)) (V (Proc.devRef .tc main_arg4))
          (V (Proc.devRef .tc main_arg5)) :=
  A_main_v91 (F := Ideal) V

theorem keep_arg0 (V : Valuation τ sig (Elt Ideal)) :
    after (ops (F := Ideal)) V (Proc.devRef .tc main_arg0) = V (Proc.devRef .tc main_arg0) :=
  keepG_arg0 (F := Ideal) V

theorem keep_arg1 (V : Valuation τ sig (Elt Ideal)) :
    after (ops (F := Ideal)) V (Proc.devRef .tc main_arg1) = V (Proc.devRef .tc main_arg1) :=
  keepG_arg1 (F := Ideal) V

theorem keep_arg2 (V : Valuation τ sig (Elt Ideal)) :
    after (ops (F := Ideal)) V (Proc.devRef .tc main_arg2) = V (Proc.devRef .tc main_arg2) :=
  keepG_arg2 (F := Ideal) V

theorem keep_arg3 (V : Valuation τ sig (Elt Ideal)) :
    after (ops (F := Ideal)) V (Proc.devRef .tc main_arg3) = V (Proc.devRef .tc main_arg3) :=
  keepG_arg3 (F := Ideal) V

theorem keep_arg4 (V : Valuation τ sig (Elt Ideal)) :
    after (ops (F := Ideal)) V (Proc.devRef .tc main_arg4) = V (Proc.devRef .tc main_arg4) :=
  keepG_arg4 (F := Ideal) V

theorem keep_arg5 (V : Valuation τ sig (Elt Ideal)) :
    after (ops (F := Ideal)) V (Proc.devRef .tc main_arg5) = V (Proc.devRef .tc main_arg5) :=
  keepG_arg5 (F := Ideal) V

/-- On every device, from any memory with zero counters: every weakly fair execution of @main terminates with the
    result at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91)
        = val_main_v91 (F := Ideal) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (bridge _),
      (h c main_arg0).trans (keep_arg0 _),
      (h c main_arg1).trans (keep_arg1 _),
      (h c main_arg2).trans (keep_arg2 _),
      (h c main_arg3).trans (keep_arg3 _),
      (h c main_arg4).trans (keep_arg4 _),
      (h c main_arg5).trans (keep_arg5 _)⟩)
    (run_seq scopedRefs_eq scopedSems_eq defs main (fun _ => ops) main_eq (fun _ => ops_sub) m ρ)

end Cert.ReferenceIdeal.RefValue

end
-- ==== Proof.RefOps.lean ====
/-
  The reference program's data-dependent operations at its own extents, read at an index: the join of the given edges
  with the self loops, the column of wrapped index words, the lookups of rows and of single elements, and the
  accumulating scatters into a zero table. Stated for arbitrary operands, so each is used for both layers.
-/
import proofs.«157511_j56384330662074_2_alg».proof.Proof.Gen.ReferenceIdeal
import proofs.«157511_j56384330662074_2_alg».proof.Proof.LibScatterGather
import proofs.«157511_j56384330662074_2_alg».proof.Proof.GcnSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.Gcn Idealize.ShloMosaic Idealize.ShloMosaic.ValueIdx

/-- The word `0x3F800000` denotes the number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- A rank-one index is determined by its coordinate. -/
theorem idx1_ext {n : ℕ} (f : (⟨1, ![n]⟩ : Shape).Idx) (j : Fin n) (h : (f 0).val = j.val) : f = ix1 j := by
  funext a
  match a with
  | ⟨0, _⟩ => exact Fin.ext h

/-- A rank-two index is determined by its two coordinates. -/
theorem idx2_ext {n m : ℕ} (f : (⟨2, ![n, m]⟩ : Shape).Idx) (a : Fin n) (b : Fin m)
    (h0 : (f 0).val = a.val) (h1 : (f 1).val = b.val) : f = ix2 a b := by
  funext c
  match c with
  | ⟨0, _⟩ => exact Fin.ext h0
  | ⟨1, _⟩ => exact Fin.ext h1

/-- The join of the `1600000` given words with the `100000` loop words, read at a given edge. -/
theorem cat_left (x : S1600000.Idx → BitVec 32) (y : S100000.Idx → BitVec 32) (j : Fin 1600000) :
    concatenate S1700000 0 [⟨S1600000, x⟩, ⟨S100000, y⟩] concatenates_S1600000_S100000_S1700000_d0
      (ix1 (Fin.castAdd 100000 j)) = x (ix1 j) :=
  concatenate_pair_apply_left (0 : Fin S1700000.rank) x y concatenates_S1600000_S100000_S1700000_d0 _ rfl (ix1 j)
    (fun b => match b with | ⟨0, _⟩ => rfl)

/-- The same join read at a self loop. -/
theorem cat_right (x : S1600000.Idx → BitVec 32) (y : S100000.Idx → BitVec 32) (r : Fin 100000) :
    concatenate S1700000 0 [⟨S1600000, x⟩, ⟨S100000, y⟩] concatenates_S1600000_S100000_S1700000_d0
      (ix1 (Fin.natAdd 1600000 r)) = y (ix1 r) :=
  concatenate_pair_apply_right (0 : Fin S1700000.rank) x y concatenates_S1600000_S100000_S1700000_d0 _ rfl rfl (ix1 r)
    (fun b hb => match b, hb with | ⟨0, _⟩, hb => absurd rfl hb)
    (by show r.val + 1600000 = 1600000 + r.val; omega)

/-- A list of words laid out as a one-column table: entry `(j, 0)` is word `j`. -/
theorem col_apply {α : Type} (y : S1700000.Idx → α) (j : Fin 1700000) :
    broadcastInDim S1700000x1 ![0] bcast_S1700000_S1700000x1_0 y (ix2 j (0 : Fin 1)) = y (ix1 j) :=
  broadcastInDim_apply _ bcast_S1700000_S1700000x1_0 y (ix2 j (0 : Fin 1)) (ix1 j) (fun a => match a with
    | ⟨0, _⟩ => by show j.val = if (1700000 : Nat) = 1 then 0 else j.val; rw [if_neg (by decide)])

/-- The column of index words a lookup is given: each word wrapped once by the number of rows when negative. -/
theorem wrapcol_apply (w z c : S1700000.Idx → BitVec 32) (hz : ∀ i, z i = 0#32) (hc : ∀ i, c i = 100000#32)
    (j : Fin 1700000) :
    broadcastInDim S1700000x1 ![0] bcast_S1700000_S1700000x1_0 (select (cmpi .slt w z) (addi w c) w) (ix2 j (0 : Fin 1))
      = wrapW 100000#32 (w (ix1 j)) := by
  rw [col_apply]
  show Scalar.select (IntOp.cmpi .slt (w (ix1 j)) (z (ix1 j))) (IntOp.addi (w (ix1 j)) (c (ix1 j))) (w (ix1 j)) = _
  rw [hz, hc]
  rfl

/-- A lookup of single elements of a node vector at a column of wrapped words. -/
theorem gatherFlat_at {α : Type} (x : S100000.Idx → α) (idx : S1700000x1.Idx → BitVec 32) (w : Fin 1700000 → BitVec 32)
    (hidx : ∀ j, idx (ix2 j (0 : Fin 1)) = wrapW 100000#32 (w j)) (j : Fin 1700000) :
    Host.gather gather_S100000_S1700000x1_S1700000_n_0_n_n_0_1_1 x idx (ix1 j)
      = x (ix1 (srcRow 100000 (by decide) 100000#32 (w j))) := by
  show Host.gather (Cert.LibSG.flatGatherDims 100000 1700000 _) x idx (ix1 j) = _
  rw [Cert.LibSG.gather_flat_apply (by decide)]
  simp only [hidx]
  rfl

/-- A lookup of whole rows of a `64`-column node table at a column of wrapped words. -/
theorem gatherRow64_at {α : Type} (x : S100000x64.Idx → α) (idx : S1700000x1.Idx → BitVec 32) (w : Fin 1700000 → BitVec 32)
    (hidx : ∀ j, idx (ix2 j (0 : Fin 1)) = wrapW 100000#32 (w j)) (j : Fin 1700000) (k : Fin 64) :
    Host.gather gather_S100000x64_S1700000x1_S1700000x64_1_0_n_n_0_1_164 x idx (ix2 j k)
      = x (ix2 (srcRow 100000 (by decide) 100000#32 (w j)) k) := by
  show Host.gather (Cert.LibSG.rowGatherDims 100000 1700000 64 _) x idx (ix2 j k) = _
  rw [Cert.LibSG.gather_row_apply (by decide)]
  simp only [hidx]
  rfl

/-- A lookup of whole rows of a `40`-column node table at a column of wrapped words. -/
theorem gatherRow40_at {α : Type} (x : S100000x40.Idx → α) (idx : S1700000x1.Idx → BitVec 32) (w : Fin 1700000 → BitVec 32)
    (hidx : ∀ j, idx (ix2 j (0 : Fin 1)) = wrapW 100000#32 (w j)) (j : Fin 1700000) (k : Fin 40) :
    Host.gather gather_S100000x40_S1700000x1_S1700000x40_1_0_n_n_0_1_140 x idx (ix2 j k)
      = x (ix2 (srcRow 100000 (by decide) 100000#32 (w j)) k) := by
  show Host.gather (Cert.LibSG.rowGatherDims 100000 1700000 40 _) x idx (ix2 j k) = _
  rw [Cert.LibSG.gather_row_apply (by decide)]
  simp only [hidx]
  rfl

/-- The accumulating scatter of ones into zeros at node `r`, for a column of index words whose entry `j` is the word
    `d j`: the number of positions whose word, read signed, is `r`. -/
theorem scatter_ones (z : S100000.Idx → EReal) (idx : S1700000x1.Idx → BitVec 32) (u : S1700000.Idx → EReal)
    (d : Fin 1700000 → BitVec 32) (hz : ∀ r : Fin 100000, z (ix1 r) = 0)
    (hidx : ∀ j : Fin 1700000, idx (ix2 j (0 : Fin 1)) = d j) (hu : ∀ j : Fin 1700000, u (ix1 j) = 1) (r : Fin 100000) :
    Host.scatterAdd (F := Ideal) (φ := .f32) scatter_S100000_S1700000x1_S1700000_n_0_0_1 z idx u (ix1 r) = degLoops d r := by
  show Ideal.hostScatterAdd (Cert.LibSG.flatScatterDims 100000 1700000 _) z idx u (ix1 r) = _
  rw [Cert.LibSG.scatterAdd_flat_apply, hz, zero_add]
  simp only [hidx, hu]
  rfl

/-- The accumulating scatter of `64`-column update rows into a zero table at `(i, k)`: column `k` of the update rows
    whose word, read signed, is `i`. -/
theorem scatterRow64_at (z : S100000x64.Idx → EReal) (idx : S1700000x1.Idx → BitVec 32) (u : S1700000x64.Idx → EReal)
    (d : Fin 1700000 → BitVec 32) (hz : ∀ (i : Fin 100000) (k : Fin 64), z (ix2 i k) = 0)
    (hidx : ∀ j : Fin 1700000, idx (ix2 j (0 : Fin 1)) = d j) (i : Fin 100000) (k : Fin 64) :
    Host.scatterAdd (F := Ideal) (φ := .f32) scatter_S100000x64_S1700000x1_S1700000x64_1_0_0_1 z idx u (ix2 i k)
      = ∑ j ∈ lands d i, u (ix2 j k) := by
  show Ideal.hostScatterAdd (Cert.LibSG.rowScatterDims 100000 1700000 64 _) z idx u (ix2 i k) = _
  rw [Cert.LibSG.scatterAdd_row_apply, hz, zero_add]
  simp only [hidx]
  rfl

/-- The same for `40`-column update rows. -/
theorem scatterRow40_at (z : S100000x40.Idx → EReal) (idx : S1700000x1.Idx → BitVec 32) (u : S1700000x40.Idx → EReal)
    (d : Fin 1700000 → BitVec 32) (hz : ∀ (i : Fin 100000) (k : Fin 40), z (ix2 i k) = 0)
    (hidx : ∀ j : Fin 1700000, idx (ix2 j (0 : Fin 1)) = d j) (i : Fin 100000) (k : Fin 40) :
    Host.scatterAdd (F := Ideal) (φ := .f32) scatter_S100000x40_S1700000x1_S1700000x40_1_0_0_1 z idx u (ix2 i k)
      = ∑ j ∈ lands d i, u (ix2 j k) := by
  show Ideal.hostScatterAdd (Cert.LibSG.rowScatterDims 100000 1700000 40 _) z idx u (ix2 i k) = _
  rw [Cert.LibSG.scatterAdd_row_apply, hz, zero_add]
  simp only [hidx]
  rfl

end Cert.ReferenceIdeal.RefValue

end
-- ==== Proof.RefDeg.lean ====
/-
  The reference program's edge lists and degrees, read index by index.

  The reference appends one self loop `r → r` per node to the `1600000` given edges, by joining an iota to each row of the
  edge list; the degree of a node is the accumulating scatter of a one per edge into a zero vector, i.e. the number of
  edges (self loops included) whose target word, read signed, is the node; the normalisation is its inverse square root
  where the degree is positive. The second layer rebuilds the same lists and degrees in fresh buffers.
-/
import proofs.«157511_j56384330662074_2_alg».proof.Proof.RefRead
import proofs.«157511_j56384330662074_2_alg».proof.Proof.LibScatterGather
import proofs.«157511_j56384330662074_2_alg».proof.Proof.GcnSpec
import proofs.«157511_j56384330662074_2_alg».proof.Proof.RefOps

noncomputable section

namespace Cert.ReferenceIdeal.RefValue

open Cert.ReferenceIdeal Cert.ReferenceIdeal.ReadP Cert.Gcn Idealize.ShloMosaic Idealize.ShloMosaic.ValueIdx

/-- The source words of the `1700000` edges: the given ones, then the self loops. -/
def sW (x1 : S2x1600000.Idx → BitVec 32) (j : Fin 1700000) : BitVec 32 := val_main_v6 (F := Ideal) x1 (ix1 j)

/-- The target words of the `1700000` edges: the given ones, then the self loops. -/
def dW (x1 : S2x1600000.Idx → BitVec 32) (j : Fin 1700000) : BitVec 32 := val_main_v7 (F := Ideal) x1 (ix1 j)

/-- Row `0` of the edge list, flattened, at `j`. -/
theorem v1_apply (x1 : S2x1600000.Idx → BitVec 32) (j : Fin 1600000) :
    val_main_v1 (F := Ideal) x1 (ix1 j) = x1 (ix2 (0 : Fin 2) j) := by
  rw [val_main_v1_apply, val_main_v0_apply]
  exact congrArg x1 (idx2_ext _ _ j rfl (Nat.mod_eq_of_lt j.isLt))

/-- Row `1` of the edge list, flattened, at `j`. -/
theorem v3_apply (x1 : S2x1600000.Idx → BitVec 32) (j : Fin 1600000) :
    val_main_v3 (F := Ideal) x1 (ix1 j) = x1 (ix2 (1 : Fin 2) j) := by
  rw [val_main_v3_apply, val_main_v2_apply]
  exact congrArg x1 (idx2_ext _ _ j rfl (Nat.mod_eq_of_lt j.isLt))

theorem sW_edge (x1 : S2x1600000.Idx → BitVec 32) (j : Fin 1600000) :
    sW x1 (Fin.castAdd 100000 j) = x1 (ix2 (0 : Fin 2) j) := by
  unfold sW val_main_v6
  rw [cat_left, v1_apply]

theorem dW_edge (x1 : S2x1600000.Idx → BitVec 32) (j : Fin 1600000) :
    dW x1 (Fin.castAdd 100000 j) = x1 (ix2 (1 : Fin 2) j) := by
  unfold dW val_main_v7
  rw [cat_left, v3_apply]

theorem sW_loop (x1 : S2x1600000.Idx → BitVec 32) (r : Fin 100000) :
    sW x1 (Fin.natAdd 1600000 r) = BitVec.ofNat 32 r.val := by
  unfold sW val_main_v6
  rw [cat_right]
  rfl

theorem dW_loop (x1 : S2x1600000.Idx → BitVec 32) (r : Fin 100000) :
    dW x1 (Fin.natAdd 1600000 r) = BitVec.ofNat 32 r.val := by
  unfold dW val_main_v7
  rw [cat_right]
  rfl

/-- The second layer's copies of the two word lists. -/
def sW' (x1 : S2x1600000.Idx → BitVec 32) (j : Fin 1700000) : BitVec 32 := val_main_v50 (F := Ideal) x1 (ix1 j)
def dW' (x1 : S2x1600000.Idx → BitVec 32) (j : Fin 1700000) : BitVec 32 := val_main_v51 (F := Ideal) x1 (ix1 j)

theorem sW'_eq (x1 : S2x1600000.Idx → BitVec 32) : sW' x1 = sW x1 := rfl
theorem dW'_eq (x1 : S2x1600000.Idx → BitVec 32) : dW' x1 = dW x1 := rfl

theorem v10_apply (x1 : S2x1600000.Idx → BitVec 32) (j : Fin 1700000) :
    val_main_v10 (F := Ideal) x1 (ix2 j (0 : Fin 1)) = dW x1 j := by
  unfold val_main_v10; exact col_apply _ j

theorem v54_apply (x1 : S2x1600000.Idx → BitVec 32) (j : Fin 1700000) :
    val_main_v54 (F := Ideal) x1 (ix2 j (0 : Fin 1)) = dW' x1 j := by
  unfold val_main_v54; exact col_apply _ j

/-- The reference's degree vector at node `r`: the edges, self loops included, landing on `r`. -/
theorem ref_deg (x1 : S2x1600000.Idx → BitVec 32) (r : Fin 100000) :
    val_main_v11 (F := Ideal) x1 (ix1 r) = degLoops (dW x1) r := by
  unfold val_main_v11
  refine scatter_ones _ _ _ (dW x1) (fun r => ?_) (v10_apply x1) (fun j => ?_) r
  · rw [val_main_v9_apply, val_main_cst_0_apply]; exact Ideal.ofBits_zero_f32
  · rw [val_main_v8_apply, val_main_cst_apply]; exact ofBits_one_f32

/-- The second layer's degree vector. -/
theorem ref_deg' (x1 : S2x1600000.Idx → BitVec 32) (r : Fin 100000) :
    val_main_v55 (F := Ideal) x1 (ix1 r) = degLoops (dW' x1) r := by
  unfold val_main_v55
  refine scatter_ones _ _ _ (dW' x1) (fun r => ?_) (v54_apply x1) (fun j => ?_) r
  · rw [val_main_v53_apply, val_main_cst_10_apply]; exact Ideal.ofBits_zero_f32
  · rw [val_main_v52_apply, val_main_cst_9_apply]; exact ofBits_one_f32

/-- The reference's normalisation at node `r`, its guard unresolved: the inverse square root of the degree where the
    degree is positive, zero elsewhere. -/
theorem ref_dinv_raw (x1 : S2x1600000.Idx → BitVec 32) (r : Fin 100000) :
    val_main_v15 (F := Ideal) x1 (ix1 r)
      = Scalar.select (Ideal.cmp .ogt (degLoops (dW x1) r) 0) (Ideal.rsqrt (degLoops (dW x1) r)) 0 := by
  rw [val_main_v15_apply, val_main_v13_apply, val_main_v14_apply, val_main_call0_v1_apply, val_main_call0_v0_apply,
    val_main_cst_2_apply, val_main_v12_apply, val_main_cst_1_apply, ref_deg]
  rw [Ideal.ofBits_def, Ideal.ofBits_zero_f32, Ideal.hostUnary_rsqrt_def]
  rfl

end Cert.ReferenceIdeal.RefValue

end
-- ==== Proof.RefLayer1.lean ====
/-
  The reference program's first layer, read index by index.

  Every edge `j` (self loops included) reads the row of the feature product named by its source word, wrapped and
  clamped, scales it by the product of the normalisations at the rows its source and target words name, and the
  accumulating scatter adds the scaled row to the node its target word names, read signed and not clamped; the bias is
  added last.
-/
import proofs.«157511_j56384330662074_2_alg».proof.Proof.RefDeg

noncomputable section

namespace Cert.ReferenceIdeal.RefValue

open Cert.ReferenceIdeal Cert.ReferenceIdeal.ReadP Cert.Gcn Idealize.ShloMosaic Idealize.ShloMosaic.ValueIdx

/-- The feature product `x · W₁` at `(r, k)`. -/
theorem v4_at (x0 : S100000x128.Idx → EReal) (x2 : S128x64.Idx → EReal) (r : Fin 100000) (k : Fin 64) :
    val_main_v4 (F := Ideal) x0 x2 (ix2 r k) = prod (fun r t => x0 (ix2 r t)) (fun t k => x2 (ix2 t k)) r k := by
  rw [val_main_v4_apply]
  unfold prod
  refine Finset.sum_congr rfl fun t _ => ?_
  rw [idx2_ext (lidx_main_v4 (ix2 r k) t) r t rfl rfl, idx2_ext (ridx_main_v4 (ix2 r k) t) t k rfl rfl]

/-- The index column of the lookup of the source normalisation. -/
theorem v21_at (x1 : S2x1600000.Idx → BitVec 32) (j : Fin 1700000) :
    val_main_v21 (F := Ideal) x1 (ix2 j (0 : Fin 1)) = wrapW 100000#32 (sW x1 j) := by
  unfold val_main_v21 val_main_v20 val_main_v17 val_main_v19
  exact wrapcol_apply _ _ _ (fun i => by rw [val_main_v16_apply]; rfl) (fun i => by rw [val_main_v18_apply]; rfl) j

/-- The index column of the lookup of the target normalisation. -/
theorem v28_at (x1 : S2x1600000.Idx → BitVec 32) (j : Fin 1700000) :
    val_main_v28 (F := Ideal) x1 (ix2 j (0 : Fin 1)) = wrapW 100000#32 (dW x1 j) := by
  unfold val_main_v28 val_main_v27 val_main_v24 val_main_v26
  exact wrapcol_apply _ _ _ (fun i => by rw [val_main_v23_apply]; rfl) (fun i => by rw [val_main_v25_apply]; rfl) j

/-- The index column of the lookup of the source rows. -/
theorem v36_at (x1 : S2x1600000.Idx → BitVec 32) (j : Fin 1700000) :
    val_main_v36 (F := Ideal) x1 (ix2 j (0 : Fin 1)) = wrapW 100000#32 (sW x1 j) := by
  unfold val_main_v36 val_main_v35 val_main_v32 val_main_v34
  exact wrapcol_apply _ _ _ (fun i => by rw [val_main_v31_apply]; rfl) (fun i => by rw [val_main_v33_apply]; rfl) j

/-- An edge's weight: the normalisations at the rows its two words name. -/
theorem v30_at (x1 : S2x1600000.Idx → BitVec 32) (j : Fin 1700000) :
    val_main_v30 (F := Ideal) x1 (ix1 j)
      = val_main_v15 (F := Ideal) x1 (ix1 (srcRow 100000 (by decide) 100000#32 (sW x1 j)))
        * val_main_v15 (F := Ideal) x1 (ix1 (srcRow 100000 (by decide) 100000#32 (dW x1 j))) := by
  rw [val_main_v30_apply]
  show val_main_v22 (F := Ideal) x1 (ix1 j) * val_main_v29 (F := Ideal) x1 (ix1 j) = _
  unfold val_main_v22 val_main_v29
  rw [gatherFlat_at _ _ (sW x1) (v21_at x1), gatherFlat_at _ _ (dW x1) (v28_at x1)]

/-- The weight spread along the `64` columns. -/
theorem v39_at (x1 : S2x1600000.Idx → BitVec 32) (j : Fin 1700000) (k : Fin 64) :
    val_main_v39 (F := Ideal) x1 (ix2 j k) = val_main_v30 (F := Ideal) x1 (ix1 j) := by
  rw [val_main_v39_apply, val_main_v38_apply]
  exact congrArg _ (idx1_ext _ j rfl)

/-- What edge `j` sends, column `k`. -/
theorem v40_at (x0 : S100000x128.Idx → EReal) (x1 : S2x1600000.Idx → BitVec 32) (x2 : S128x64.Idx → EReal) (j : Fin 1700000) (k : Fin 64) :
    val_main_v40 (F := Ideal) x0 x1 x2 (ix2 j k)
      = prod (fun r t => x0 (ix2 r t)) (fun t k => x2 (ix2 t k)) (srcRow 100000 (by decide) 100000#32 (sW x1 j)) k
        * (val_main_v15 (F := Ideal) x1 (ix1 (srcRow 100000 (by decide) 100000#32 (sW x1 j)))
          * val_main_v15 (F := Ideal) x1 (ix1 (srcRow 100000 (by decide) 100000#32 (dW x1 j)))) := by
  rw [val_main_v40_apply]
  show val_main_v37 (F := Ideal) x0 x1 x2 (ix2 j k) * val_main_v39 (F := Ideal) x1 (ix2 j k) = _
  rw [v39_at, v30_at]
  unfold val_main_v37
  rw [gatherRow64_at _ _ (sW x1) (v36_at x1), v4_at]

/-- The index column of the scatter: the target words, neither wrapped nor clamped. -/
theorem v42_at (x1 : S2x1600000.Idx → BitVec 32) (j : Fin 1700000) :
    val_main_v42 (F := Ideal) x1 (ix2 j (0 : Fin 1)) = dW x1 j := by
  unfold val_main_v42; exact col_apply _ j

/-- What node `i` receives, column `k`. -/
theorem v43_at (x0 : S100000x128.Idx → EReal) (x1 : S2x1600000.Idx → BitVec 32) (x2 : S128x64.Idx → EReal) (i : Fin 100000) (k : Fin 64) :
    val_main_v43 (F := Ideal) x0 x1 x2 (ix2 i k)
      = ∑ j ∈ lands (dW x1) i, val_main_v40 (F := Ideal) x0 x1 x2 (ix2 j k) := by
  unfold val_main_v43
  exact scatterRow64_at _ _ _ (dW x1)
    (fun i k => by rw [val_main_v41_apply, val_main_cst_8_apply]; exact Ideal.ofBits_zero_f32) (v42_at x1) i k

/-- The bias spread along the rows. -/
theorem v45_at (x3 : S64.Idx → EReal) (i : Fin 100000) (k : Fin 64) :
    val_main_v45 (F := Ideal) x3 (ix2 i k) = x3 (ix1 k) := by
  rw [val_main_v45_apply, val_main_v44_apply]
  exact congrArg _ (idx1_ext _ k rfl)

/-- The reference's first layer at `(i, k)`. -/
theorem ref_layer1 (x0 : S100000x128.Idx → EReal) (x1 : S2x1600000.Idx → BitVec 32) (x2 : S128x64.Idx → EReal) (x3 : S64.Idx → EReal)
    (i : Fin 100000) (k : Fin 64) :
    val_main_v46 (F := Ideal) x0 x1 x2 x3 (ix2 i k)
      = layerLoops (fun j => srcRow 100000 (by decide) 100000#32 (sW x1 j))
          (fun j => srcRow 100000 (by decide) 100000#32 (dW x1 j)) (dW x1)
          (prod (fun r t => x0 (ix2 r t)) (fun t k => x2 (ix2 t k))) (fun r => val_main_v15 (F := Ideal) x1 (ix1 r))
          (fun k => x3 (ix1 k)) i k := by
  rw [val_main_v46_apply]
  show val_main_v43 (F := Ideal) x0 x1 x2 (ix2 i k) + val_main_v45 (F := Ideal) x3 (ix2 i k) = _
  rw [v43_at, v45_at]
  unfold layerLoops
  simp only [v40_at]

end Cert.ReferenceIdeal.RefValue

end
-- ==== Proof.RefLayer2.lean ====
/-
  The reference program's second layer, read index by index: the first layer's road over fresh buffers, the node
  features now the rectified first layer.
-/
import proofs.«157511_j56384330662074_2_alg».proof.Proof.RefLayer1

noncomputable section

namespace Cert.ReferenceIdeal.RefValue

open Cert.ReferenceIdeal Cert.ReferenceIdeal.ReadP Cert.Gcn Idealize.ShloMosaic Idealize.ShloMosaic.ValueIdx

/-- The second normalisation is the first: the same operations on the same edge list. -/
theorem v59_eq (x1 : S2x1600000.Idx → BitVec 32) : val_main_v59 (F := Ideal) x1 = val_main_v15 (F := Ideal) x1 := rfl

/-- The second normalisation at node `r`, its guard unresolved. -/
theorem ref_dinv_raw' (x1 : S2x1600000.Idx → BitVec 32) (r : Fin 100000) :
    val_main_v59 (F := Ideal) x1 (ix1 r)
      = Scalar.select (Ideal.cmp .ogt (degLoops (dW x1) r) 0) (Ideal.rsqrt (degLoops (dW x1) r)) 0 := by
  rw [v59_eq]; exact ref_dinv_raw x1 r

/-- The feature product `relu(h) · W₂` at `(r, f)`. -/
theorem v48_at (x0 : S100000x128.Idx → EReal) (x1 : S2x1600000.Idx → BitVec 32) (x2 : S128x64.Idx → EReal) (x3 : S64.Idx → EReal)
    (x4 : S64x40.Idx → EReal) (r : Fin 100000) (f : Fin 40) :
    val_main_v48 (F := Ideal) x0 x1 x2 x3 x4 (ix2 r f)
      = prod (relu (fun r k => val_main_v46 (F := Ideal) x0 x1 x2 x3 (ix2 r k))) (fun t f => x4 (ix2 t f)) r f := by
  rw [val_main_v48_apply]
  unfold prod relu
  refine Finset.sum_congr rfl fun t _ => ?_
  rw [idx2_ext (lidx_main_v48 (ix2 r f) t) r t rfl rfl, idx2_ext (ridx_main_v48 (ix2 r f) t) t f rfl rfl,
    val_main_v47_apply, val_main_call1_v0_apply, val_main_call1_cst_apply]
  show max _ (Ideal.ofBits .f32 0x00000000#32) * _ = _
  rw [Ideal.ofBits_zero_f32]

/-- The index column of the lookup of the source normalisation. -/
theorem v65_at (x1 : S2x1600000.Idx → BitVec 32) (j : Fin 1700000) :
    val_main_v65 (F := Ideal) x1 (ix2 j (0 : Fin 1)) = wrapW 100000#32 (sW' x1 j) := by
  unfold val_main_v65 val_main_v64 val_main_v61 val_main_v63
  exact wrapcol_apply _ _ _ (fun i => by rw [val_main_v60_apply]; rfl) (fun i => by rw [val_main_v62_apply]; rfl) j

/-- The index column of the lookup of the target normalisation. -/
theorem v72_at (x1 : S2x1600000.Idx → BitVec 32) (j : Fin 1700000) :
    val_main_v72 (F := Ideal) x1 (ix2 j (0 : Fin 1)) = wrapW 100000#32 (dW' x1 j) := by
  unfold val_main_v72 val_main_v71 val_main_v68 val_main_v70
  exact wrapcol_apply _ _ _ (fun i => by rw [val_main_v67_apply]; rfl) (fun i => by rw [val_main_v69_apply]; rfl) j

/-- The index column of the lookup of the source rows. -/
theorem v80_at (x1 : S2x1600000.Idx → BitVec 32) (j : Fin 1700000) :
    val_main_v80 (F := Ideal) x1 (ix2 j (0 : Fin 1)) = wrapW 100000#32 (sW' x1 j) := by
  unfold val_main_v80 val_main_v79 val_main_v76 val_main_v78
  exact wrapcol_apply _ _ _ (fun i => by rw [val_main_v75_apply]; rfl) (fun i => by rw [val_main_v77_apply]; rfl) j

/-- An edge's weight: the normalisations at the rows its two words name. -/
theorem v74_at (x1 : S2x1600000.Idx → BitVec 32) (j : Fin 1700000) :
    val_main_v74 (F := Ideal) x1 (ix1 j)
      = val_main_v59 (F := Ideal) x1 (ix1 (srcRow 100000 (by decide) 100000#32 (sW' x1 j)))
        * val_main_v59 (F := Ideal) x1 (ix1 (srcRow 100000 (by decide) 100000#32 (dW' x1 j))) := by
  rw [val_main_v74_apply]
  show val_main_v66 (F := Ideal) x1 (ix1 j) * val_main_v73 (F := Ideal) x1 (ix1 j) = _
  unfold val_main_v66 val_main_v73
  rw [gatherFlat_at _ _ (sW' x1) (v65_at x1), gatherFlat_at _ _ (dW' x1) (v72_at x1)]

/-- The weight spread along the `40` columns. -/
theorem v83_at (x1 : S2x1600000.Idx → BitVec 32) (j : Fin 1700000) (f : Fin 40) :
    val_main_v83 (F := Ideal) x1 (ix2 j f) = val_main_v74 (F := Ideal) x1 (ix1 j) := by
  rw [val_main_v83_apply, val_main_v82_apply]
  exact congrArg _ (idx1_ext _ j rfl)

/-- What edge `j` sends, column `f`. -/
theorem v84_at (x0 : S100000x128.Idx → EReal) (x1 : S2x1600000.Idx → BitVec 32) (x2 : S128x64.Idx → EReal) (x3 : S64.Idx → EReal)
    (x4 : S64x40.Idx → EReal) (j : Fin 1700000) (f : Fin 40) :
    val_main_v84 (F := Ideal) x0 x1 x2 x3 x4 (ix2 j f)
      = prod (relu (fun r k => val_main_v46 (F := Ideal) x0 x1 x2 x3 (ix2 r k))) (fun t f => x4 (ix2 t f))
          (srcRow 100000 (by decide) 100000#32 (sW' x1 j)) f
        * (val_main_v59 (F := Ideal) x1 (ix1 (srcRow 100000 (by decide) 100000#32 (sW' x1 j)))
          * val_main_v59 (F := Ideal) x1 (ix1 (srcRow 100000 (by decide) 100000#32 (dW' x1 j)))) := by
  rw [val_main_v84_apply]
  show val_main_v81 (F := Ideal) x0 x1 x2 x3 x4 (ix2 j f) * val_main_v83 (F := Ideal) x1 (ix2 j f) = _
  rw [v83_at, v74_at]
  unfold val_main_v81
  rw [gatherRow40_at _ _ (sW' x1) (v80_at x1), v48_at]

/-- The index column of the scatter: the target words, neither wrapped nor clamped. -/
theorem v86_at (x1 : S2x1600000.Idx → BitVec 32) (j : Fin 1700000) :
    val_main_v86 (F := Ideal) x1 (ix2 j (0 : Fin 1)) = dW' x1 j := by
  unfold val_main_v86; exact col_apply _ j

/-- What node `i` receives, column `f`. -/
theorem v87_at (x0 : S100000x128.Idx → EReal) (x1 : S2x1600000.Idx → BitVec 32) (x2 : S128x64.Idx → EReal) (x3 : S64.Idx → EReal)
    (x4 : S64x40.Idx → EReal) (i : Fin 100000) (f : Fin 40) :
    val_main_v87 (F := Ideal) x0 x1 x2 x3 x4 (ix2 i f)
      = ∑ j ∈ lands (dW' x1) i, val_main_v84 (F := Ideal) x0 x1 x2 x3 x4 (ix2 j f) := by
  unfold val_main_v87
  exact scatterRow40_at _ _ _ (dW' x1)
    (fun i f => by rw [val_main_v85_apply, val_main_cst_19_apply]; exact Ideal.ofBits_zero_f32) (v86_at x1) i f

/-- The bias spread along the rows. -/
theorem v89_at (x5 : S40.Idx → EReal) (i : Fin 100000) (f : Fin 40) :
    val_main_v89 (F := Ideal) x5 (ix2 i f) = x5 (ix1 f) := by
  rw [val_main_v89_apply, val_main_v88_apply]
  exact congrArg _ (idx1_ext _ f rfl)

/-- The reference's second layer at `(i, f)`. -/
theorem ref_layer2 (x0 : S100000x128.Idx → EReal) (x1 : S2x1600000.Idx → BitVec 32) (x2 : S128x64.Idx → EReal) (x3 : S64.Idx → EReal)
    (x4 : S64x40.Idx → EReal) (x5 : S40.Idx → EReal) (i : Fin 100000) (f : Fin 40) :
    val_main_v90 (F := Ideal) x0 x1 x2 x3 x4 x5 (ix2 i f)
      = layerLoops (fun j => srcRow 100000 (by decide) 100000#32 (sW' x1 j))
          (fun j => srcRow 100000 (by decide) 100000#32 (dW' x1 j)) (dW' x1)
          (prod (relu (fun r k => val_main_v46 (F := Ideal) x0 x1 x2 x3 (ix2 r k))) (fun t f => x4 (ix2 t f)))
          (fun r => val_main_v59 (F := Ideal) x1 (ix1 r)) (fun f => x5 (ix1 f)) i f := by
  rw [val_main_v90_apply]
  show val_main_v87 (F := Ideal) x0 x1 x2 x3 x4 (ix2 i f) + val_main_v89 (F := Ideal) x5 (ix2 i f) = _
  rw [v87_at, v89_at]
  unfold layerLoops
  simp only [v84_at]

end Cert.ReferenceIdeal.RefValue

end
-- ==== Proof.RefNet.lean ====
/-
  The reference program's whole value is the network of the specification.

  Its two layers are the arrangement with the self loops as edges (the preceding modules); the given edges read the
  rows and land on the nodes the specification says, a self loop's word `r` reads row `r` and lands on node `r`, and
  the guarded normalisation is the specification's because a degree is positive. With real inputs the law of the two
  arrangements applies to both layers.
-/
import proofs.«157511_j56384330662074_2_alg».proof.Proof.RefLayer2
import proofs.«157511_j56384330662074_2_alg».proof.Proof.GcnNet

noncomputable section

namespace Cert.ReferenceIdeal.RefValue

open Cert.ReferenceIdeal Cert.ReferenceIdeal.ReadP Cert.Gcn Idealize.ShloMosaic Idealize.ShloMosaic.ValueIdx

/-- A self loop's word names its node. -/
theorem loop_toInt (r : Fin 100000) : (BitVec.ofNat 32 r.val).toInt = (r.val : ℤ) :=
  toInt_ofNat32 r.val (by have := r.isLt; omega)

/-- The reference's result at `(r, f)`, given that its last stage is the log-softmax of the second layer's rows. -/
theorem ref_net (x0 : S100000x128.Idx → EReal) (x1 : S2x1600000.Idx → BitVec 32) (x2 : S128x64.Idx → EReal) (x3 : S64.Idx → EReal)
    (x4 : S64x40.Idx → EReal) (x5 : S40.Idx → EReal)
    (hx0 : ∀ i, IsReal (x0 i)) (hx2 : ∀ i, IsReal (x2 i)) (hx3 : ∀ i, IsReal (x3 i)) (hx4 : ∀ i, IsReal (x4 i))
    (hsm : ∀ (r : Fin 100000) (f : Fin 40), val_main_v91 (F := Ideal) x0 x1 x2 x3 x4 x5 (ix2 r f)
      = logSoftmax (fun k => val_main_v90 (F := Ideal) x0 x1 x2 x3 x4 x5 (ix2 r k)) f)
    (r : Fin 100000) (f : Fin 40) :
    val_main_v91 (F := Ideal) x0 x1 x2 x3 x4 x5 (ix2 r f)
      = net (fun j : Fin 1600000 => srcRow 100000 (by decide) 100000#32 (x1 (ix2 (0 : Fin 2) j)))
          (fun j : Fin 1600000 => x1 (ix2 (1 : Fin 2) j))
          (fun r t => x0 (ix2 r t)) (fun t k => x2 (ix2 t k)) (fun k => x3 (ix1 k)) (fun t f => x4 (ix2 t f))
          (fun f => x5 (ix1 f)) r f := by
  rw [hsm]
  -- the first layer, as a function of the node and the column
  have h1 : (fun r k => val_main_v46 (F := Ideal) x0 x1 x2 x3 (ix2 r k))
      = layerLoops (fun j => srcRow 100000 (by decide) 100000#32 (sW x1 j))
          (fun j => srcRow 100000 (by decide) 100000#32 (dW x1 j)) (dW x1)
          (prod (fun r t => x0 (ix2 r t)) (fun t k => x2 (ix2 t k))) (fun r => val_main_v15 (F := Ideal) x1 (ix1 r))
          (fun k => x3 (ix1 k)) := by
    funext r k
    exact ref_layer1 x0 x1 x2 x3 r k
  -- the second layer's row `r`
  have h2 : (fun k => val_main_v90 (F := Ideal) x0 x1 x2 x3 x4 x5 (ix2 r k))
      = layerLoops (fun j => srcRow 100000 (by decide) 100000#32 (sW x1 j))
          (fun j => srcRow 100000 (by decide) 100000#32 (dW x1 j)) (dW x1)
          (prod (relu (layerLoops (fun j => srcRow 100000 (by decide) 100000#32 (sW x1 j))
            (fun j => srcRow 100000 (by decide) 100000#32 (dW x1 j)) (dW x1)
            (prod (fun r t => x0 (ix2 r t)) (fun t k => x2 (ix2 t k))) (fun r => val_main_v15 (F := Ideal) x1 (ix1 r))
            (fun k => x3 (ix1 k)))) (fun t f => x4 (ix2 t f)))
          (fun r => val_main_v59 (F := Ideal) x1 (ix1 r)) (fun f => x5 (ix1 f)) r := by
    funext k
    rw [ref_layer2, h1, sW'_eq, dW'_eq]
  rw [h2]
  have hdE : ∀ j : Fin 1600000, dW x1 (Fin.castAdd 100000 j) = x1 (ix2 (1 : Fin 2) j) := dW_edge x1
  have hdL : ∀ r : Fin 100000, (dW x1 (Fin.natAdd 1600000 r)).toInt = (r.val : ℤ) := fun r => by
    rw [dW_loop]; exact loop_toInt r
  exact netLoops_eq (n := 100000) (E := 1600000)
    (fun j => srcRow 100000 (by decide) 100000#32 (sW x1 j)) (fun j => srcRow 100000 (by decide) 100000#32 (dW x1 j))
    (dW x1) (fun j : Fin 1600000 => srcRow 100000 (by decide) 100000#32 (x1 (ix2 (0 : Fin 2) j)))
    (fun j : Fin 1600000 => x1 (ix2 (1 : Fin 2) j))
    (fun r t => x0 (ix2 r t)) (fun t k => x2 (ix2 t k)) (fun k => x3 (ix1 k)) (fun t f => x4 (ix2 t f))
    (fun f => x5 (ix1 f)) (fun r => val_main_v15 (F := Ideal) x1 (ix1 r)) (fun r => val_main_v59 (F := Ideal) x1 (ix1 r))
    (fun r => (ref_dinv_raw x1 r).trans (dinvLoops_select (n := 100000) (E := 1600000) (dW x1) _ hdE hdL r))
    (fun r => (ref_dinv_raw' x1 r).trans (dinvLoops_select (n := 100000) (E := 1600000) (dW x1) _ hdE hdL r))
    (fun r t => hx0 _) (fun t k => hx2 _) (fun k => hx3 _) (fun t k => hx4 _)
    hdE
    (fun j => congrArg (srcRow 100000 (by decide) 100000#32) (sW_edge x1 j))
    (fun j i h => by
      show srcRow 100000 _ 100000#32 (dW x1 (Fin.castAdd 100000 j)) = i
      rw [dW_edge]; exact srcRow_of_toInt _ _ _ i h)
    hdL
    (fun r => by
      show srcRow 100000 _ 100000#32 (sW x1 (Fin.natAdd 1600000 r)) = r
      rw [sW_loop]; exact srcRow_of_toInt _ _ _ r (loop_toInt r))
    (fun r => by
      show srcRow 100000 _ 100000#32 (dW x1 (Fin.natAdd 1600000 r)) = r
      rw [dW_loop]; exact srcRow_of_toInt _ _ _ r (loop_toInt r))
    r f

end Cert.ReferenceIdeal.RefValue

end
-- ==== Proof.RefSoftmax.lean ====
/-
  The reference's tail, read as mathematics: its last operations take the log-softmax of each row of the second layer's
  output. At (row, lane) the result is `logSoftmax` of that row: the row's maximum from `⊥` (a fold of `max` over the
  lanes, joined once more with `⊥`), the shifted row, the sum of its exponentials from `0`, the logarithm, the difference.
-/
import proofs.«157511_j56384330662074_2_alg».proof.Proof.RefRead
import proofs.«157511_j56384330662074_2_alg».proof.Proof.GcnSpec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Cert.Gcn
open Idealize.ShloMosaic Idealize.ShloMosaic.ValueIdx

/-- The word the maximum starts from is the bottom of the extended reals. -/
theorem ofBits_neg_inf_f32 : Ideal.ofBits .f32 0xFF800000#32 = ⊥ := by simp [Ideal.ofBits, Ideal.ieee]

/-- A row index with a lane coordinate inserted on axis 1 is the index (row, lane). -/
theorem lift_lane (h : Shape.Reduces S100000x40 [1] S100000) (r : Fin 100000) (k : Fin 40) :
    h.lift (ix1 r) k = ix2 r k := by
  funext a; apply Fin.ext
  match a with
  | ⟨0, _⟩ => rfl
  | ⟨1, _⟩ => rfl

/-- A max-reduce over the lanes from the bottom word, joined once more with that word, is the row's maximum. -/
theorem reduce_max_row (z : FVec Ideal S100000x40 .f32) (r : Fin 100000) :
    FloatOps.maximumf (FloatOps.ofBits (F := Ideal) .f32 0xFF800000#32)
      (Host.reduce FloatOps.maximumf z (val_main_call3_cst (F := Ideal)) reducesTo_S100000x40_S100000_d1 h_S_ (ix1 r))
      = rowMax (fun k : Fin 40 => z (ix2 r k)) := by
  have hR : Shape.Reduces S100000x40 [1] S100000 := by decide
  refine (congrArg (FloatOps.maximumf (FloatOps.ofBits (F := Ideal) .f32 0xFF800000#32))
    (Host.reduce_eq_fold_single FloatOps.maximumf z (val_main_call3_cst (F := Ideal)) reducesTo_S100000x40_S100000_d1 hR h_S_ (ix1 r))).trans ?_
  show max (Ideal.ofBits .f32 0xFF800000#32)
      ((Finset.univ : Finset (Fin 40)).fold max (Ideal.ofBits .f32 0xFF800000#32) (z ∘ hR.lift (ix1 r))) = _
  rw [ofBits_neg_inf_f32, max_eq_right bot_le]
  unfold rowMax
  congr 1
  funext k
  exact congrArg z (lift_lane hR r k)

/-- The maximum the reference subtracts, at a row: the row's maximum from `⊥`. -/
theorem ref_rowmax (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (r : Fin 100000) :
    val_main_call3_v2 (F := Ideal) x0 x1 x2 x3 x4 x5 (ix1 r)
      = rowMax (fun k : Fin 40 => val_main_v90 (F := Ideal) x0 x1 x2 x3 x4 x5 (ix2 r k)) := by
  rw [val_main_call3_v2_apply, val_main_call3_v1_apply, val_main_call3_cst_0_apply]
  unfold val_main_call3_v0
  exact reduce_max_row (val_main_v90 (F := Ideal) x0 x1 x2 x3 x4 x5) r

/-- The sum the reference takes the logarithm of, at a row: the sum over the lanes of the exponentials, from zero. -/
theorem ref_sumexp (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (r : Fin 100000) :
    val_main_call3_v7 (F := Ideal) x0 x1 x2 x3 x4 x5 (ix1 r)
      = ∑ k : Fin 40, val_main_call3_v6 (F := Ideal) x0 x1 x2 x3 x4 x5 (ix2 r k) := by
  refine (val_main_call3_v7_apply x0 x1 x2 x3 x4 x5 (ix1 r)).trans ?_
  show Ideal.ofBits .f32 0x00000000#32 + _ = _
  rw [Ideal.ofBits_zero_f32, zero_add]
  refine Finset.sum_congr rfl fun k _ => congrArg (val_main_call3_v6 (F := Ideal) x0 x1 x2 x3 x4 x5) ?_
  exact funext fun a => Fin.ext (by match a with | ⟨0, _⟩ => rfl | ⟨1, _⟩ => rfl)

/-- THE REFERENCE'S TAIL: its result at (row, lane) is the log-softmax of the row of the second layer's output. -/
theorem ref_softmax (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) (r : Fin 100000) (f : Fin 40) :
    val_main_v91 (F := Ideal) x0 x1 x2 x3 x4 x5 (ix2 r f)
      = logSoftmax (fun k => val_main_v90 (F := Ideal) x0 x1 x2 x3 x4 x5 (ix2 r k)) f := by
  have hmax : ∀ k : Fin 40, val_main_call3_v4 (F := Ideal) x0 x1 x2 x3 x4 x5 (ix2 r k)
      = rowMax (fun k : Fin 40 => val_main_v90 (F := Ideal) x0 x1 x2 x3 x4 x5 (ix2 r k)) := fun k => by
    have e : idx_main_call3_v3 (idx_main_call3_v4 (ix2 r k)) = ix1 r :=
      funext fun a => Fin.ext (by match a with | ⟨0, _⟩ => rfl)
    rw [val_main_call3_v4_apply, val_main_call3_v3_apply, e, ref_rowmax]
  have hsh : ∀ k : Fin 40, val_main_call3_v5 (F := Ideal) x0 x1 x2 x3 x4 x5 (ix2 r k)
      = val_main_v90 (F := Ideal) x0 x1 x2 x3 x4 x5 (ix2 r k)
        - rowMax (fun k : Fin 40 => val_main_v90 (F := Ideal) x0 x1 x2 x3 x4 x5 (ix2 r k)) := fun k => by
    rw [val_main_call3_v5_apply, hmax k]; rfl
  have e8 : idx_main_call3_v8 (idx_main_call3_v10 (ix2 r f)) = ix1 r :=
    funext fun a => Fin.ext (by match a with | ⟨0, _⟩ => rfl)
  rw [val_main_v91_apply, Ideal.subf_def, hsh f, val_main_call3_v10_apply, val_main_call3_v9_apply,
    Ideal.hostUnary_log_def, val_main_call3_v8_apply, e8, ref_sumexp]
  unfold logSoftmax
  beta_reduce
  refine congrArg (fun s => val_main_v90 (F := Ideal) x0 x1 x2 x3 x4 x5 (ix2 r f)
      - rowMax (fun k : Fin 40 => val_main_v90 (F := Ideal) x0 x1 x2 x3 x4 x5 (ix2 r k)) - Ideal.log s)
    (Finset.sum_congr rfl fun k _ => ?_)
  rw [val_main_call3_v6_apply, Ideal.hostUnary_exp_def, hsh k]

end Cert.ReferenceIdeal.RefValue

end
-- ==== Proof.PreReal.lean ====
/-
  The certificate's precondition says that each float argument has an absolute value below `+∞` at every index. Over the
  extended reals `max x (-x) < ⊤` leaves only the real numbers: `⊥` and `⊤` both have absolute value `⊤`.
-/
import proofs.«157511_j56384330662074_2_alg».proof.Pre_finite_inputs
import proofs.«157511_j56384330662074_2_alg».proof.Proof.GcnSpec
import Idealize.ShloMosaic.Lib.ReduceAll
import Idealize.ShloMosaic.Lib.ValueIdx

namespace Cert.PreReal

open Idealize.ShloMosaic Cert.Pre_finite_inputs

/-- The shape without axes has one index. -/
instance : Subsingleton S_.Idx := ⟨fun a b => funext fun d => d.elim0⟩

/-- An extended real whose absolute value is below the word of `+∞` is a real number. -/
theorem isReal_of_abs_lt {x : EReal} (h : Ideal.cmp .olt (max x (-x)) (Ideal.ofBits .f32 0x7F800000#32) = 1#1) :
    Cert.Gcn.IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Cert.Pre_finite_inputs.Facts]

/-- Every entry of the five float arguments is a real number, out of the precondition: the conjunction is split, each
    reduction by `and` over all axes gives the comparison at every index, and the comparison is the lemma above. -/
theorem real_of_pre (x0 : S100000x128.Idx → EReal) (x1 : S2x1600000.Idx → BitVec 32) (x2 : S128x64.Idx → EReal)
    (x3 : S64.Idx → EReal) (x4 : S64x40.Idx → EReal) (x5 : S40.Idx → EReal)
    (h : Cert.Pre_finite_inputs.fn (F := Ideal) x0 x1 x2 x3 x4 x5 = (fun _ => 1#1)) :
    (∀ i, Cert.Gcn.IsReal (x0 i)) ∧ (∀ i, Cert.Gcn.IsReal (x2 i)) ∧ (∀ i, Cert.Gcn.IsReal (x3 i)) ∧
      (∀ i, Cert.Gcn.IsReal (x4 i)) ∧ (∀ i, Cert.Gcn.IsReal (x5 i)) := by
  have h0 := congrFun h ValueIdx.ix0
  dsimp only [fn, fn_part1, andi] at h0
  simp only [IntOp.andi_eq_one] at h0
  obtain ⟨⟨⟨⟨e0, e2⟩, e3⟩, e4⟩, e5⟩ := h0
  exact ⟨fun i => isReal_of_abs_lt (Host.reduce_andi_all _ _ _ _ _ e0 i),
    fun i => isReal_of_abs_lt (Host.reduce_andi_all _ _ _ _ _ e2 i),
    fun i => isReal_of_abs_lt (Host.reduce_andi_all _ _ _ _ _ e3 i),
    fun i => isReal_of_abs_lt (Host.reduce_andi_all _ _ _ _ _ e4 i),
    fun i => isReal_of_abs_lt (Host.reduce_andi_all _ _ _ _ _ e5 i)⟩

end Cert.PreReal
-- ==== Proof.Claims.lean ====
/-
  The five claims of the certificate, assembled.

  The frames of the two kernel programs are the generated frame certificates; the reference's frame is its run with the
  result dropped. The idealized kernel's three regions and the host operations around them compute, entry by entry, the
  two-layer network of the specification (`Cert.Gcn.net`) on the arguments as launched: the self loop of each layer added
  in node space, both normalisations applied to nodes. The reference appends one edge `i → i` per node and weights every
  edge by the product of the two normalisations; read index by index it is the same network when the float arguments are
  real numbers — distributivity over finite sums of reals, the only law used, and the reason the precondition is opened.
-/
import proofs.«157511_j56384330662074_2_alg».proof.Defs
import proofs.«157511_j56384330662074_2_alg».proof.Proof.Gen.Kernel
import proofs.«157511_j56384330662074_2_alg».proof.Proof.Gen.Kernel.Frame
import proofs.«157511_j56384330662074_2_alg».proof.Proof.Gen.KernelIdeal
import proofs.«157511_j56384330662074_2_alg».proof.Proof.Gen.KernelIdeal.Frame
import proofs.«157511_j56384330662074_2_alg».proof.Proof.Gen.ReferenceIdeal
import proofs.«157511_j56384330662074_2_alg».proof.Proof.Gen.Pre_finite_inputs
import proofs.«157511_j56384330662074_2_alg».proof.Proof.KRun
import proofs.«157511_j56384330662074_2_alg».proof.Proof.KValue
import proofs.«157511_j56384330662074_2_alg».proof.Proof.RefBridge
import proofs.«157511_j56384330662074_2_alg».proof.Proof.RefNet
import proofs.«157511_j56384330662074_2_alg».proof.Proof.RefSoftmax
import proofs.«157511_j56384330662074_2_alg».proof.Proof.PreReal

noncomputable section

namespace Cert.Proof.GcnClaims

open Idealize.ShloMosaic Idealize.ShloMosaic.TcCoe Idealize.SL.Sem Idealize.ShloMosaic.ValueIdx Cert.Gcn

theorem frame_p : Cert.frame_Kernel := fun m ρ _ => Cert.Kernel.Gen.frame m ρ

theorem frame_pi : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing: there is no conjunct to restate. -/
theorem preserves : Cert.preserves_Kernel_KernelIdeal := trivial

/-- From memories that agree on the arguments, finite on the kernel's side, both programs end with the network's value
    in their result arrays. -/
theorem algebraic : Cert.algebraic_KernelIdeal_ReferenceIdeal := by
  intro m ρ m' ρ' hpre hagree
  refine ⟨fun c => Cert.KernelIdeal.Gen.W6 m ρ c (Proc.devRef .tc Cert.KernelIdeal.main_v0),
    Cert.KernelIdeal.RunValue.run_value m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5⟩ := hagree c
  rw [h0, h1, h2, h3, h4, h5]
  obtain ⟨r0, r2, r3, r4, _⟩ := Cert.PreReal.real_of_pre _ _ _ _ _ _ (hpre c)
  funext i
  obtain ⟨r, f, rfl⟩ : ∃ (r : Fin 100000) (f : Fin 40), i = ix2 r f := ⟨i 0, i 1, eq_ix2 i⟩
  rw [Cert.ReferenceIdeal.RefValue.ref_net _ _ _ _ _ _ r0 r2 r3 r4
    (Cert.ReferenceIdeal.RefValue.ref_softmax _ _ _ _ _ _) r f]
  exact (Cert.KernelIdeal.RunValue.kernel_value m ρ c r f).symm

end Cert.Proof.GcnClaims

end
-- ==== Proof.lean ====
/-
  A two-layer graph convolution — symmetric degree normalisation, self loops, a rectifier between the layers, a
  log-softmax at the end — computed by three tiled kernels with row gathers and accumulating row scatters between them,
  against a reference that lists the self loops as edges and weights every edge by both normalisations.
  `Cert.Claim` is the conjunction of the three frames, the (empty) idealization ledger and the equality of the two
  idealized programs' results as extended reals; each conjunct is proved in Proof/Claims.lean.
-/
import proofs.«157511_j56384330662074_2_alg».proof.Defs
import proofs.«157511_j56384330662074_2_alg».proof.Proof.Gen.Kernel
import proofs.«157511_j56384330662074_2_alg».proof.Proof.Gen.KernelIdeal
import proofs.«157511_j56384330662074_2_alg».proof.Proof.Gen.ReferenceIdeal
import proofs.«157511_j56384330662074_2_alg».proof.Proof.Gen.Pre_finite_inputs
import proofs.«157511_j56384330662074_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_p, GcnClaims.frame_pi, GcnClaims.frame_ri, GcnClaims.preserves, GcnClaims.algebraic⟩

end Cert.Proof

end
